-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4096x1024 .f32) (main_arg1 : FVec F S1024x1024 .f32) (main_arg2 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4096x1024 : Shape := ⟨2, ![4096, 1024]⟩
abbrev S1024x1024 : Shape := ⟨2, ![1024, 1024]⟩
abbrev S256x1024 : Shape := ⟨2, ![256, 1024]⟩
abbrev S256x1 : Shape := ⟨2, ![256, 1]⟩
abbrev S256 : Shape := ⟨1, ![256]⟩

abbrev nBuf : Space → Nat
  | .hbm => 7
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S256x1, .f32⟩
  | .local _ .vmem, ⟨19, _⟩ => ⟨S256x1, .f32⟩
  | .local _ .vmem, ⟨20, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_23 : BitVec 32 := 0#32
  let v42 : BitVec 1 := Scalar.cmpi .ne v41 c0_i32_23
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  packedbf16_S256x1024_S256x1024_0_0 : (Rect.unit (s := S256x1024) ![0, 0] S256x1024.size inb_S256x1024_S256x1024_0_0).PackedRows (EltTy.packing .bf16)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S256x1024_S256x1024 : S256x1024.ShapeCasts S256x1024
  shapeCasts_S1024x1024_S1024x1024 : S1024x1024.ShapeCasts S1024x1024
  reduces_S256x1024_S256 : S256x1024.Reduces [1] S256
  shapeCasts_S256_S256x1 : S256.ShapeCasts S256x1
  broadcasts_S256x1_S256x1024 : S256x1.Broadcasts S256x1024
  dot_S256x1024_S1024x1024_S256x1024_1_0_0_1_n_n_wf : DotDims.WF S256x1024 S1024x1024 S256x1024 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .f32 = 32 ∨ (Rect.block (s := S4096x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .bf16 = 32 ∨ (Rect.block (s := S4096x1024) S256x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .f32 = 32 ∨ (Rect.block (s := S4096x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .f32 = 32 ∨ (Rect.block (s := S4096x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S4096x1024.size a
  hwx1_3 : ∀ i : grid1.Coords, EltTy.bits .f32 = 32 ∨ (Rect.block (s := S4096x1024) S256x1024.size (cc1_transform_3 i) (hinb1_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x1, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.WordR0.lean ====
/- REGION 0 of the kernel program: the projection kernel on its grid of 16 row blocks.

   The token matrix x (4096 × 1024) is cut into 16 blocks of 256 rows. At the point t of the grid the body is
   handed the t-th block of x and the two weight matrices whole, and leaves in its three output buffers
     * the block's rows times the first weight matrix, every entry scaled by the constant 1/32,
     * the block's rows times the second weight matrix,
     * the block's rows themselves, in the narrower float format.
   Every output entry of row r depends on row r of x only, so the 16 points write 16 disjoint row blocks of each
   of the three output arrays.

   This file states that, at ANY float interpretation, as the pipeline's proof data at a PARAMETER V (the
   contents of the core's buffers when the region is entered): what each window's staging buffer holds before
   and after the body at a point, the body's triple, and the pipeline's body obligation. Nothing here says what
   the payloads compute; that is read off at the ideal instance in a later file. -/
import proofs.«144214_j65481071395393_2_alg».proof.Proof.Gen.Kernel.Launch
import proofs.«144214_j65481071395393_2_alg».proof.Proof.Gen.Kernel.Skeleton
import proofs.«144214_j65481071395393_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with a 1024-long axis is looked at one coordinate at a time
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## A window's block at a point -/

/-- The block of window `w` at the point `t`, read off the window's array as the region finds it: for the first
    window rows 256·t … 256·t + 255 of x, for the two weight windows the whole matrix at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the input buffers hold when the body runs

   An input buffer holds its window's block at every point, whether the pipeline copied it in at that point or
   not: the row block of x is copied in at every point; a weight matrix is copied in once, at the first point,
   and since its block index never moves and the body does not write it, it is still there at the later ones.
   Stated for any proof data over the entry contents whose body leaves the input blocks in place. -/

theorem xrows_staged_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

theorem wq_staged_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

theorem wk_staged_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-! ## The rectangles the body reads and writes

   Every access of the body is to a whole buffer: a 256 × 1024 block, or a 1024 × 1024 weight matrix. -/

abbrev rBlk : Rect S256x1024 := Rect.unit (s := S256x1024) ![0, 0] S256x1024.size inb_S256x1024_S256x1024_0_0
abbrev rWgt : Rect S1024x1024 := Rect.unit (s := S1024x1024) ![0, 0] S1024x1024.size inb_S1024x1024_S1024x1024_0_0

/-! ## What the body leaves in each output buffer

   Each output buffer is written once, whole, so after the body it holds that one store's payload. Written as
   the canonical contents of the list of stores (one store here), which is the form the store rule produces. -/

/-- The first output: the payload "rows times the first weights, scaled" of what the two loads read. -/
def out0_3 (x0 : Vec F S256x1024 .f32) (x1 : Vec F S1024x1024 .f32) : Vec F S256x1024 .f32 :=
  View.canon [⟨rBlk, k0_pay1 (View.ld x0 rBlk) (View.ld x1 rWgt)⟩]

/-- The second output: the payload "rows times the second weights". -/
def out0_4 (x0 : Vec F S256x1024 .f32) (x2 : Vec F S1024x1024 .f32) : Vec F S256x1024 .f32 :=
  View.canon [⟨rBlk, k0_pay2 (View.ld x0 rBlk) (View.ld x2 rWgt)⟩]

/-- The third output: the rows in the narrower format. -/
def out0_5 (x0 : Vec F S256x1024 .f32) : Vec F S256x1024 .bf16 :=
  View.canon [⟨rBlk, k0_pay3 (View.ld x0 rBlk)⟩]

/-- A single store through the whole-block rectangle reaches every index of the block (the rectangle's extent
    is the block's, checked by evaluation), whatever the element type and the payload. -/
theorem whole_block_covers {e : EltTy} (p : rBlk.shape.Idx → Elt F e) (y : S256x1024.Idx) :
    ∃ pc ∈ ([⟨rBlk, p⟩] : List (View.Piece (Elt F) S256x1024 e)), y ∈ pc.1.set :=
  View.cover_of_tiled [⟨rBlk, p⟩] S256x1024.size (by rfl) y

/-! ## The body's triple -/

set_option maxHeartbeats 1000000 in
/-- The body on six whole buffers — the three inputs at read contents `x0`, `x1`, `x2`, the three outputs at
    anything — runs to a state where the inputs are as they were and each output holds its payload of the
    inputs. The body reads each output buffer just before it overwrites it whole; what those three reads return
    is used by no payload, so the outputs' initial contents do not matter. -/
theorem project_body_triple (c : Dev nD) (E : Set ℕ) (i : grid0.Coords)
    (a1 : Memref sig .tc .vmem S256x1024 .f32) (h1 : a1.IsWhole)
    (a2 : Memref sig .tc .vmem S1024x1024 .f32) (h2 : a2.IsWhole)
    (a3 : Memref sig .tc .vmem S1024x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x1024 .bf16) (h6 : a6.IsWhole)
    (x0 : Vec F S256x1024 .f32) (x1 x2 : Vec F S1024x1024 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare (out0_3 x0 x1) ∗ owns (c : Thread nD τ) a5 fullShare (out0_4 x0 x2)
            ∗ owns (c : Thread nD τ) a6 fullShare (out0_5 x0)) -∗ K ⟨⟩))
      ⊢ wp frame (wpE (defs₀ (F := F)) Variants.none c none) E (cc0__project_kernel i a1 h1 a2 h2 a3 h3 a4 h4 a5 h5 a6 h6) K := by
  simp only [cc0__project_kernel_eq_skeleton]; unfold cc0__project_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (whole_block_covers _)
  isplitl [H5]
  · iexists _; isplitr
    swap; · iexact H5
    ipureintro
    exact View.read_writes_eq_canon _ _ _ (whole_block_covers _)
  iexists _; isplitr
  swap; · iexact H6
  ipureintro
  exact View.read_writes_eq_canon _ _ _ (whole_block_covers _)

/-! ## The pipeline's proof data -/

/-- The proof data of the region on core `c`: the arrays as the region finds them; after the body at the point
    `t` each input buffer still at its block and each output buffer at its payload of the input blocks; the
    invariant "the rest of the core's scoped memory and its generator register, untouched"; nothing owed; every
    buffer held in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
    | ⟨5, _⟩ => out0_5 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 0 t) := by dsimp only [dat0]

/-- The three input buffers hold their blocks when the body runs, at every point. -/
theorem xrows_staged (c : Dev nD) (t : Fin cfg0.N) (d) : (dat0 V c).before 0 t d = iblk0 V c 0 t :=
  xrows_staged_of V (dat0 V c) (A_eq0 V c 0) (after0_0 V c) t d
theorem wq_staged (c : Dev nD) (t : Fin cfg0.N) (d) : (dat0 V c).before 1 t d = iblk0 V c 1 t :=
  wq_staged_of V (dat0 V c) (A_eq0 V c 1) (after0_1 V c) t d
theorem wk_staged (c : Dev nD) (t : Fin cfg0.N) (d) : (dat0 V c).before 2 t d = iblk0 V c 2 t :=
  wk_staged_of V (dat0 V c) (A_eq0 V c 2) (after0_2 V c) t d

/-! ## The body obligation -/

/-- What the body is handed at the point `t`: the invariant, what the core owes, and the six current staging
    buffers, each at what the pipeline left in it, -/
def projPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back: the same, each buffer at what the body leaves in it. -/
def projPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point of the grid. The three input buffers hold the point's blocks, so the body's triple
    applies at those blocks; the invariant and what the core owes are not touched by the body and pass through. -/
theorem project_at_point (c : Dev nD) (t : Fin cfg0.N) :
    projPre V c t ⊢ wp frame (wpE (defs₀ (F := F)) Variants.none c none) Set.univ (bodyAt0 t) (fun _ => projPost V c t) := by
  unfold projPre projPost bodyAt0
  simp only [xrows_staged, wq_staged, wk_staged]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (project_body_triple c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation for the region: the statement above at every point, the six windows
    conjoined one by one. -/
theorem body_obligation0 (c : Dev nD) : BodyObligation (dat0 (F := F) V c) (defs₀ (F := F)) Variants.none () Set.univ := fun t => by
  rw [bigSep_W0, bigSep_W0]
  exact project_at_point V c t

end Cert.Kernel.R0

end
-- ==== Proof.WordR1Base.lean ====
/-
  The attention kernel's body, case by case.

  The kernel's grid has 16 query blocks times 4 key tiles; the point t reads key tile t mod 4 of query block t / 4.
  The body keeps three buffers between points: the running maximum of the scores of each of the block's 256 query rows,
  the running sum of the exponentials, and the running weighted sum of the value rows.  At the first key tile it resets
  them (to −∞, 0, 0) before use; at every tile it folds the tile in; at the last tile it also stores the quotient
  of the weighted sum by the sum of exponentials into the output block.  So there are three cases of the two
  conditionals: first tile (reset, no output), middle tiles (neither), last tile (output).  Here: the two conditions in
  closed form over the grid, where the output window is idle, the memory the body runs on, and the region's
  invariant at its entry spelt buffer by buffer.
-/
import proofs.«144214_j65481071395393_2_alg».proof.Proof.Gen.Kernel.Launch
import proofs.«144214_j65481071395393_2_alg».proof.Proof.Gen.Kernel.Skeleton
import proofs.«144214_j65481071395393_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first key tile": the body's first conditional, as the kernel computes it from the grid coordinates. -/
abbrev isFirst (i : grid1.Coords) : Prop := (Scalar.cmpi .ne (Scalar.extui (Scalar.cmpi .eq (BitVec.ofNat 32 (i 1).val) 0#32)) 0#32) = 1#1
/-- It holds at the points ≡ 0 (mod 4). -/
theorem isFirst_iff : ∀ t : Fin cfg1.N, isFirst (grid1.coords t) ↔ t.val % 4 = 0 :=
  (by decide +kernel : ∀ t : Fin grid1.N, isFirst (grid1.coords t) ↔ t.val % 4 = 0)

/-- "This is the last key tile": the body's second conditional. -/
abbrev isLast (i : grid1.Coords) : Prop := k1_cond2 i = 1#1
/-- It holds at the points ≡ 3 (mod 4). -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live_q : ∀ t : Fin cfg1.N, cfg1.idle 0 (grid1.coords t) = false := by decide +kernel
theorem live_k : ∀ t : Fin cfg1.N, cfg1.idle 1 (grid1.coords t) = false := by decide +kernel
theorem live_v : ∀ t : Fin cfg1.N, cfg1.idle 2 (grid1.coords t) = false := by decide +kernel
/-- Away from the last key tile the body stores nothing into the output block, -/
theorem idle_out : ∀ t : Fin cfg1.N, ¬isLast (grid1.coords t) → cfg1.idle 3 (grid1.coords t) = true := by decide +kernel
/-- and the block is not written back there; -/
theorem noFlush_out : ∀ t : Fin cfg1.N, ¬isLast (grid1.coords t) → (cfg1.win 3).flush t = false := by decide +kernel
/-- at the last key tile it stores the block. -/
theorem live_out : ∀ t : Fin cfg1.N, isLast (grid1.coords t) → cfg1.idle 3 (grid1.coords t) = false := by decide +kernel

/-! ## The memory the body runs on -/

/-- Each window's current staging memref at point t, as the pipeline passes it, and its wholeness. -/
abbrev mq (t : Fin cfg1.N) : Memref sig .tc .vmem S256x1024 .f32 := win1_0.stage (cfg1.slots t 0)
abbrev hq (t : Fin cfg1.N) : (mq t).IsWhole := hstage1_0 ((cfg1.slots t 0).cast nbuf1_0)
abbrev mk (t : Fin cfg1.N) : Memref sig .tc .vmem S1024x1024 .f32 := win1_1.stage (cfg1.slots t 1)
abbrev hk (t : Fin cfg1.N) : (mk t).IsWhole := hstage1_1 ((cfg1.slots t 1).cast nbuf1_1)
abbrev mv (t : Fin cfg1.N) : Memref sig .tc .vmem S1024x1024 .bf16 := win1_2.stage (cfg1.slots t 2)
abbrev hv (t : Fin cfg1.N) : (mv t).IsWhole := hstage1_2 ((cfg1.slots t 2).cast nbuf1_2)
abbrev mo (t : Fin cfg1.N) : Memref sig .tc .vmem S256x1024 .f32 := win1_3.stage (cfg1.slots t 3)
abbrev ho (t : Fin cfg1.N) : (mo t).IsWhole := hstage1_3 ((cfg1.slots t 3).cast nbuf1_3)
/-- The three buffers the kernel keeps between points: running maximum, running sum, running weighted sum. -/
abbrev sM : Memref sig .tc .vmem S256x1 .f32 := Memref.whole cc1_scratch0
abbrev sL : Memref sig .tc .vmem S256x1 .f32 := Memref.whole cc1_scratch1
abbrev sA : Memref sig .tc .vmem S256x1024 .f32 := Memref.whole cc1_scratch2
/-- One staging buffer of the output window and the three kept buffers as views, through which contents are stated. -/
abbrev VO : View sig .tc .vmem S256x1024 .f32 := (Memref.whole cc1_stg3_0 : Memref sig .tc .vmem S256x1024 .f32).view
abbrev VM : View sig .tc .vmem S256x1 .f32 := sM.view
abbrev VL : View sig .tc .vmem S256x1 .f32 := sL.view
abbrev VA : View sig .tc .vmem S256x1024 .f32 := sA.view

/-- The region's invariant around a statement P of the three kept buffers: the other region's ten staging buffers, each
    whole at some contents (this region never touches them), then P, and the generator register at some state. -/
def Inv (c : Dev nD) (P : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ P) ∗ (∃ r, prngReg c r))

/-- What of the invariant is not the kept buffers. -/
def Rest (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)) ∗ (∃ r, prngReg c r))

theorem Inv_out (c : Dev nD) (P : sProp 𝕄) : Inv c P ⊢ iprop(Rest (F := F) c ∗ P) := by
  unfold Inv Rest
  iintro ⟨⟨H0, H1, H2, H3, H4, H5, H6, H7, H8, H9, HP⟩, Hg⟩
  isplitr [HP]
  · isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hg
  iexact HP

theorem Inv_in (c : Dev nD) (P : sProp 𝕄) : iprop(Rest (F := F) c ∗ P) ⊢ Inv c P := by
  unfold Inv Rest
  iintro ⟨⟨⟨H0, H1, H2, H3, H4, H5, H6, H7, H8, H9⟩, Hg⟩, HP⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HP
  iexact Hg

/-- The region's invariant at its entry: the three kept buffers at some contents. -/
theorem PhiA_eq (c : Dev nD) :
    (Pipeline.ΦA spec1 c : sProp 𝕄)
      = Inv c iprop((∃ d, owns (c : Thread nD τ) sM fullShare d) ∗ (∃ d, owns (c : Thread nD τ) sL fullShare d) ∗ (∃ d, owns (c : Thread nD τ) sA fullShare d)) := by
  unfold Pipeline.ΦA Inv; rw [scopedRest1_eq]; simp only [sM, sL, sA, owns_whole]
  rfl

end Cert.Kernel.R1

end
-- ==== Proof.WordR1First.lean ====
/-
  The attention kernel's body at a FIRST key tile: it resets the three kept buffers, folds the tile in, and stores
  nothing into the output block.  On whole memrefs — the three inputs at their contents, the output block and the kept
  buffers at anything — the body runs to the end, leaving the inputs as they were and each of the other four buffers with
  the list of pieces its stores wrote (found by running the body).
-/
import proofs.«144214_j65481071395393_2_alg».proof.Proof.WordR1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first key tile. -/
noncomputable def runFirst (c : Dev nD) (i : grid1.Coords) (arg2 : Memref sig .tc .vmem S256x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole) (hc0 : isFirst i) (hc1 : ¬isLast i)
    (x0 : Vec F S256x1024 .f32) (x1 : Vec F S1024x1024 .f32) (x2 : Vec F S1024x1024 .bf16) :
    Σ' (LM : List (View.Piece (Elt F) S256x1 .f32)) (LL : List (View.Piece (Elt F) S256x1 .f32)), { LA : List (View.Piece (Elt F) S256x1024 .f32) //
      ∀ (xo : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
      ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xo E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    iexists _; iexact H8

end Cert.Kernel.R1

end
-- ==== Proof.WordR1Mid.lean ====
/-
  The attention kernel's body at a MIDDLE key tile: it folds the tile into the three kept buffers, which hold what the
  point before left, and stores nothing into the output block.
-/
import proofs.«144214_j65481071395393_2_alg».proof.Proof.WordR1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle key tile, the kept buffers at xm, xl, xa. -/
noncomputable def runMid (c : Dev nD) (i : grid1.Coords) (arg2 : Memref sig .tc .vmem S256x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole) (hc0 : ¬isFirst i) (hc1 : ¬isLast i)
    (x0 : Vec F S256x1024 .f32) (x1 : Vec F S1024x1024 .f32) (x2 : Vec F S1024x1024 .bf16)
    (xm : Vec F S256x1 .f32) (xl : Vec F S256x1 .f32) (xa : Vec F S256x1024 .f32) :
    Σ' (LM : List (View.Piece (Elt F) S256x1 .f32)) (LL : List (View.Piece (Elt F) S256x1 .f32)), { LA : List (View.Piece (Elt F) S256x1024 .f32) //
      ∀ (xo : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xm ∗ owns (c : Thread nD τ) arg7 fullShare xl ∗ owns (c : Thread nD τ) arg8 fullShare xa
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
      ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xo E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    iexists _; iexact H8

end Cert.Kernel.R1

end
-- ==== Proof.WordR1Last.lean ====
/-
  The attention kernel's body at a LAST key tile: it folds the tile into the three kept buffers, which hold what the
  point before left, and stores the quotient of the weighted sum by the sum of exponentials into the output block.
-/
import proofs.«144214_j65481071395393_2_alg».proof.Proof.WordR1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last key tile, the kept buffers at xm, xl, xa. -/
noncomputable def runLast (c : Dev nD) (i : grid1.Coords) (arg2 : Memref sig .tc .vmem S256x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole) (hc0 : ¬isFirst i) (hc1 : isLast i)
    (x0 : Vec F S256x1024 .f32) (x1 : Vec F S1024x1024 .f32) (x2 : Vec F S1024x1024 .bf16)
    (xm : Vec F S256x1 .f32) (xl : Vec F S256x1 .f32) (xa : Vec F S256x1024 .f32) :
    Σ' (LO : List (View.Piece (Elt F) S256x1024 .f32)) (LM : List (View.Piece (Elt F) S256x1 .f32)) (LL : List (View.Piece (Elt F) S256x1 .f32)), { LA : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xm ∗ owns (c : Thread nD τ) arg7 fullShare xl ∗ owns (c : Thread nD τ) arg8 fullShare xa
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
      ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]; · iexists _; iexact H6
    isplitl [H7]; · iexists _; iexact H7
    iexists _; iexact H8

end Cert.Kernel.R1

end
-- ==== Proof.WordR1.lean ====
/-
  The attention region point by point.

  What the three kept buffers (running maximum, running sum of exponentials, running weighted sum) and the output
  block hold after each grid point, by recursion on the point: a first key tile starts afresh, a middle or last key
  tile continues from what the point before left.  The region's invariant names the kept buffers' contents between
  points (anything before the first point), the proof data give each input window its block of the array as the region
  found it and the output window what the last key tile stored, and the body obligation holds at every point by the case's
  run.  Everything is stated at a parameter V, the buffers' contents when the region is entered, and for any float
  instance.
-/
import proofs.«144214_j65481071395393_2_alg».proof.Proof.WordR1First
import proofs.«144214_j65481071395393_2_alg».proof.Proof.WordR1Mid
import proofs.«144214_j65481071395393_2_alg».proof.Proof.WordR1Last

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block's staging buffer holds its block at every point, fetched there or not (it is fetched at the first key
    tile of each query block and its index does not move over the key tiles). -/
theorem q_staged_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key tile's staging buffer holds its block at every point. -/
theorem k_staged_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value tile's staging buffer holds its block at every point. -/
theorem v_staged_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The three cases at a point -/

theorem notLast_of_first (t : Fin cfg1.N) (h0 : t.val % 4 = 0) : ¬isLast (grid1.coords t) :=
  fun h => by have := (isLast_iff t).mp h; omega

/-- The run of the body at a first key tile t, on the point's memrefs and input blocks. -/
def rFirst (c : Dev nD) (t : Fin cfg1.N) (h0 : t.val % 4 = 0) :=
  runFirst (F := F) c (grid1.coords t) (mq t) (hq t) (mk t) (hk t) (mv t) (hv t) (mo t) (ho t) sM (Memref.isWhole_whole _) sL (Memref.isWhole_whole _) sA (Memref.isWhole_whole _)
    ((isFirst_iff t).mpr h0) (notLast_of_first t h0) (iblk1 V c 0 t) (iblk1 V c 1 t) (iblk1 V c 2 t)

/-- The run at a middle key tile t, the kept buffers at xm, xl, xa. -/
def rMid (c : Dev nD) (t : Fin cfg1.N) (h0 : ¬t.val % 4 = 0) (h1 : ¬t.val % 4 = 3) (xm xl : Vec F S256x1 .f32) (xa : Vec F S256x1024 .f32) :=
  runMid (F := F) c (grid1.coords t) (mq t) (hq t) (mk t) (hk t) (mv t) (hv t) (mo t) (ho t) sM (Memref.isWhole_whole _) sL (Memref.isWhole_whole _) sA (Memref.isWhole_whole _)
    (fun h => h0 ((isFirst_iff t).mp h)) (fun h => h1 ((isLast_iff t).mp h)) (iblk1 V c 0 t) (iblk1 V c 1 t) (iblk1 V c 2 t) xm xl xa

/-- The run at a last key tile t, the kept buffers at xm, xl, xa. -/
def rLast (c : Dev nD) (t : Fin cfg1.N) (h0 : ¬t.val % 4 = 0) (h1 : t.val % 4 = 3) (xm xl : Vec F S256x1 .f32) (xa : Vec F S256x1024 .f32) :=
  runLast (F := F) c (grid1.coords t) (mq t) (hq t) (mk t) (hk t) (mv t) (hv t) (mo t) (ho t) sM (Memref.isWhole_whole _) sL (Memref.isWhole_whole _) sA (Memref.isWhole_whole _)
    (fun h => h0 ((isFirst_iff t).mp h)) ((isLast_iff t).mpr h1) (iblk1 V c 0 t) (iblk1 V c 1 t) (iblk1 V c 2 t) xm xl xa

/-! ### Each buffer's stores cover it -/

theorem coverM_first (c : Dev nD) (t : Fin cfg1.N) (h0 : t.val % 4 = 0) (y : S256x1.Idx) : ∃ pc ∈ (rFirst V c t h0).1, y ∈ pc.1.set :=
  View.cover_of_tiledL (rFirst V c t h0).1 S256x1.size (by unfold rFirst; sl_kernel_rfl) y
theorem coverL_first (c : Dev nD) (t : Fin cfg1.N) (h0 : t.val % 4 = 0) (y : S256x1.Idx) : ∃ pc ∈ (rFirst V c t h0).2.1, y ∈ pc.1.set :=
  View.cover_of_tiledL (rFirst V c t h0).2.1 S256x1.size (by unfold rFirst; sl_kernel_rfl) y
theorem coverA_first (c : Dev nD) (t : Fin cfg1.N) (h0 : t.val % 4 = 0) (y : S256x1024.Idx) : ∃ pc ∈ (rFirst V c t h0).2.2.1, y ∈ pc.1.set :=
  View.cover_of_tiledL (rFirst V c t h0).2.2.1 S256x1024.size (by unfold rFirst; sl_kernel_rfl) y

theorem coverM_mid (c : Dev nD) (t : Fin cfg1.N) (h0 : ¬t.val % 4 = 0) (h1 : ¬t.val % 4 = 3) (xm xl : Vec F S256x1 .f32) (xa : Vec F S256x1024 .f32) (y : S256x1.Idx) :
    ∃ pc ∈ (rMid V c t h0 h1 xm xl xa).1, y ∈ pc.1.set :=
  View.cover_of_tiledL (rMid V c t h0 h1 xm xl xa).1 S256x1.size (by unfold rMid; sl_kernel_rfl) y
theorem coverL_mid (c : Dev nD) (t : Fin cfg1.N) (h0 : ¬t.val % 4 = 0) (h1 : ¬t.val % 4 = 3) (xm xl : Vec F S256x1 .f32) (xa : Vec F S256x1024 .f32) (y : S256x1.Idx) :
    ∃ pc ∈ (rMid V c t h0 h1 xm xl xa).2.1, y ∈ pc.1.set :=
  View.cover_of_tiledL (rMid V c t h0 h1 xm xl xa).2.1 S256x1.size (by unfold rMid; sl_kernel_rfl) y
theorem coverA_mid (c : Dev nD) (t : Fin cfg1.N) (h0 : ¬t.val % 4 = 0) (h1 : ¬t.val % 4 = 3) (xm xl : Vec F S256x1 .f32) (xa : Vec F S256x1024 .f32) (y : S256x1024.Idx) :
    ∃ pc ∈ (rMid V c t h0 h1 xm xl xa).2.2.1, y ∈ pc.1.set :=
  View.cover_of_tiledL (rMid V c t h0 h1 xm xl xa).2.2.1 S256x1024.size (by unfold rMid; sl_kernel_rfl) y

theorem coverO_last (c : Dev nD) (t : Fin cfg1.N) (h0 : ¬t.val % 4 = 0) (h1 : t.val % 4 = 3) (xm xl : Vec F S256x1 .f32) (xa : Vec F S256x1024 .f32) (y : S256x1024.Idx) :
    ∃ pc ∈ (rLast V c t h0 h1 xm xl xa).1, y ∈ pc.1.set :=
  View.cover_of_tiledL (rLast V c t h0 h1 xm xl xa).1 S256x1024.size (by unfold rLast; sl_kernel_rfl) y
theorem coverM_last (c : Dev nD) (t : Fin cfg1.N) (h0 : ¬t.val % 4 = 0) (h1 : t.val % 4 = 3) (xm xl : Vec F S256x1 .f32) (xa : Vec F S256x1024 .f32) (y : S256x1.Idx) :
    ∃ pc ∈ (rLast V c t h0 h1 xm xl xa).2.1, y ∈ pc.1.set :=
  View.cover_of_tiledL (rLast V c t h0 h1 xm xl xa).2.1 S256x1.size (by unfold rLast; sl_kernel_rfl) y
theorem coverL_last (c : Dev nD) (t : Fin cfg1.N) (h0 : ¬t.val % 4 = 0) (h1 : t.val % 4 = 3) (xm xl : Vec F S256x1 .f32) (xa : Vec F S256x1024 .f32) (y : S256x1.Idx) :
    ∃ pc ∈ (rLast V c t h0 h1 xm xl xa).2.2.1, y ∈ pc.1.set :=
  View.cover_of_tiledL (rLast V c t h0 h1 xm xl xa).2.2.1 S256x1.size (by unfold rLast; sl_kernel_rfl) y
theorem coverA_last (c : Dev nD) (t : Fin cfg1.N) (h0 : ¬t.val % 4 = 0) (h1 : t.val % 4 = 3) (xm xl : Vec F S256x1 .f32) (xa : Vec F S256x1024 .f32) (y : S256x1024.Idx) :
    ∃ pc ∈ (rLast V c t h0 h1 xm xl xa).2.2.2.1, y ∈ pc.1.set :=
  View.cover_of_tiledL (rLast V c t h0 h1 xm xl xa).2.2.2.1 S256x1024.size (by unfold rLast; sl_kernel_rfl) y

/-! ## What the buffers hold after each point -/

/-- The output block and the three kept buffers (maximum, sum, weighted sum). -/
abbrev St (F : FTy → Type) [FloatOps F] : Type := Vec F S256x1024 .f32 × Vec F S256x1 .f32 × Vec F S256x1 .f32 × Vec F S256x1024 .f32

/-- After a first key tile: the output block is not stored (a placeholder nothing reads), the kept buffers hold what the
    case's stores leave. -/
def afterFirst (c : Dev nD) (t : Fin cfg1.N) (h0 : t.val % 4 = 0) : St F :=
  (View.canon [], View.canon (rFirst V c t h0).1, View.canon (rFirst V c t h0).2.1, View.canon (rFirst V c t h0).2.2.1)

/-- After a middle key tile, from what the point before left. -/
def afterMid (c : Dev nD) (t : Fin cfg1.N) (h0 : ¬t.val % 4 = 0) (h1 : ¬t.val % 4 = 3) (prev : St F) : St F :=
  (View.canon [], View.canon (rMid V c t h0 h1 prev.2.1 prev.2.2.1 prev.2.2.2).1, View.canon (rMid V c t h0 h1 prev.2.1 prev.2.2.1 prev.2.2.2).2.1,
    View.canon (rMid V c t h0 h1 prev.2.1 prev.2.2.1 prev.2.2.2).2.2.1)

/-- After a last key tile, from what the point before left: the output block is stored. -/
def afterLast (c : Dev nD) (t : Fin cfg1.N) (h0 : ¬t.val % 4 = 0) (h1 : t.val % 4 = 3) (prev : St F) : St F :=
  (View.canon (rLast V c t h0 h1 prev.2.1 prev.2.2.1 prev.2.2.2).1, View.canon (rLast V c t h0 h1 prev.2.1 prev.2.2.1 prev.2.2.2).2.1,
    View.canon (rLast V c t h0 h1 prev.2.1 prev.2.2.1 prev.2.2.2).2.2.1, View.canon (rLast V c t h0 h1 prev.2.1 prev.2.2.1 prev.2.2.2).2.2.2.1)

/-- THE RECURSION over the grid points: a first key tile starts afresh, the others continue. -/
def stAt (c : Dev nD) : (n : ℕ) → n < cfg1.N → St F
  | 0, hn => afterFirst V c ⟨0, hn⟩ (Nat.zero_mod 4)
  | n + 1, hn =>
    if h0 : (n + 1) % 4 = 0 then afterFirst V c ⟨n + 1, hn⟩ h0
    else if h1 : (n + 1) % 4 = 3 then afterLast V c ⟨n + 1, hn⟩ h0 h1 (stAt c n (Nat.lt_of_succ_lt hn))
    else afterMid V c ⟨n + 1, hn⟩ h0 h1 (stAt c n (Nat.lt_of_succ_lt hn))

theorem stAt_first (c : Dev nD) (t : Fin cfg1.N) (h0 : t.val % 4 = 0) : stAt V c t.val t.isLt = afterFirst V c t h0 := by
  obtain ⟨n, hn⟩ := t
  cases n with
  | zero => rfl
  | succ n => exact dif_pos h0

theorem stAt_mid (c : Dev nD) (t : Fin cfg1.N) (h0 : ¬t.val % 4 = 0) (h1 : ¬t.val % 4 = 3) :
    stAt V c t.val t.isLt = afterMid V c t h0 h1 (stAt V c (t.val - 1) (Nat.lt_of_le_of_lt (Nat.sub_le _ _) t.isLt)) := by
  obtain ⟨n, hn⟩ := t
  cases n with
  | zero => exact absurd (Nat.zero_mod 4) h0
  | succ n => exact (dif_neg h0).trans (dif_neg h1)

theorem stAt_last (c : Dev nD) (t : Fin cfg1.N) (h0 : ¬t.val % 4 = 0) (h1 : t.val % 4 = 3) :
    stAt V c t.val t.isLt = afterLast V c t h0 h1 (stAt V c (t.val - 1) (Nat.lt_of_le_of_lt (Nat.sub_le _ _) t.isLt)) := by
  obtain ⟨n, hn⟩ := t
  cases n with
  | zero => exact absurd (Nat.zero_mod 4) h0
  | succ n => exact (dif_neg h0).trans (dif_pos h1)

/-! ## The invariant between points -/

/-- Before the first point the region's entry invariant (the kept buffers at anything); after point n the kept buffers
    at what that point left. -/
def PhiS (c : Dev nD) : (n : ℕ) → n ≤ cfg1.N → sProp 𝕄
  | 0, _ => Pipeline.ΦA spec1 c
  | n + 1, hn => Inv c iprop(owns (c : Thread nD τ) sM fullShare (stAt V c n hn).2.1 ∗ owns (c : Thread nD τ) sL fullShare (stAt V c n hn).2.2.1 ∗ owns (c : Thread nD τ) sA fullShare (stAt V c n hn).2.2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = Inv c iprop(owns (c : Thread nD τ) sM fullShare (stAt V c n hn).2.1 ∗ owns (c : Thread nD τ) sL fullShare (stAt V c n hn).2.2.1 ∗ owns (c : Thread nD τ) sA fullShare (stAt V c n hn).2.2.2) := rfl

theorem PhiS_pos (c : Dev nD) (n : ℕ) (h : n ≤ cfg1.N) (hz : n ≠ 0) :
    PhiS V c n h = Inv c iprop(owns (c : Thread nD τ) sM fullShare (stAt V c (n - 1) (by omega)).2.1 ∗ owns (c : Thread nD τ) sL fullShare (stAt V c (n - 1) (by omega)).2.2.1 ∗ owns (c : Thread nD τ) sA fullShare (stAt V c (n - 1) (by omega)).2.2.2) := by
  cases n with
  | zero => exact absurd rfl hz
  | succ n => rfl

/-- Whatever the point, the invariant before it yields the rest and the three kept buffers at SOME contents. -/
theorem PhiS_any (c : Dev nD) (n : ℕ) (h : n ≤ cfg1.N) :
    PhiS V c n h ⊢ iprop(Rest (F := F) c ∗ (∃ d, owns (c : Thread nD τ) sM fullShare d) ∗ (∃ d, owns (c : Thread nD τ) sL fullShare d) ∗ (∃ d, owns (c : Thread nD τ) sA fullShare d)) := by
  by_cases hz : n = 0
  · rw [PhiS_zero V c n h hz, PhiA_eq]; exact Inv_out c _
  · rw [PhiS_pos V c n h hz]
    refine (Inv_out c _).trans ?_
    iintro ⟨HR, HM, HL, HA⟩
    isplitl [HR]; · iexact HR
    isplitl [HM]; · iexists _; iexact HM
    isplitl [HL]; · iexists _; iexact HL
    iexists _; iexact HA

/-! ## The region's proof data -/

/-- The arrays as the region finds them; after the body at point t each input's buffer at its block and the output's at
    what the recursion says; the invariant PhiS; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (stAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi_castSucc (c : Dev nD) (t : Fin cfg1.N) : (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (stAt V c t.val t.isLt).1 := by dsimp only [dat1]

theorem q_staged (c : Dev nD) (t : Fin cfg1.N) (d) : (dat1 V c).before 0 t d = iblk1 V c 0 t :=
  q_staged_of V (dat1 V c) (A_eq1 V c 0) (after1_0 V c) t d
theorem k_staged (c : Dev nD) (t : Fin cfg1.N) (d) : (dat1 V c).before 1 t d = iblk1 V c 1 t :=
  k_staged_of V (dat1 V c) (A_eq1 V c 1) (after1_1 V c) t d
theorem v_staged (c : Dev nD) (t : Fin cfg1.N) (d) : (dat1 V c).before 2 t d = iblk1 V c 2 t :=
  v_staged_of V (dat1 V c) (A_eq1 V c 2) (after1_2 V c) t d

/-! ## The body obligation -/

/-- What the body is called with at point t, the windows one by one, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
/-- The body at any point: the inputs' memrefs hold their blocks; the point's residue mod 4 says which case it is in; the
    invariant hands the body the kept buffers (at anything for a first key tile, at what the point before left otherwise)
    and takes them back at this point's contents; an output block not stored is handed back as it was. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [q_staged, k_staged, v_staged]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (mq t) fullShare ((dat1 V c).after 0 t) from by
    unfold Dat.leavesExact; rw [live_q t], after1_0]
  rw [show (dat1 V c).leavesExact 1 t = owns (c : Thread nD τ) (mk t) fullShare ((dat1 V c).after 1 t) from by
    unfold Dat.leavesExact; rw [live_k t], after1_1]
  rw [show (dat1 V c).leavesExact 2 t = owns (c : Thread nD τ) (mv t) fullShare ((dat1 V c).after 2 t) from by
    unfold Dat.leavesExact; rw [live_v t], after1_2]
  rw [Phi_castSucc]
  by_cases h0 : t.val % 4 = 0
  · have hnl := notLast_of_first t h0
    rw [Dat.leavesExact_idle (dat1 V c) 3 t (idle_out t hnl) (noFlush_out t hnl)]
    rw [stAt_first V c t h0]
    unfold afterFirst; dsimp only
    iintro ⟨HP, Ho, ⟨%d0, H0⟩, ⟨%d1, H1⟩, ⟨%d2, H2⟩, ⟨%d3, H3⟩⟩
    ihave HP2 := (PhiS_any V c t.val (Nat.le_of_lt t.isLt)) $$ HP
    icases HP2 with ⟨HR, HM, HL, HA⟩
    iapply ((rFirst V c t h0).2.2.2 _ Set.univ _)
    isplitl [H0]; · iexact H0
    isplitl [H1]; · iexact H1
    isplitl [H2]; · iexact H2
    isplitl [H3]; · iexact H3
    isplitl [HM]; · iexact HM
    isplitl [HL]; · iexact HL
    isplitl [HA]; · iexact HA
    iintro ⟨H0, H1, H2, H3, ⟨%em, HM⟩, ⟨%el, HL⟩, ⟨%ea, HA⟩⟩
    isplitl [HR HM HL HA]
    · iapply (Inv_in c _)
      isplitl [HR]; · iexact HR
      isplitl [HM]
      · unfold owns; iexists _; isplitr
        swap; · iexact HM
        ipureintro; exact View.read_writes_eq_canon _ _ _ (coverM_first V c t h0)
      isplitl [HL]
      · unfold owns; iexists _; isplitr
        swap; · iexact HL
        ipureintro; exact View.read_writes_eq_canon _ _ _ (coverL_first V c t h0)
      unfold owns; iexists _; isplitr
      swap; · iexact HA
      ipureintro; exact View.read_writes_eq_canon _ _ _ (coverA_first V c t h0)
    isplitl [Ho]; · iexact Ho
    isplitl [H0]; · iexact H0
    isplitl [H1]; · iexact H1
    isplitl [H2]; · iexact H2
    iexists _; iexact H3
  · have hz : t.val ≠ 0 := fun h => h0 (by rw [h])
    rw [PhiS_pos V c _ _ hz]
    by_cases h1 : t.val % 4 = 3
    · have hl := (isLast_iff t).mpr h1
      rw [show (dat1 V c).leavesExact 3 t = owns (c : Thread nD τ) (mo t) fullShare ((dat1 V c).after 3 t) from by
        unfold Dat.leavesExact; rw [live_out t hl], after1_3]
      rw [stAt_last V c t h0 h1]
      unfold afterLast; dsimp only
      iintro ⟨HP, Ho, ⟨%d0, H0⟩, ⟨%d1, H1⟩, ⟨%d2, H2⟩, ⟨%d3, H3⟩⟩
      ihave HP2 := (Inv_out c _) $$ HP
      icases HP2 with ⟨HR, HM, HL, HA⟩
      iapply ((rLast V c t h0 h1 _ _ _).2.2.2.2 Set.univ _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, ⟨%eo, H3⟩, ⟨%em, HM⟩, ⟨%el, HL⟩, ⟨%ea, HA⟩⟩
      isplitl [HR HM HL HA]
      · iapply (Inv_in c _)
        isplitl [HR]; · iexact HR
        isplitl [HM]
        · unfold owns; iexists _; isplitr
          swap; · iexact HM
          ipureintro; exact View.read_writes_eq_canon _ _ _ (coverM_last V c t h0 h1 _ _ _)
        isplitl [HL]
        · unfold owns; iexists _; isplitr
          swap; · iexact HL
          ipureintro; exact View.read_writes_eq_canon _ _ _ (coverL_last V c t h0 h1 _ _ _)
        unfold owns; iexists _; isplitr
        swap; · iexact HA
        ipureintro; exact View.read_writes_eq_canon _ _ _ (coverA_last V c t h0 h1 _ _ _)
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (coverO_last V c t h0 h1 _ _ _)
    · have hnl : ¬isLast (grid1.coords t) := fun h => h1 ((isLast_iff t).mp h)
      rw [Dat.leavesExact_idle (dat1 V c) 3 t (idle_out t hnl) (noFlush_out t hnl)]
      rw [stAt_mid V c t h0 h1]
      unfold afterMid; dsimp only
      iintro ⟨HP, Ho, ⟨%d0, H0⟩, ⟨%d1, H1⟩, ⟨%d2, H2⟩, ⟨%d3, H3⟩⟩
      ihave HP2 := (Inv_out c _) $$ HP
      icases HP2 with ⟨HR, HM, HL, HA⟩
      iapply ((rMid V c t h0 h1 _ _ _).2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%em, HM⟩, ⟨%el, HL⟩, ⟨%ea, HA⟩⟩
      isplitl [HR HM HL HA]
      · iapply (Inv_in c _)
        isplitl [HR]; · iexact HR
        isplitl [HM]
        · unfold owns; iexists _; isplitr
          swap; · iexact HM
          ipureintro; exact View.read_writes_eq_canon _ _ _ (coverM_mid V c t h0 h1 _ _ _)
        isplitl [HL]
        · unfold owns; iexists _; isplitr
          swap; · iexact HL
          ipureintro; exact View.read_writes_eq_canon _ _ _ (coverL_mid V c t h0 h1 _ _ _)
        unfold owns; iexists _; isplitr
        swap; · iexact HA
        ipureintro; exact View.read_writes_eq_canon _ _ _ (coverA_mid V c t h0 h1 _ _ _)
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the entry invariant back: the kept buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA_eq]
  exact (PhiS_any V c _ _).trans (Inv_in c _)

end Cert.Kernel.R1

end
-- ==== Proof.WordRun.lean ====
/-
  The whole program, from launch to return.

  The program is two kernel regions with nothing between them: the projection writes the query, key and value arrays,
  the attention reads them and writes the result array.  The buffers' contents at the three boundaries are a fold from
  the launch memory: a region leaves its arrays at what its write-backs make of them and every other buffer as it found
  it.  Each region is entered from "every unscoped buffer at the boundary's contents, the generator register at some
  state, nothing owed" and left at the same with the next contents; so every weakly fair execution terminates and the
  final memory holds every unscoped buffer at the last boundary's contents — in particular the arguments as launched and
  the result array at what the attention's write-backs left.  For any float instance.
-/
import proofs.«144214_j65481071395393_2_alg».proof.Proof.WordR0
import proofs.«144214_j65481071395393_2_alg».proof.Proof.WordR1
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core c's buffers at launch. -/
abbrev W0 : Dev nD → Valuation τ sig (Elt F) := fun c b => m (c, b)
/-- The same read at the TensorCore's references: what the projection is entered from. -/
abbrev V1 : (c : Dev nD) → (b : Ref sig .tc) → Buf (Elt F) ((c : Thread nD τ).loc b) := fun c b => W0 m c b
/-- After the projection: its arrays at what its write-backs leave, every other buffer as entered. -/
def W2 (c : Dev nD) : Valuation τ sig (Elt F) :=
  Pipeline.withArrays spec0 c (W0 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same read at the TensorCore's references: what the attention is entered from. -/
abbrev V2 : (c : Dev nD) → (b : Ref sig .tc) → Buf (Elt F) ((c : Thread nD τ).loc b) := fun c b => W2 m c b
theorem exit0_arr (c : Dev nD) (w : Fin cfg0.W) : (R0.dat0 (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention: its arrays at what its write-backs leave, every other buffer as entered. -/
def W4 (c : Dev nD) : Valuation τ sig (Elt F) :=
  Pipeline.withArrays spec1 c (W2 m c) fun w => (R1.dat1 (V2 m) c).arrAt w cfg1.N
theorem W4_arr (c : Dev nD) (w : Fin cfg1.W) :
    W4 m c (Proc.devRef .tc (Pipeline.arrRef spec1 w)) = (R1.dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem exit1_arr (c : Dev nD) (w : Fin cfg1.W) : (R1.dat1 (V2 m) c).arrAt w cfg1.N = V4 m c (Pipeline.arrRef spec1 w) :=
  (W4_arr m c w).symm
theorem exit1_rest (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ### The arguments end as launched; the result array ends at what the attention wrote back -/

/-- An input array of the projection leaves it as it entered. -/
theorem W2_in (c : Dev nD) (w : Fin cfg0.W) (hw : (cfg0.win w).isOut = false) :
    W2 m c (Proc.devRef .tc (Pipeline.arrRef spec0 w)) = W0 m c (Proc.devRef .tc (Pipeline.arrRef spec0 w)) :=
  (W2_arr m c w).trans (((R0.dat0 (V1 m) c).arrAt_in w hw _).trans (R0.A_eq0 (V1 m) c w))

theorem W4_main_arg0 (c : Dev nD) : W4 m c (Proc.devRef .tc main_arg0) = m ((c : Thread nD τ).loc main_arg0) :=
  (W4_of_ne m c main_arg0 (by decide)).trans (W2_in m c 0 rfl)
theorem W4_main_arg1 (c : Dev nD) : W4 m c (Proc.devRef .tc main_arg1) = m ((c : Thread nD τ).loc main_arg1) :=
  (W4_of_ne m c main_arg1 (by decide)).trans (W2_in m c 1 rfl)
theorem W4_main_arg2 (c : Dev nD) : W4 m c (Proc.devRef .tc main_arg2) = m ((c : Thread nD τ).loc main_arg2) :=
  (W4_of_ne m c main_arg2 (by decide)).trans (W2_in m c 2 rfl)
theorem W4_main_v1 (c : Dev nD) : W4 m c (Proc.devRef .tc main_v1) = (R1.dat1 (V2 m) c).arrAt 3 cfg1.N :=
  W4_arr m c 3

/-! ## The proof data family and the thread state -/

/-- No pallas_call has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection over the thread state: entered at W0, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention over the thread state: entered at W2, left at W4; its invariant is entered from the class's and gives
    it back (the kept buffers' contents forgotten). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (R1.hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two regions, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) :=
  main_segs adm (pdats m) () 𝒱₀ L lv (reg0 m) (reg1 m) c

set_option backward.isDefEq.respectTransparency.types false in
/-- THE RUN. From any memory with zero counters every weakly fair execution of the program terminates, nothing faulting,
    and every final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- Read at the buffers the claims name: the result array and the three arguments. -/
theorem run_named : θ_run defs (onTc (τ := τ) (main (F := F))) ⟨m, fun _ => 0, ρ⟩ (fun r => ∀ c : Dev nD,
      r.2.mem ((c.tc : Thread nD τ).loc main_v1) = (R1.dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W4_main_v1 m c),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run m ρ)

end Cert.Kernel.Run

end
-- ==== Proof.R0.lean ====
/- REGION 0 of the kernel program: the projection kernel on its grid of 16 row blocks.

   The token matrix x (4096 × 1024) is cut into 16 blocks of 256 rows. At the point t of the grid the body is
   handed the t-th block of x and the two weight matrices whole, and leaves in its three output buffers
     * the block's rows times the first weight matrix, every entry scaled by the constant 1/32,
     * the block's rows times the second weight matrix,
     * the block's rows themselves, in the narrower float format.
   Every output entry of row r depends on row r of x only, so the 16 points write 16 disjoint row blocks of each
   of the three output arrays.

   This file states that, at ANY float interpretation, as the pipeline's proof data at a PARAMETER V (the
   contents of the core's buffers when the region is entered): what each window's staging buffer holds before
   and after the body at a point, the body's triple, and the pipeline's body obligation. Nothing here says what
   the payloads compute; that is read off at the ideal instance in a later file. -/
import proofs.«144214_j65481071395393_2_alg».proof.Proof.Gen.KernelIdeal.Launch
import proofs.«144214_j65481071395393_2_alg».proof.Proof.Gen.KernelIdeal.Skeleton
import proofs.«144214_j65481071395393_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with a 1024-long axis is looked at one coordinate at a time
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## A window's block at a point -/

/-- The block of window `w` at the point `t`, read off the window's array as the region finds it: for the first
    window rows 256·t … 256·t + 255 of x, for the two weight windows the whole matrix at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the input buffers hold when the body runs

   An input buffer holds its window's block at every point, whether the pipeline copied it in at that point or
   not: the row block of x is copied in at every point; a weight matrix is copied in once, at the first point,
   and since its block index never moves and the body does not write it, it is still there at the later ones.
   Stated for any proof data over the entry contents whose body leaves the input blocks in place. -/

theorem xrows_staged_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

theorem wq_staged_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

theorem wk_staged_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-! ## The rectangles the body reads and writes

   Every access of the body is to a whole buffer: a 256 × 1024 block, or a 1024 × 1024 weight matrix. -/

abbrev rBlk : Rect S256x1024 := Rect.unit (s := S256x1024) ![0, 0] S256x1024.size inb_S256x1024_S256x1024_0_0
abbrev rWgt : Rect S1024x1024 := Rect.unit (s := S1024x1024) ![0, 0] S1024x1024.size inb_S1024x1024_S1024x1024_0_0

/-! ## What the body leaves in each output buffer

   Each output buffer is written once, whole, so after the body it holds that one store's payload. Written as
   the canonical contents of the list of stores (one store here), which is the form the store rule produces. -/

/-- The first output: the payload "rows times the first weights, scaled" of what the two loads read. -/
def out0_3 (x0 : Vec F S256x1024 .f32) (x1 : Vec F S1024x1024 .f32) : Vec F S256x1024 .f32 :=
  View.canon [⟨rBlk, k0_pay1 (View.ld x0 rBlk) (View.ld x1 rWgt)⟩]

/-- The second output: the payload "rows times the second weights". -/
def out0_4 (x0 : Vec F S256x1024 .f32) (x2 : Vec F S1024x1024 .f32) : Vec F S256x1024 .f32 :=
  View.canon [⟨rBlk, k0_pay2 (View.ld x0 rBlk) (View.ld x2 rWgt)⟩]

/-- The third output: the rows in the narrower format. -/
def out0_5 (x0 : Vec F S256x1024 .f32) : Vec F S256x1024 .bf16 :=
  View.canon [⟨rBlk, k0_pay3 (View.ld x0 rBlk)⟩]

/-- A single store through the whole-block rectangle reaches every index of the block (the rectangle's extent
    is the block's, checked by evaluation), whatever the element type and the payload. -/
theorem whole_block_covers {e : EltTy} (p : rBlk.shape.Idx → Elt F e) (y : S256x1024.Idx) :
    ∃ pc ∈ ([⟨rBlk, p⟩] : List (View.Piece (Elt F) S256x1024 e)), y ∈ pc.1.set :=
  View.cover_of_tiled [⟨rBlk, p⟩] S256x1024.size (by rfl) y

/-! ## The body's triple -/

set_option maxHeartbeats 1000000 in
/-- The body on six whole buffers — the three inputs at read contents `x0`, `x1`, `x2`, the three outputs at
    anything — runs to a state where the inputs are as they were and each output holds its payload of the
    inputs. The body reads each output buffer just before it overwrites it whole; what those three reads return
    is used by no payload, so the outputs' initial contents do not matter. -/
theorem project_body_triple (c : Dev nD) (E : Set ℕ) (i : grid0.Coords)
    (a1 : Memref sig .tc .vmem S256x1024 .f32) (h1 : a1.IsWhole)
    (a2 : Memref sig .tc .vmem S1024x1024 .f32) (h2 : a2.IsWhole)
    (a3 : Memref sig .tc .vmem S1024x1024 .f32) (h3 : a3.IsWhole)
    (a4 : Memref sig .tc .vmem S256x1024 .f32) (h4 : a4.IsWhole)
    (a5 : Memref sig .tc .vmem S256x1024 .f32) (h5 : a5.IsWhole)
    (a6 : Memref sig .tc .vmem S256x1024 .bf16) (h6 : a6.IsWhole)
    (x0 : Vec F S256x1024 .f32) (x1 x2 : Vec F S1024x1024 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare (out0_3 x0 x1) ∗ owns (c : Thread nD τ) a5 fullShare (out0_4 x0 x2)
            ∗ owns (c : Thread nD τ) a6 fullShare (out0_5 x0)) -∗ K ⟨⟩))
      ⊢ wp frame (wpE (defs₀ (F := F)) Variants.none c none) E (cc0__project_kernel i a1 h1 a2 h2 a3 h3 a4 h4 a5 h5 a6 h6) K := by
  simp only [cc0__project_kernel_eq_skeleton]; unfold cc0__project_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (whole_block_covers _)
  isplitl [H5]
  · iexists _; isplitr
    swap; · iexact H5
    ipureintro
    exact View.read_writes_eq_canon _ _ _ (whole_block_covers _)
  iexists _; isplitr
  swap; · iexact H6
  ipureintro
  exact View.read_writes_eq_canon _ _ _ (whole_block_covers _)

/-! ## The pipeline's proof data -/

/-- The proof data of the region on core `c`: the arrays as the region finds them; after the body at the point
    `t` each input buffer still at its block and each output buffer at its payload of the input blocks; the
    invariant "the rest of the core's scoped memory and its generator register, untouched"; nothing owed; every
    buffer held in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
    | ⟨5, _⟩ => out0_5 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 0 t) := by dsimp only [dat0]

/-- The three input buffers hold their blocks when the body runs, at every point. -/
theorem xrows_staged (c : Dev nD) (t : Fin cfg0.N) (d) : (dat0 V c).before 0 t d = iblk0 V c 0 t :=
  xrows_staged_of V (dat0 V c) (A_eq0 V c 0) (after0_0 V c) t d
theorem wq_staged (c : Dev nD) (t : Fin cfg0.N) (d) : (dat0 V c).before 1 t d = iblk0 V c 1 t :=
  wq_staged_of V (dat0 V c) (A_eq0 V c 1) (after0_1 V c) t d
theorem wk_staged (c : Dev nD) (t : Fin cfg0.N) (d) : (dat0 V c).before 2 t d = iblk0 V c 2 t :=
  wk_staged_of V (dat0 V c) (A_eq0 V c 2) (after0_2 V c) t d

/-! ## The body obligation -/

/-- What the body is handed at the point `t`: the invariant, what the core owes, and the six current staging
    buffers, each at what the pipeline left in it, -/
def projPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back: the same, each buffer at what the body leaves in it. -/
def projPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point of the grid. The three input buffers hold the point's blocks, so the body's triple
    applies at those blocks; the invariant and what the core owes are not touched by the body and pass through. -/
theorem project_at_point (c : Dev nD) (t : Fin cfg0.N) :
    projPre V c t ⊢ wp frame (wpE (defs₀ (F := F)) Variants.none c none) Set.univ (bodyAt0 t) (fun _ => projPost V c t) := by
  unfold projPre projPost bodyAt0
  simp only [xrows_staged, wq_staged, wk_staged]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (project_body_triple c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation for the region: the statement above at every point, the six windows
    conjoined one by one. -/
theorem body_obligation0 (c : Dev nD) : BodyObligation (dat0 (F := F) V c) (defs₀ (F := F)) Variants.none () Set.univ := fun t => by
  rw [bigSep_W0, bigSep_W0]
  exact project_at_point V c t

end Cert.KernelIdeal.R0

end
-- ==== Proof.R1Base.lean ====
/-
  The attention kernel's body, case by case.

  The kernel's grid has 16 query blocks times 4 key tiles; the point t reads key tile t mod 4 of query block t / 4.
  The body keeps three buffers between points: the running maximum of the scores of each of the block's 256 query rows,
  the running sum of the exponentials, and the running weighted sum of the value rows.  At the first key tile it resets
  them (to −∞, 0, 0) before use; at every tile it folds the tile in; at the last tile it also stores the quotient
  of the weighted sum by the sum of exponentials into the output block.  So there are three cases of the two
  conditionals: first tile (reset, no output), middle tiles (neither), last tile (output).  Here: the two conditions in
  closed form over the grid, where the output window is idle, the memory the body runs on, and the region's
  invariant at its entry spelt buffer by buffer.
-/
import proofs.«144214_j65481071395393_2_alg».proof.Proof.Gen.KernelIdeal.Launch
import proofs.«144214_j65481071395393_2_alg».proof.Proof.Gen.KernelIdeal.Skeleton
import proofs.«144214_j65481071395393_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first key tile": the body's first conditional, as the kernel computes it from the grid coordinates. -/
abbrev isFirst (i : grid1.Coords) : Prop := (Scalar.cmpi .ne (Scalar.extui (Scalar.cmpi .eq (BitVec.ofNat 32 (i 1).val) 0#32)) 0#32) = 1#1
/-- It holds at the points ≡ 0 (mod 4). -/
theorem isFirst_iff : ∀ t : Fin cfg1.N, isFirst (grid1.coords t) ↔ t.val % 4 = 0 :=
  (by decide +kernel : ∀ t : Fin grid1.N, isFirst (grid1.coords t) ↔ t.val % 4 = 0)

/-- "This is the last key tile": the body's second conditional. -/
abbrev isLast (i : grid1.Coords) : Prop := k1_cond2 i = 1#1
/-- It holds at the points ≡ 3 (mod 4). -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live_q : ∀ t : Fin cfg1.N, cfg1.idle 0 (grid1.coords t) = false := by decide +kernel
theorem live_k : ∀ t : Fin cfg1.N, cfg1.idle 1 (grid1.coords t) = false := by decide +kernel
theorem live_v : ∀ t : Fin cfg1.N, cfg1.idle 2 (grid1.coords t) = false := by decide +kernel
/-- Away from the last key tile the body stores nothing into the output block, -/
theorem idle_out : ∀ t : Fin cfg1.N, ¬isLast (grid1.coords t) → cfg1.idle 3 (grid1.coords t) = true := by decide +kernel
/-- and the block is not written back there; -/
theorem noFlush_out : ∀ t : Fin cfg1.N, ¬isLast (grid1.coords t) → (cfg1.win 3).flush t = false := by decide +kernel
/-- at the last key tile it stores the block. -/
theorem live_out : ∀ t : Fin cfg1.N, isLast (grid1.coords t) → cfg1.idle 3 (grid1.coords t) = false := by decide +kernel

/-! ## The memory the body runs on -/

/-- Each window's current staging memref at point t, as the pipeline passes it, and its wholeness. -/
abbrev mq (t : Fin cfg1.N) : Memref sig .tc .vmem S256x1024 .f32 := win1_0.stage (cfg1.slots t 0)
abbrev hq (t : Fin cfg1.N) : (mq t).IsWhole := hstage1_0 ((cfg1.slots t 0).cast nbuf1_0)
abbrev mk (t : Fin cfg1.N) : Memref sig .tc .vmem S1024x1024 .f32 := win1_1.stage (cfg1.slots t 1)
abbrev hk (t : Fin cfg1.N) : (mk t).IsWhole := hstage1_1 ((cfg1.slots t 1).cast nbuf1_1)
abbrev mv (t : Fin cfg1.N) : Memref sig .tc .vmem S1024x1024 .bf16 := win1_2.stage (cfg1.slots t 2)
abbrev hv (t : Fin cfg1.N) : (mv t).IsWhole := hstage1_2 ((cfg1.slots t 2).cast nbuf1_2)
abbrev mo (t : Fin cfg1.N) : Memref sig .tc .vmem S256x1024 .f32 := win1_3.stage (cfg1.slots t 3)
abbrev ho (t : Fin cfg1.N) : (mo t).IsWhole := hstage1_3 ((cfg1.slots t 3).cast nbuf1_3)
/-- The three buffers the kernel keeps between points: running maximum, running sum, running weighted sum. -/
abbrev sM : Memref sig .tc .vmem S256x1 .f32 := Memref.whole cc1_scratch0
abbrev sL : Memref sig .tc .vmem S256x1 .f32 := Memref.whole cc1_scratch1
abbrev sA : Memref sig .tc .vmem S256x1024 .f32 := Memref.whole cc1_scratch2
/-- One staging buffer of the output window and the three kept buffers as views, through which contents are stated. -/
abbrev VO : View sig .tc .vmem S256x1024 .f32 := (Memref.whole cc1_stg3_0 : Memref sig .tc .vmem S256x1024 .f32).view
abbrev VM : View sig .tc .vmem S256x1 .f32 := sM.view
abbrev VL : View sig .tc .vmem S256x1 .f32 := sL.view
abbrev VA : View sig .tc .vmem S256x1024 .f32 := sA.view

/-- The region's invariant around a statement P of the three kept buffers: the other region's ten staging buffers, each
    whole at some contents (this region never touches them), then P, and the generator register at some state. -/
def Inv (c : Dev nD) (P : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ P) ∗ (∃ r, prngReg c r))

/-- What of the invariant is not the kept buffers. -/
def Rest (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)) ∗ (∃ r, prngReg c r))

theorem Inv_out (c : Dev nD) (P : sProp 𝕄) : Inv c P ⊢ iprop(Rest (F := F) c ∗ P) := by
  unfold Inv Rest
  iintro ⟨⟨H0, H1, H2, H3, H4, H5, H6, H7, H8, H9, HP⟩, Hg⟩
  isplitr [HP]
  · isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hg
  iexact HP

theorem Inv_in (c : Dev nD) (P : sProp 𝕄) : iprop(Rest (F := F) c ∗ P) ⊢ Inv c P := by
  unfold Inv Rest
  iintro ⟨⟨⟨H0, H1, H2, H3, H4, H5, H6, H7, H8, H9⟩, Hg⟩, HP⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HP
  iexact Hg

/-- The region's invariant at its entry: the three kept buffers at some contents. -/
theorem PhiA_eq (c : Dev nD) :
    (Pipeline.ΦA spec1 c : sProp 𝕄)
      = Inv c iprop((∃ d, owns (c : Thread nD τ) sM fullShare d) ∗ (∃ d, owns (c : Thread nD τ) sL fullShare d) ∗ (∃ d, owns (c : Thread nD τ) sA fullShare d)) := by
  unfold Pipeline.ΦA Inv; rw [scopedRest1_eq]; simp only [sM, sL, sA, owns_whole]
  rfl

end Cert.KernelIdeal.R1

end
-- ==== Proof.R1First.lean ====
/-
  The attention kernel's body at a FIRST key tile: it resets the three kept buffers, folds the tile in, and stores
  nothing into the output block.  On whole memrefs — the three inputs at their contents, the output block and the kept
  buffers at anything — the body runs to the end, leaving the inputs as they were and each of the other four buffers with
  the list of pieces its stores wrote (found by running the body).
-/
import proofs.«144214_j65481071395393_2_alg».proof.Proof.R1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first key tile. -/
noncomputable def runFirst (c : Dev nD) (i : grid1.Coords) (arg2 : Memref sig .tc .vmem S256x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole) (hc0 : isFirst i) (hc1 : ¬isLast i)
    (x0 : Vec F S256x1024 .f32) (x1 : Vec F S1024x1024 .f32) (x2 : Vec F S1024x1024 .bf16) :
    Σ' (LM : List (View.Piece (Elt F) S256x1 .f32)) (LL : List (View.Piece (Elt F) S256x1 .f32)), { LA : List (View.Piece (Elt F) S256x1024 .f32) //
      ∀ (xo : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
      ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xo E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    iexists _; iexact H8

end Cert.KernelIdeal.R1

end
-- ==== Proof.R1Mid.lean ====
/-
  The attention kernel's body at a MIDDLE key tile: it folds the tile into the three kept buffers, which hold what the
  point before left, and stores nothing into the output block.
-/
import proofs.«144214_j65481071395393_2_alg».proof.Proof.R1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle key tile, the kept buffers at xm, xl, xa. -/
noncomputable def runMid (c : Dev nD) (i : grid1.Coords) (arg2 : Memref sig .tc .vmem S256x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole) (hc0 : ¬isFirst i) (hc1 : ¬isLast i)
    (x0 : Vec F S256x1024 .f32) (x1 : Vec F S1024x1024 .f32) (x2 : Vec F S1024x1024 .bf16)
    (xm : Vec F S256x1 .f32) (xl : Vec F S256x1 .f32) (xa : Vec F S256x1024 .f32) :
    Σ' (LM : List (View.Piece (Elt F) S256x1 .f32)) (LL : List (View.Piece (Elt F) S256x1 .f32)), { LA : List (View.Piece (Elt F) S256x1024 .f32) //
      ∀ (xo : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xm ∗ owns (c : Thread nD τ) arg7 fullShare xl ∗ owns (c : Thread nD τ) arg8 fullShare xa
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
      ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xo E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    isplitl [H7]; · iexists _; iexact H7
    iexists _; iexact H8

end Cert.KernelIdeal.R1

end
-- ==== Proof.R1Last.lean ====
/-
  The attention kernel's body at a LAST key tile: it folds the tile into the three kept buffers, which hold what the
  point before left, and stores the quotient of the weighted sum by the sum of exponentials into the output block.
-/
import proofs.«144214_j65481071395393_2_alg».proof.Proof.R1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last key tile, the kept buffers at xm, xl, xa. -/
noncomputable def runLast (c : Dev nD) (i : grid1.Coords) (arg2 : Memref sig .tc .vmem S256x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole) (hc0 : ¬isFirst i) (hc1 : isLast i)
    (x0 : Vec F S256x1024 .f32) (x1 : Vec F S1024x1024 .f32) (x2 : Vec F S1024x1024 .bf16)
    (xm : Vec F S256x1 .f32) (xl : Vec F S256x1 .f32) (xa : Vec F S256x1024 .f32) :
    Σ' (LO : List (View.Piece (Elt F) S256x1024 .f32)) (LM : List (View.Piece (Elt F) S256x1 .f32)) (LL : List (View.Piece (Elt F) S256x1 .f32)), { LA : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xm ∗ owns (c : Thread nD τ) arg7 fullShare xl ∗ owns (c : Thread nD τ) arg8 fullShare xa
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
      ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]; · iexists _; iexact H6
    isplitl [H7]; · iexists _; iexact H7
    iexists _; iexact H8

end Cert.KernelIdeal.R1

end
-- ==== Proof.R1.lean ====
/-
  The attention region point by point.

  What the three kept buffers (running maximum, running sum of exponentials, running weighted sum) and the output
  block hold after each grid point, by recursion on the point: a first key tile starts afresh, a middle or last key
  tile continues from what the point before left.  The region's invariant names the kept buffers' contents between
  points (anything before the first point), the proof data give each input window its block of the array as the region
  found it and the output window what the last key tile stored, and the body obligation holds at every point by the case's
  run.  Everything is stated at a parameter V, the buffers' contents when the region is entered, and for any float
  instance.
-/
import proofs.«144214_j65481071395393_2_alg».proof.Proof.R1First
import proofs.«144214_j65481071395393_2_alg».proof.Proof.R1Mid
import proofs.«144214_j65481071395393_2_alg».proof.Proof.R1Last

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block's staging buffer holds its block at every point, fetched there or not (it is fetched at the first key
    tile of each query block and its index does not move over the key tiles). -/
theorem q_staged_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key tile's staging buffer holds its block at every point. -/
theorem k_staged_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value tile's staging buffer holds its block at every point. -/
theorem v_staged_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The three cases at a point -/

theorem notLast_of_first (t : Fin cfg1.N) (h0 : t.val % 4 = 0) : ¬isLast (grid1.coords t) :=
  fun h => by have := (isLast_iff t).mp h; omega

/-- The run of the body at a first key tile t, on the point's memrefs and input blocks. -/
def rFirst (c : Dev nD) (t : Fin cfg1.N) (h0 : t.val % 4 = 0) :=
  runFirst (F := F) c (grid1.coords t) (mq t) (hq t) (mk t) (hk t) (mv t) (hv t) (mo t) (ho t) sM (Memref.isWhole_whole _) sL (Memref.isWhole_whole _) sA (Memref.isWhole_whole _)
    ((isFirst_iff t).mpr h0) (notLast_of_first t h0) (iblk1 V c 0 t) (iblk1 V c 1 t) (iblk1 V c 2 t)

/-- The run at a middle key tile t, the kept buffers at xm, xl, xa. -/
def rMid (c : Dev nD) (t : Fin cfg1.N) (h0 : ¬t.val % 4 = 0) (h1 : ¬t.val % 4 = 3) (xm xl : Vec F S256x1 .f32) (xa : Vec F S256x1024 .f32) :=
  runMid (F := F) c (grid1.coords t) (mq t) (hq t) (mk t) (hk t) (mv t) (hv t) (mo t) (ho t) sM (Memref.isWhole_whole _) sL (Memref.isWhole_whole _) sA (Memref.isWhole_whole _)
    (fun h => h0 ((isFirst_iff t).mp h)) (fun h => h1 ((isLast_iff t).mp h)) (iblk1 V c 0 t) (iblk1 V c 1 t) (iblk1 V c 2 t) xm xl xa

/-- The run at a last key tile t, the kept buffers at xm, xl, xa. -/
def rLast (c : Dev nD) (t : Fin cfg1.N) (h0 : ¬t.val % 4 = 0) (h1 : t.val % 4 = 3) (xm xl : Vec F S256x1 .f32) (xa : Vec F S256x1024 .f32) :=
  runLast (F := F) c (grid1.coords t) (mq t) (hq t) (mk t) (hk t) (mv t) (hv t) (mo t) (ho t) sM (Memref.isWhole_whole _) sL (Memref.isWhole_whole _) sA (Memref.isWhole_whole _)
    (fun h => h0 ((isFirst_iff t).mp h)) ((isLast_iff t).mpr h1) (iblk1 V c 0 t) (iblk1 V c 1 t) (iblk1 V c 2 t) xm xl xa

/-! ### Each buffer's stores cover it -/

theorem coverM_first (c : Dev nD) (t : Fin cfg1.N) (h0 : t.val % 4 = 0) (y : S256x1.Idx) : ∃ pc ∈ (rFirst V c t h0).1, y ∈ pc.1.set :=
  View.cover_of_tiledL (rFirst V c t h0).1 S256x1.size (by unfold rFirst; sl_kernel_rfl) y
theorem coverL_first (c : Dev nD) (t : Fin cfg1.N) (h0 : t.val % 4 = 0) (y : S256x1.Idx) : ∃ pc ∈ (rFirst V c t h0).2.1, y ∈ pc.1.set :=
  View.cover_of_tiledL (rFirst V c t h0).2.1 S256x1.size (by unfold rFirst; sl_kernel_rfl) y
theorem coverA_first (c : Dev nD) (t : Fin cfg1.N) (h0 : t.val % 4 = 0) (y : S256x1024.Idx) : ∃ pc ∈ (rFirst V c t h0).2.2.1, y ∈ pc.1.set :=
  View.cover_of_tiledL (rFirst V c t h0).2.2.1 S256x1024.size (by unfold rFirst; sl_kernel_rfl) y

theorem coverM_mid (c : Dev nD) (t : Fin cfg1.N) (h0 : ¬t.val % 4 = 0) (h1 : ¬t.val % 4 = 3) (xm xl : Vec F S256x1 .f32) (xa : Vec F S256x1024 .f32) (y : S256x1.Idx) :
    ∃ pc ∈ (rMid V c t h0 h1 xm xl xa).1, y ∈ pc.1.set :=
  View.cover_of_tiledL (rMid V c t h0 h1 xm xl xa).1 S256x1.size (by unfold rMid; sl_kernel_rfl) y
theorem coverL_mid (c : Dev nD) (t : Fin cfg1.N) (h0 : ¬t.val % 4 = 0) (h1 : ¬t.val % 4 = 3) (xm xl : Vec F S256x1 .f32) (xa : Vec F S256x1024 .f32) (y : S256x1.Idx) :
    ∃ pc ∈ (rMid V c t h0 h1 xm xl xa).2.1, y ∈ pc.1.set :=
  View.cover_of_tiledL (rMid V c t h0 h1 xm xl xa).2.1 S256x1.size (by unfold rMid; sl_kernel_rfl) y
theorem coverA_mid (c : Dev nD) (t : Fin cfg1.N) (h0 : ¬t.val % 4 = 0) (h1 : ¬t.val % 4 = 3) (xm xl : Vec F S256x1 .f32) (xa : Vec F S256x1024 .f32) (y : S256x1024.Idx) :
    ∃ pc ∈ (rMid V c t h0 h1 xm xl xa).2.2.1, y ∈ pc.1.set :=
  View.cover_of_tiledL (rMid V c t h0 h1 xm xl xa).2.2.1 S256x1024.size (by unfold rMid; sl_kernel_rfl) y

theorem coverO_last (c : Dev nD) (t : Fin cfg1.N) (h0 : ¬t.val % 4 = 0) (h1 : t.val % 4 = 3) (xm xl : Vec F S256x1 .f32) (xa : Vec F S256x1024 .f32) (y : S256x1024.Idx) :
    ∃ pc ∈ (rLast V c t h0 h1 xm xl xa).1, y ∈ pc.1.set :=
  View.cover_of_tiledL (rLast V c t h0 h1 xm xl xa).1 S256x1024.size (by unfold rLast; sl_kernel_rfl) y
theorem coverM_last (c : Dev nD) (t : Fin cfg1.N) (h0 : ¬t.val % 4 = 0) (h1 : t.val % 4 = 3) (xm xl : Vec F S256x1 .f32) (xa : Vec F S256x1024 .f32) (y : S256x1.Idx) :
    ∃ pc ∈ (rLast V c t h0 h1 xm xl xa).2.1, y ∈ pc.1.set :=
  View.cover_of_tiledL (rLast V c t h0 h1 xm xl xa).2.1 S256x1.size (by unfold rLast; sl_kernel_rfl) y
theorem coverL_last (c : Dev nD) (t : Fin cfg1.N) (h0 : ¬t.val % 4 = 0) (h1 : t.val % 4 = 3) (xm xl : Vec F S256x1 .f32) (xa : Vec F S256x1024 .f32) (y : S256x1.Idx) :
    ∃ pc ∈ (rLast V c t h0 h1 xm xl xa).2.2.1, y ∈ pc.1.set :=
  View.cover_of_tiledL (rLast V c t h0 h1 xm xl xa).2.2.1 S256x1.size (by unfold rLast; sl_kernel_rfl) y
theorem coverA_last (c : Dev nD) (t : Fin cfg1.N) (h0 : ¬t.val % 4 = 0) (h1 : t.val % 4 = 3) (xm xl : Vec F S256x1 .f32) (xa : Vec F S256x1024 .f32) (y : S256x1024.Idx) :
    ∃ pc ∈ (rLast V c t h0 h1 xm xl xa).2.2.2.1, y ∈ pc.1.set :=
  View.cover_of_tiledL (rLast V c t h0 h1 xm xl xa).2.2.2.1 S256x1024.size (by unfold rLast; sl_kernel_rfl) y

/-! ## What the buffers hold after each point -/

/-- The output block and the three kept buffers (maximum, sum, weighted sum). -/
abbrev St (F : FTy → Type) [FloatOps F] : Type := Vec F S256x1024 .f32 × Vec F S256x1 .f32 × Vec F S256x1 .f32 × Vec F S256x1024 .f32

/-- After a first key tile: the output block is not stored (a placeholder nothing reads), the kept buffers hold what the
    case's stores leave. -/
def afterFirst (c : Dev nD) (t : Fin cfg1.N) (h0 : t.val % 4 = 0) : St F :=
  (View.canon [], View.canon (rFirst V c t h0).1, View.canon (rFirst V c t h0).2.1, View.canon (rFirst V c t h0).2.2.1)

/-- After a middle key tile, from what the point before left. -/
def afterMid (c : Dev nD) (t : Fin cfg1.N) (h0 : ¬t.val % 4 = 0) (h1 : ¬t.val % 4 = 3) (prev : St F) : St F :=
  (View.canon [], View.canon (rMid V c t h0 h1 prev.2.1 prev.2.2.1 prev.2.2.2).1, View.canon (rMid V c t h0 h1 prev.2.1 prev.2.2.1 prev.2.2.2).2.1,
    View.canon (rMid V c t h0 h1 prev.2.1 prev.2.2.1 prev.2.2.2).2.2.1)

/-- After a last key tile, from what the point before left: the output block is stored. -/
def afterLast (c : Dev nD) (t : Fin cfg1.N) (h0 : ¬t.val % 4 = 0) (h1 : t.val % 4 = 3) (prev : St F) : St F :=
  (View.canon (rLast V c t h0 h1 prev.2.1 prev.2.2.1 prev.2.2.2).1, View.canon (rLast V c t h0 h1 prev.2.1 prev.2.2.1 prev.2.2.2).2.1,
    View.canon (rLast V c t h0 h1 prev.2.1 prev.2.2.1 prev.2.2.2).2.2.1, View.canon (rLast V c t h0 h1 prev.2.1 prev.2.2.1 prev.2.2.2).2.2.2.1)

/-- THE RECURSION over the grid points: a first key tile starts afresh, the others continue. -/
def stAt (c : Dev nD) : (n : ℕ) → n < cfg1.N → St F
  | 0, hn => afterFirst V c ⟨0, hn⟩ (Nat.zero_mod 4)
  | n + 1, hn =>
    if h0 : (n + 1) % 4 = 0 then afterFirst V c ⟨n + 1, hn⟩ h0
    else if h1 : (n + 1) % 4 = 3 then afterLast V c ⟨n + 1, hn⟩ h0 h1 (stAt c n (Nat.lt_of_succ_lt hn))
    else afterMid V c ⟨n + 1, hn⟩ h0 h1 (stAt c n (Nat.lt_of_succ_lt hn))

theorem stAt_first (c : Dev nD) (t : Fin cfg1.N) (h0 : t.val % 4 = 0) : stAt V c t.val t.isLt = afterFirst V c t h0 := by
  obtain ⟨n, hn⟩ := t
  cases n with
  | zero => rfl
  | succ n => exact dif_pos h0

theorem stAt_mid (c : Dev nD) (t : Fin cfg1.N) (h0 : ¬t.val % 4 = 0) (h1 : ¬t.val % 4 = 3) :
    stAt V c t.val t.isLt = afterMid V c t h0 h1 (stAt V c (t.val - 1) (Nat.lt_of_le_of_lt (Nat.sub_le _ _) t.isLt)) := by
  obtain ⟨n, hn⟩ := t
  cases n with
  | zero => exact absurd (Nat.zero_mod 4) h0
  | succ n => exact (dif_neg h0).trans (dif_neg h1)

theorem stAt_last (c : Dev nD) (t : Fin cfg1.N) (h0 : ¬t.val % 4 = 0) (h1 : t.val % 4 = 3) :
    stAt V c t.val t.isLt = afterLast V c t h0 h1 (stAt V c (t.val - 1) (Nat.lt_of_le_of_lt (Nat.sub_le _ _) t.isLt)) := by
  obtain ⟨n, hn⟩ := t
  cases n with
  | zero => exact absurd (Nat.zero_mod 4) h0
  | succ n => exact (dif_neg h0).trans (dif_pos h1)

/-! ## The invariant between points -/

/-- Before the first point the region's entry invariant (the kept buffers at anything); after point n the kept buffers
    at what that point left. -/
def PhiS (c : Dev nD) : (n : ℕ) → n ≤ cfg1.N → sProp 𝕄
  | 0, _ => Pipeline.ΦA spec1 c
  | n + 1, hn => Inv c iprop(owns (c : Thread nD τ) sM fullShare (stAt V c n hn).2.1 ∗ owns (c : Thread nD τ) sL fullShare (stAt V c n hn).2.2.1 ∗ owns (c : Thread nD τ) sA fullShare (stAt V c n hn).2.2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = Inv c iprop(owns (c : Thread nD τ) sM fullShare (stAt V c n hn).2.1 ∗ owns (c : Thread nD τ) sL fullShare (stAt V c n hn).2.2.1 ∗ owns (c : Thread nD τ) sA fullShare (stAt V c n hn).2.2.2) := rfl

theorem PhiS_pos (c : Dev nD) (n : ℕ) (h : n ≤ cfg1.N) (hz : n ≠ 0) :
    PhiS V c n h = Inv c iprop(owns (c : Thread nD τ) sM fullShare (stAt V c (n - 1) (by omega)).2.1 ∗ owns (c : Thread nD τ) sL fullShare (stAt V c (n - 1) (by omega)).2.2.1 ∗ owns (c : Thread nD τ) sA fullShare (stAt V c (n - 1) (by omega)).2.2.2) := by
  cases n with
  | zero => exact absurd rfl hz
  | succ n => rfl

/-- Whatever the point, the invariant before it yields the rest and the three kept buffers at SOME contents. -/
theorem PhiS_any (c : Dev nD) (n : ℕ) (h : n ≤ cfg1.N) :
    PhiS V c n h ⊢ iprop(Rest (F := F) c ∗ (∃ d, owns (c : Thread nD τ) sM fullShare d) ∗ (∃ d, owns (c : Thread nD τ) sL fullShare d) ∗ (∃ d, owns (c : Thread nD τ) sA fullShare d)) := by
  by_cases hz : n = 0
  · rw [PhiS_zero V c n h hz, PhiA_eq]; exact Inv_out c _
  · rw [PhiS_pos V c n h hz]
    refine (Inv_out c _).trans ?_
    iintro ⟨HR, HM, HL, HA⟩
    isplitl [HR]; · iexact HR
    isplitl [HM]; · iexists _; iexact HM
    isplitl [HL]; · iexists _; iexact HL
    iexists _; iexact HA

/-! ## The region's proof data -/

/-- The arrays as the region finds them; after the body at point t each input's buffer at its block and the output's at
    what the recursion says; the invariant PhiS; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (stAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi_castSucc (c : Dev nD) (t : Fin cfg1.N) : (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (stAt V c t.val t.isLt).1 := by dsimp only [dat1]

theorem q_staged (c : Dev nD) (t : Fin cfg1.N) (d) : (dat1 V c).before 0 t d = iblk1 V c 0 t :=
  q_staged_of V (dat1 V c) (A_eq1 V c 0) (after1_0 V c) t d
theorem k_staged (c : Dev nD) (t : Fin cfg1.N) (d) : (dat1 V c).before 1 t d = iblk1 V c 1 t :=
  k_staged_of V (dat1 V c) (A_eq1 V c 1) (after1_1 V c) t d
theorem v_staged (c : Dev nD) (t : Fin cfg1.N) (d) : (dat1 V c).before 2 t d = iblk1 V c 2 t :=
  v_staged_of V (dat1 V c) (A_eq1 V c 2) (after1_2 V c) t d

/-! ## The body obligation -/

/-- What the body is called with at point t, the windows one by one, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
/-- The body at any point: the inputs' memrefs hold their blocks; the point's residue mod 4 says which case it is in; the
    invariant hands the body the kept buffers (at anything for a first key tile, at what the point before left otherwise)
    and takes them back at this point's contents; an output block not stored is handed back as it was. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [q_staged, k_staged, v_staged]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (mq t) fullShare ((dat1 V c).after 0 t) from by
    unfold Dat.leavesExact; rw [live_q t], after1_0]
  rw [show (dat1 V c).leavesExact 1 t = owns (c : Thread nD τ) (mk t) fullShare ((dat1 V c).after 1 t) from by
    unfold Dat.leavesExact; rw [live_k t], after1_1]
  rw [show (dat1 V c).leavesExact 2 t = owns (c : Thread nD τ) (mv t) fullShare ((dat1 V c).after 2 t) from by
    unfold Dat.leavesExact; rw [live_v t], after1_2]
  rw [Phi_castSucc]
  by_cases h0 : t.val % 4 = 0
  · have hnl := notLast_of_first t h0
    rw [Dat.leavesExact_idle (dat1 V c) 3 t (idle_out t hnl) (noFlush_out t hnl)]
    rw [stAt_first V c t h0]
    unfold afterFirst; dsimp only
    iintro ⟨HP, Ho, ⟨%d0, H0⟩, ⟨%d1, H1⟩, ⟨%d2, H2⟩, ⟨%d3, H3⟩⟩
    ihave HP2 := (PhiS_any V c t.val (Nat.le_of_lt t.isLt)) $$ HP
    icases HP2 with ⟨HR, HM, HL, HA⟩
    iapply ((rFirst V c t h0).2.2.2 _ Set.univ _)
    isplitl [H0]; · iexact H0
    isplitl [H1]; · iexact H1
    isplitl [H2]; · iexact H2
    isplitl [H3]; · iexact H3
    isplitl [HM]; · iexact HM
    isplitl [HL]; · iexact HL
    isplitl [HA]; · iexact HA
    iintro ⟨H0, H1, H2, H3, ⟨%em, HM⟩, ⟨%el, HL⟩, ⟨%ea, HA⟩⟩
    isplitl [HR HM HL HA]
    · iapply (Inv_in c _)
      isplitl [HR]; · iexact HR
      isplitl [HM]
      · unfold owns; iexists _; isplitr
        swap; · iexact HM
        ipureintro; exact View.read_writes_eq_canon _ _ _ (coverM_first V c t h0)
      isplitl [HL]
      · unfold owns; iexists _; isplitr
        swap; · iexact HL
        ipureintro; exact View.read_writes_eq_canon _ _ _ (coverL_first V c t h0)
      unfold owns; iexists _; isplitr
      swap; · iexact HA
      ipureintro; exact View.read_writes_eq_canon _ _ _ (coverA_first V c t h0)
    isplitl [Ho]; · iexact Ho
    isplitl [H0]; · iexact H0
    isplitl [H1]; · iexact H1
    isplitl [H2]; · iexact H2
    iexists _; iexact H3
  · have hz : t.val ≠ 0 := fun h => h0 (by rw [h])
    rw [PhiS_pos V c _ _ hz]
    by_cases h1 : t.val % 4 = 3
    · have hl := (isLast_iff t).mpr h1
      rw [show (dat1 V c).leavesExact 3 t = owns (c : Thread nD τ) (mo t) fullShare ((dat1 V c).after 3 t) from by
        unfold Dat.leavesExact; rw [live_out t hl], after1_3]
      rw [stAt_last V c t h0 h1]
      unfold afterLast; dsimp only
      iintro ⟨HP, Ho, ⟨%d0, H0⟩, ⟨%d1, H1⟩, ⟨%d2, H2⟩, ⟨%d3, H3⟩⟩
      ihave HP2 := (Inv_out c _) $$ HP
      icases HP2 with ⟨HR, HM, HL, HA⟩
      iapply ((rLast V c t h0 h1 _ _ _).2.2.2.2 Set.univ _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, ⟨%eo, H3⟩, ⟨%em, HM⟩, ⟨%el, HL⟩, ⟨%ea, HA⟩⟩
      isplitl [HR HM HL HA]
      · iapply (Inv_in c _)
        isplitl [HR]; · iexact HR
        isplitl [HM]
        · unfold owns; iexists _; isplitr
          swap; · iexact HM
          ipureintro; exact View.read_writes_eq_canon _ _ _ (coverM_last V c t h0 h1 _ _ _)
        isplitl [HL]
        · unfold owns; iexists _; isplitr
          swap; · iexact HL
          ipureintro; exact View.read_writes_eq_canon _ _ _ (coverL_last V c t h0 h1 _ _ _)
        unfold owns; iexists _; isplitr
        swap; · iexact HA
        ipureintro; exact View.read_writes_eq_canon _ _ _ (coverA_last V c t h0 h1 _ _ _)
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (coverO_last V c t h0 h1 _ _ _)
    · have hnl : ¬isLast (grid1.coords t) := fun h => h1 ((isLast_iff t).mp h)
      rw [Dat.leavesExact_idle (dat1 V c) 3 t (idle_out t hnl) (noFlush_out t hnl)]
      rw [stAt_mid V c t h0 h1]
      unfold afterMid; dsimp only
      iintro ⟨HP, Ho, ⟨%d0, H0⟩, ⟨%d1, H1⟩, ⟨%d2, H2⟩, ⟨%d3, H3⟩⟩
      ihave HP2 := (Inv_out c _) $$ HP
      icases HP2 with ⟨HR, HM, HL, HA⟩
      iapply ((rMid V c t h0 h1 _ _ _).2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%em, HM⟩, ⟨%el, HL⟩, ⟨%ea, HA⟩⟩
      isplitl [HR HM HL HA]
      · iapply (Inv_in c _)
        isplitl [HR]; · iexact HR
        isplitl [HM]
        · unfold owns; iexists _; isplitr
          swap; · iexact HM
          ipureintro; exact View.read_writes_eq_canon _ _ _ (coverM_mid V c t h0 h1 _ _ _)
        isplitl [HL]
        · unfold owns; iexists _; isplitr
          swap; · iexact HL
          ipureintro; exact View.read_writes_eq_canon _ _ _ (coverL_mid V c t h0 h1 _ _ _)
        unfold owns; iexists _; isplitr
        swap; · iexact HA
        ipureintro; exact View.read_writes_eq_canon _ _ _ (coverA_mid V c t h0 h1 _ _ _)
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the entry invariant back: the kept buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA_eq]
  exact (PhiS_any V c _ _).trans (Inv_in c _)

end Cert.KernelIdeal.R1

end
-- ==== Proof.Run.lean ====
/-
  The whole program, from launch to return.

  The program is two kernel regions with nothing between them: the projection writes the query, key and value arrays,
  the attention reads them and writes the result array.  The buffers' contents at the three boundaries are a fold from
  the launch memory: a region leaves its arrays at what its write-backs make of them and every other buffer as it found
  it.  Each region is entered from "every unscoped buffer at the boundary's contents, the generator register at some
  state, nothing owed" and left at the same with the next contents; so every weakly fair execution terminates and the
  final memory holds every unscoped buffer at the last boundary's contents — in particular the arguments as launched and
  the result array at what the attention's write-backs left.  For any float instance.
-/
import proofs.«144214_j65481071395393_2_alg».proof.Proof.R0
import proofs.«144214_j65481071395393_2_alg».proof.Proof.R1
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core c's buffers at launch. -/
abbrev W0 : Dev nD → Valuation τ sig (Elt F) := fun c b => m (c, b)
/-- The same read at the TensorCore's references: what the projection is entered from. -/
abbrev V1 : (c : Dev nD) → (b : Ref sig .tc) → Buf (Elt F) ((c : Thread nD τ).loc b) := fun c b => W0 m c b
/-- After the projection: its arrays at what its write-backs leave, every other buffer as entered. -/
def W2 (c : Dev nD) : Valuation τ sig (Elt F) :=
  Pipeline.withArrays spec0 c (W0 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same read at the TensorCore's references: what the attention is entered from. -/
abbrev V2 : (c : Dev nD) → (b : Ref sig .tc) → Buf (Elt F) ((c : Thread nD τ).loc b) := fun c b => W2 m c b
theorem exit0_arr (c : Dev nD) (w : Fin cfg0.W) : (R0.dat0 (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention: its arrays at what its write-backs leave, every other buffer as entered. -/
def W4 (c : Dev nD) : Valuation τ sig (Elt F) :=
  Pipeline.withArrays spec1 c (W2 m c) fun w => (R1.dat1 (V2 m) c).arrAt w cfg1.N
theorem W4_arr (c : Dev nD) (w : Fin cfg1.W) :
    W4 m c (Proc.devRef .tc (Pipeline.arrRef spec1 w)) = (R1.dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem exit1_arr (c : Dev nD) (w : Fin cfg1.W) : (R1.dat1 (V2 m) c).arrAt w cfg1.N = V4 m c (Pipeline.arrRef spec1 w) :=
  (W4_arr m c w).symm
theorem exit1_rest (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ### The arguments end as launched; the result array ends at what the attention wrote back -/

/-- An input array of the projection leaves it as it entered. -/
theorem W2_in (c : Dev nD) (w : Fin cfg0.W) (hw : (cfg0.win w).isOut = false) :
    W2 m c (Proc.devRef .tc (Pipeline.arrRef spec0 w)) = W0 m c (Proc.devRef .tc (Pipeline.arrRef spec0 w)) :=
  (W2_arr m c w).trans (((R0.dat0 (V1 m) c).arrAt_in w hw _).trans (R0.A_eq0 (V1 m) c w))

theorem W4_main_arg0 (c : Dev nD) : W4 m c (Proc.devRef .tc main_arg0) = m ((c : Thread nD τ).loc main_arg0) :=
  (W4_of_ne m c main_arg0 (by decide)).trans (W2_in m c 0 rfl)
theorem W4_main_arg1 (c : Dev nD) : W4 m c (Proc.devRef .tc main_arg1) = m ((c : Thread nD τ).loc main_arg1) :=
  (W4_of_ne m c main_arg1 (by decide)).trans (W2_in m c 1 rfl)
theorem W4_main_arg2 (c : Dev nD) : W4 m c (Proc.devRef .tc main_arg2) = m ((c : Thread nD τ).loc main_arg2) :=
  (W4_of_ne m c main_arg2 (by decide)).trans (W2_in m c 2 rfl)
theorem W4_main_v1 (c : Dev nD) : W4 m c (Proc.devRef .tc main_v1) = (R1.dat1 (V2 m) c).arrAt 3 cfg1.N :=
  W4_arr m c 3

/-! ## The proof data family and the thread state -/

/-- No pallas_call has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection over the thread state: entered at W0, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention over the thread state: entered at W2, left at W4; its invariant is entered from the class's and gives
    it back (the kept buffers' contents forgotten). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (R1.hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two regions, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) :=
  main_segs adm (pdats m) () 𝒱₀ L lv (reg0 m) (reg1 m) c

set_option backward.isDefEq.respectTransparency.types false in
/-- THE RUN. From any memory with zero counters every weakly fair execution of the program terminates, nothing faulting,
    and every final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- Read at the buffers the claims name: the result array and the three arguments. -/
theorem run_named : θ_run defs (onTc (τ := τ) (main (F := F))) ⟨m, fun _ => 0, ρ⟩ (fun r => ∀ c : Dev nD,
      r.2.mem ((c.tc : Thread nD τ).loc main_v1) = (R1.dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W4_main_v1 m c),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run m ρ)

end Cert.KernelIdeal.Run

end
-- ==== Proof.Spec.lean ====
/-
  What the attention computes, as one function of the three argument arrays, on the extended reals.

  x is the 4096 × 1024 array of tokens, wq and wk the two 1024 × 1024 weight arrays.  A query row is a row of x
  against the columns of wq, scaled by the constant 1/32 (kept as its float word); a key row is a row of x against the
  columns of wk; the score of query row i against key row j is the sum over the 1024 coordinates of their products;
  the result at (i, d) is the sum over the 4096 key rows j of the softmax weight of the score (i, j) within row i —
  the exponential of the score less the row's maximum, divided by the sum of those exponentials — times x (j, d).
-/
import Idealize.ShloMosaic.PureOps.Ideal
import Idealize.ShloMosaic.Lib.ValueIdx

noncomputable section

namespace Cert.Flash

open Idealize.ShloMosaic Idealize.ShloMosaic.ValueIdx

/-- A 4096 × 1024 array of extended reals, by index. -/
abbrev Tok : Type := (⟨2, ![4096, 1024]⟩ : Shape).Idx → EReal
/-- A 1024 × 1024 array of extended reals, by index. -/
abbrev Wgt : Type := (⟨2, ![1024, 1024]⟩ : Shape).Idx → EReal

/-- The scale 1/32, as the float word both programs print. -/
def c32 : EReal := Ideal.ofBits .f32 0x3D000000#32

/-- Row i of x against column d of w. -/
def proj (x : Tok) (w : Wgt) (i : Fin 4096) (d : Fin 1024) : EReal := ∑ e : Fin 1024, x (ix2 i e) * w (ix2 e d)

/-- The scaled query entry (i, d). -/
def qry (x : Tok) (wq : Wgt) (i : Fin 4096) (d : Fin 1024) : EReal := proj x wq i d * c32

/-- The score of query row i against key row j. -/
def score (x : Tok) (wq wk : Wgt) (i j : Fin 4096) : EReal := ∑ d : Fin 1024, qry x wq i d * proj x wk j d

/-- The attention's entry (i, d): the softmax weights of row i of the scores against column d of x. -/
def attnAt (x : Tok) (wq wk : Wgt) (i : Fin 4096) (d : Fin 1024) : EReal :=
  ∑ j : Fin 4096,
    Ideal.div (Ideal.exp (score x wq wk i j - Finset.univ.sup (score x wq wk i)))
      (∑ j' : Fin 4096, Ideal.exp (score x wq wk i j' - Finset.univ.sup (score x wq wk i))) * x (ix2 j d)

/-- The attention as a whole array. -/
def attn (x : Tok) (wq wk : Wgt) : Tok := fun y => attnAt x wq wk (y 0) (y 1)

theorem attn_ix2 (x : Tok) (wq wk : Wgt) (i : Fin 4096) (d : Fin 1024) :
    attn x wq wk (ix2 i d) = attnAt x wq wk i d := rfl

/-- Every entry is a real number. -/
def IsReal {ι : Type} (f : ι → EReal) : Prop := ∀ y, ∃ r : ℝ, f y = (r : EReal)

end Cert.Flash

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.V0.lean ====
/- What REGION 0 leaves in its three output arrays, as whole-array functions of the entry contents, on the
   extended reals.

   The grid's point t is handed rows 256·t … 256·t + 255 of the token matrix x and both weight matrices whole, and
   writes back rows 256·t … 256·t + 255 of each output array. Entry (r, d) of the first output is row r of x
   against column d of the first weight matrix, scaled by 1/32; of the second, row r of x against column d of the
   second weight matrix; of the third, x (r, d) itself (narrowing the format changes nothing on the extended
   reals). Each depends on row r of x only, and row r lies in the block of the one point r / 256; the 16 blocks
   cover the 4096 rows, so after the last point each array holds its function at every index. -/
import proofs.«144214_j65481071395393_2_alg».proof.Proof.R0
import proofs.«144214_j65481071395393_2_alg».proof.Proof.Spec
import proofs.«144214_j65481071395393_2_alg».proof.Proof.LibDot
import Idealize.ShloMosaic.Lib.ValueIdx
import Idealize.ShloMosaic.Lib.Pipeline.Value
import Idealize.ShloMosaic.PureOps.Ideal.Laws

noncomputable section

namespace Cert.KernelIdeal.V0

open Cert.KernelIdeal Cert.KernelIdeal.Gen Idealize.ShloMosaic Idealize.ShloMosaic.TcCoe Idealize.SL.Sem
open Idealize.ShloMosaic.ValueIdx
open Idealize.ShloMosaic.Pipeline (Dat)

-- the contents of the core's buffers when the region is entered, on the extended reals
variable (V : (c : Dev nD) → (b : Ref sig .tc) → Buf (Elt Ideal) ((c : Thread nD τ).loc b))

/-! ## Where the blocks sit -/

theorem zero_offsets : (![0, 0] : Fin 2 → Nat) = fun _ => 0 := funext fun a => by fin_cases a <;> rfl

/-- The printed index maps, decided over the 16 points: the x window and the three output windows are at row
    block t and column block 0; the two weight windows are at block (0, 0) at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The array row that sits at row p of the block of point t. -/
def rowOf (t : Fin cfg0.N) (p : Fin 256) : Fin 4096 :=
  ⟨256 * t.val + p.val, by have := t.isLt; have hN : cfg0.N = 16 := N_0; have := p.isLt; omega⟩

/-! ## The input blocks, read at an index -/

/-- Entry (p, e) of the x block at point t is x (256·t + p, e). -/
theorem xrows_apply (c : Dev nD) (t : Fin cfg0.N) (p : Fin 256) (e : Fin 1024) :
    (R0.iblk0 V c 0 t : S256x1024.Idx → EReal) (ix2 p e) = (V c main_arg0 : S4096x1024.Idx → EReal) (ix2 (rowOf t p) e) := by
  obtain ⟨h00, h01, -⟩ := block_indices t
  show (V c main_arg0 : S4096x1024.Idx → EReal) (((cfg0.win 0).blk t).view.emb (ix2 p e)) = _
  refine congrArg _ ?_
  funext a; apply Fin.ext
  match a with
  | ⟨0, _⟩ => show win0_0.index t (0 : Fin 2) * 256 + 1 * p.val = 256 * t.val + p.val; omega
  | ⟨1, _⟩ => show win0_0.index t (1 : Fin 2) * 1024 + 1 * e.val = e.val; omega

/-- The first weight window's block is the whole first weight matrix, at every point. -/
theorem wq_apply (c : Dev nD) (t : Fin cfg0.N) (e d : Fin 1024) :
    (R0.iblk0 V c 1 t : S1024x1024.Idx → EReal) (ix2 e d) = (V c main_arg1 : S1024x1024.Idx → EReal) (ix2 e d) := by
  obtain ⟨-, -, h10, h11, -⟩ := block_indices t
  show (V c main_arg1 : S1024x1024.Idx → EReal) (((cfg0.win 1).blk t).view.emb (ix2 e d)) = _
  refine congrArg _ ?_
  funext a; apply Fin.ext
  match a with
  | ⟨0, _⟩ => show win0_1.index t (0 : Fin 2) * 1024 + 1 * e.val = e.val; omega
  | ⟨1, _⟩ => show win0_1.index t (1 : Fin 2) * 1024 + 1 * d.val = d.val; omega

/-- The second weight window's block is the whole second weight matrix, at every point. -/
theorem wk_apply (c : Dev nD) (t : Fin cfg0.N) (e d : Fin 1024) :
    (R0.iblk0 V c 2 t : S1024x1024.Idx → EReal) (ix2 e d) = (V c main_arg2 : S1024x1024.Idx → EReal) (ix2 e d) := by
  obtain ⟨-, -, -, -, h20, h21, -⟩ := block_indices t
  show (V c main_arg2 : S1024x1024.Idx → EReal) (((cfg0.win 2).blk t).view.emb (ix2 e d)) = _
  refine congrArg _ ?_
  funext a; apply Fin.ext
  match a with
  | ⟨0, _⟩ => show win0_2.index t (0 : Fin 2) * 1024 + 1 * e.val = e.val; omega
  | ⟨1, _⟩ => show win0_2.index t (1 : Fin 2) * 1024 + 1 * d.val = d.val; omega

/-! ## The three payloads, read at an index -/

/-- The first payload at (p, d): row p of the left operand against column d of the right, times 1/32. -/
theorem scaled_product_apply (x0 : FVec Ideal S256x1024 .f32) (x1 : FVec Ideal S1024x1024 .f32) (p : Fin 256) (d : Fin 1024) :
    k0_pay1 (F := Ideal) x0 x1 (ix2 p d) = (∑ e : Fin 1024, x0 (ix2 p e) * x1 (ix2 e d)) * Cert.Flash.c32 := by
  unfold k0_pay1
  rw [mulf_apply, broadcast_apply]
  exact congrArg (· * Cert.Flash.c32)
    (Cert.LibDot.matmul_zero_plain_apply (M := 256) (K := 1024) (N := 1024) dot_S256x1024_S1024x1024_S256x1024_1_0_0_1_n_n
      rfl rfl rfl rfl rfl rfl (some .fp32) x0 x1 (ix2 p d))

/-- The second payload at (p, d): row p of the left operand against column d of the right. -/
theorem product_apply (x0 : FVec Ideal S256x1024 .f32) (x2 : FVec Ideal S1024x1024 .f32) (p : Fin 256) (d : Fin 1024) :
    k0_pay2 (F := Ideal) x0 x2 (ix2 p d) = ∑ e : Fin 1024, x0 (ix2 p e) * x2 (ix2 e d) := by
  unfold k0_pay2
  exact Cert.LibDot.matmul_zero_plain_apply (M := 256) (K := 1024) (N := 1024) dot_S256x1024_S1024x1024_S256x1024_1_0_0_1_n_n
    rfl rfl rfl rfl rfl rfl (some .fp32) x0 x2 (ix2 p d)

/-- The third payload is its operand: narrowing the format is the identity on the extended reals. -/
theorem narrowed_apply (x0 : FVec Ideal S256x1024 .f32) (j : S256x1024.Idx) : k0_pay3 (F := Ideal) x0 j = x0 j := rfl

/-! ## Where an output block's entry sits in its array, and the cover -/

/-- Entry (p, d) of output window 3's block at point t sits at (256·t + p, d) of its array. -/
theorem out3_at (t : Fin cfg0.N) (p : Fin 256) (d : Fin 1024) :
    ((cfg0.win 3).blk t).view.emb (ix2 p d) = (ix2 (rowOf t p) d : S4096x1024.Idx) := by
  obtain ⟨-, -, -, -, -, -, h30, h31, h40, h41, h50, h51⟩ := block_indices t
  funext a; apply Fin.ext
  match a with
  | ⟨0, _⟩ => show win0_3.index t (0 : Fin 2) * 256 + 1 * p.val = 256 * t.val + p.val; omega
  | ⟨1, _⟩ => show win0_3.index t (1 : Fin 2) * 1024 + 1 * d.val = d.val; omega

/-- An index of the array is in the block of point t exactly when, on each axis, its coordinate is within the
    block's extent from the block's offset. -/
theorem mem_block3 (t : Fin cfg0.N) (i : S4096x1024.Idx) :
    i ∈ ((cfg0.win 3).blk t).view.set
      ↔ ∀ a : Fin 2, win0_3.index t a * S256x1024.size a ≤ (i a).val ∧ (i a).val < win0_3.index t a * S256x1024.size a + S256x1024.size a := by
  show i ∈ ((View.whole main_v0_0).slice (win0_3.rect t)).set ↔ _
  rw [View.set_slice_whole, Rect.mem_set_unit]
  exact Iff.rfl

/-- Every index of the array is in the block of the point its row falls in: row r is in block r / 256. -/
theorem rows_covered3 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by omega⟩, rfl⟩
  obtain ⟨-, -, -, -, -, -, h30, h31, h40, h41, h50, h51⟩ := block_indices t
  refine ⟨t, flush0_3 t, ?_⟩
  rw [mem_block3]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 1024 ≤ (i 1).val ∧ (i 1).val < win0_3.index t (1 : Fin 2) * 1024 + 1024
    omega

/-- Entry (p, d) of output window 4's block at point t sits at (256·t + p, d) of its array. -/
theorem out4_at (t : Fin cfg0.N) (p : Fin 256) (d : Fin 1024) :
    ((cfg0.win 4).blk t).view.emb (ix2 p d) = (ix2 (rowOf t p) d : S4096x1024.Idx) := by
  obtain ⟨-, -, -, -, -, -, h30, h31, h40, h41, h50, h51⟩ := block_indices t
  funext a; apply Fin.ext
  match a with
  | ⟨0, _⟩ => show win0_4.index t (0 : Fin 2) * 256 + 1 * p.val = 256 * t.val + p.val; omega
  | ⟨1, _⟩ => show win0_4.index t (1 : Fin 2) * 1024 + 1 * d.val = d.val; omega

/-- An index of the array is in the block of point t exactly when, on each axis, its coordinate is within the
    block's extent from the block's offset. -/
theorem mem_block4 (t : Fin cfg0.N) (i : S4096x1024.Idx) :
    i ∈ ((cfg0.win 4).blk t).view.set
      ↔ ∀ a : Fin 2, win0_4.index t a * S256x1024.size a ≤ (i a).val ∧ (i a).val < win0_4.index t a * S256x1024.size a + S256x1024.size a := by
  show i ∈ ((View.whole main_v0_1).slice (win0_4.rect t)).set ↔ _
  rw [View.set_slice_whole, Rect.mem_set_unit]
  exact Iff.rfl

/-- Every index of the array is in the block of the point its row falls in: row r is in block r / 256. -/
theorem rows_covered4 (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by omega⟩, rfl⟩
  obtain ⟨-, -, -, -, -, -, h30, h31, h40, h41, h50, h51⟩ := block_indices t
  refine ⟨t, flush0_4 t, ?_⟩
  rw [mem_block4]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 1024 ≤ (i 1).val ∧ (i 1).val < win0_4.index t (1 : Fin 2) * 1024 + 1024
    omega

/-- Entry (p, d) of output window 5's block at point t sits at (256·t + p, d) of its array. -/
theorem out5_at (t : Fin cfg0.N) (p : Fin 256) (d : Fin 1024) :
    ((cfg0.win 5).blk t).view.emb (ix2 p d) = (ix2 (rowOf t p) d : S4096x1024.Idx) := by
  obtain ⟨-, -, -, -, -, -, h30, h31, h40, h41, h50, h51⟩ := block_indices t
  funext a; apply Fin.ext
  match a with
  | ⟨0, _⟩ => show win0_5.index t (0 : Fin 2) * 256 + 1 * p.val = 256 * t.val + p.val; omega
  | ⟨1, _⟩ => show win0_5.index t (1 : Fin 2) * 1024 + 1 * d.val = d.val; omega

/-- An index of the array is in the block of point t exactly when, on each axis, its coordinate is within the
    block's extent from the block's offset. -/
theorem mem_block5 (t : Fin cfg0.N) (i : S4096x1024.Idx) :
    i ∈ ((cfg0.win 5).blk t).view.set
      ↔ ∀ a : Fin 2, win0_5.index t a * S256x1024.size a ≤ (i a).val ∧ (i a).val < win0_5.index t a * S256x1024.size a + S256x1024.size a := by
  show i ∈ ((View.whole main_v0_2).slice (win0_5.rect t)).set ↔ _
  rw [View.set_slice_whole, Rect.mem_set_unit]
  exact Iff.rfl

/-- Every index of the array is in the block of the point its row falls in: row r is in block r / 256. -/
theorem rows_covered5 (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by omega⟩, rfl⟩
  obtain ⟨-, -, -, -, -, -, h30, h31, h40, h41, h50, h51⟩ := block_indices t
  refine ⟨t, flush0_5 t, ?_⟩
  rw [mem_block5]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 1024 ≤ (i 1).val ∧ (i 1).val < win0_5.index t (1 : Fin 2) * 1024 + 1024
    omega

/-! ## What a point writes back -/

/-- The point t writes back, to the first output array, block t of the scaled projection of x by the first
    weight matrix. -/
theorem writes_back3 (c : Dev nD) (t : Fin cfg0.N) :
    (R0.dat0 (F := Ideal) V c).flushed 3 t
      = ((cfg0.win 3).blk t).view.read (Elt Ideal) (fun y : S4096x1024.Idx => Cert.Flash.qry (V c main_arg0) (V c main_arg1) (y 0) (y 1)) := by
  show (cfg0.win 3).cut (grid0.coords t) ((R0.dat0 V c).after 3 t) = _
  rw [R0.after0_3]
  unfold R0.out0_3
  rw [View.canon_unit_zero zero_offsets]
  simp only [View.ld_unit_zero (S := S256x1024) zero_offsets, View.ld_unit_zero (S := S1024x1024) zero_offsets]
  funext j
  obtain ⟨p, d, rfl⟩ : ∃ (p : Fin 256) (d : Fin 1024), j = ix2 p d := ⟨j 0, j 1, eq_ix2 j⟩
  rw [View.read_apply, out3_at t p d]
  show k0_pay1 (F := Ideal) (R0.iblk0 V c 0 t) (R0.iblk0 V c 1 t) (ix2 p d)
    = Cert.Flash.qry (V c main_arg0) (V c main_arg1) (rowOf t p) d
  rw [scaled_product_apply]
  unfold Cert.Flash.qry Cert.Flash.proj
  refine congrArg (· * Cert.Flash.c32) (Finset.sum_congr rfl fun e _ => ?_)
  rw [xrows_apply V c t p e, wq_apply V c t e d]

/-- To the second output array, block t of the projection of x by the second weight matrix. -/
theorem writes_back4 (c : Dev nD) (t : Fin cfg0.N) :
    (R0.dat0 (F := Ideal) V c).flushed 4 t
      = ((cfg0.win 4).blk t).view.read (Elt Ideal) (fun y : S4096x1024.Idx => Cert.Flash.proj (V c main_arg0) (V c main_arg2) (y 0) (y 1)) := by
  show (cfg0.win 4).cut (grid0.coords t) ((R0.dat0 V c).after 4 t) = _
  rw [R0.after0_4]
  unfold R0.out0_4
  rw [View.canon_unit_zero zero_offsets]
  simp only [View.ld_unit_zero (S := S256x1024) zero_offsets, View.ld_unit_zero (S := S1024x1024) zero_offsets]
  funext j
  obtain ⟨p, d, rfl⟩ : ∃ (p : Fin 256) (d : Fin 1024), j = ix2 p d := ⟨j 0, j 1, eq_ix2 j⟩
  rw [View.read_apply, out4_at t p d]
  show k0_pay2 (F := Ideal) (R0.iblk0 V c 0 t) (R0.iblk0 V c 2 t) (ix2 p d)
    = Cert.Flash.proj (V c main_arg0) (V c main_arg2) (rowOf t p) d
  rw [product_apply]
  unfold Cert.Flash.proj
  refine Finset.sum_congr rfl fun e _ => ?_
  rw [xrows_apply V c t p e, wk_apply V c t e d]

/-- To the third output array, block t of x. -/
theorem writes_back5 (c : Dev nD) (t : Fin cfg0.N) :
    (R0.dat0 (F := Ideal) V c).flushed 5 t
      = ((cfg0.win 5).blk t).view.read (Elt Ideal) (V c main_arg0 : S4096x1024.Idx → EReal) := by
  show (cfg0.win 5).cut (grid0.coords t) ((R0.dat0 V c).after 5 t) = _
  rw [R0.after0_5]
  unfold R0.out0_5
  rw [View.canon_unit_zero zero_offsets]
  simp only [View.ld_unit_zero (S := S256x1024) zero_offsets]
  funext j
  obtain ⟨p, d, rfl⟩ : ∃ (p : Fin 256) (d : Fin 1024), j = ix2 p d := ⟨j 0, j 1, eq_ix2 j⟩
  rw [View.read_apply, out5_at t p d]
  show k0_pay3 (F := Ideal) (R0.iblk0 V c 0 t) (ix2 p d) = (V c main_arg0 : S4096x1024.Idx → EReal) (ix2 (rowOf t p) d)
  rw [narrowed_apply]
  exact xrows_apply V c t p d

/-! ## The three arrays after the region -/

/-- The first output array ends holding the scaled queries: x against the first weight matrix, times 1/32. -/
theorem arr0_3 (c : Dev nD) : (R0.dat0 (F := Ideal) V c).arrAt 3 cfg0.N = fun y => Cert.Flash.qry (V c main_arg0) (V c main_arg1) (y 0) (y 1) :=
  (R0.dat0 (F := Ideal) V c).arrAt_eq_of_cover 3 _ (fun t _ => writes_back3 V c t) rows_covered3

/-- The second ends holding the keys: x against the second weight matrix. -/
theorem arr0_4 (c : Dev nD) : (R0.dat0 (F := Ideal) V c).arrAt 4 cfg0.N = fun y => Cert.Flash.proj (V c main_arg0) (V c main_arg2) (y 0) (y 1) :=
  (R0.dat0 (F := Ideal) V c).arrAt_eq_of_cover 4 _ (fun t _ => writes_back4 V c t) rows_covered4

/-- The third ends holding x. -/
theorem arr0_5 (c : Dev nD) : (R0.dat0 (F := Ideal) V c).arrAt 5 cfg0.N = V c main_arg0 :=
  (R0.dat0 (F := Ideal) V c).arrAt_eq_of_cover 5 _ (fun t _ => writes_back5 V c t) rows_covered5

end Cert.KernelIdeal.V0

end
-- ==== Proof.R1Pieces.lean ====
/-
  What the attention body's stores leave, as payloads.

  The body was run case by case and each buffer's contents after it were found as the list of pieces its stores wrote.
  Here each list is read: every store writes its whole buffer, so the buffer ends at its last store's payload; and every
  payload is applied to what the body's loads read. The body loads the running maximum twice and the running sum and
  weighted sum once BEFORE it stores them: at a middle or a last key tile those loads read what the point before left;
  at a first key tile they read what the reset has just stored (−∞, 0, 0). At a last key tile the quotient's two loads
  come AFTER the stores, so they read the new weighted sum and the new sum. Stated for any float instance.
-/
import proofs.«144214_j65481071395393_2_alg».proof.Proof.R1
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The runs' piece lists, on any memrefs

   Every store of the body writes a whole buffer, so a buffer's contents after the body are its LAST store's payload,
   whatever was stored before; and a load of a whole buffer reads the buffer's contents, or, after a store, that
   store's payload. What remains is to say which values the payloads are applied to. -/

/-- The offsets of every access of the body: zero on both axes. -/
theorem whole_at_zero : (![0, 0] : Fin 2 → Nat) = fun _ => 0 := funext fun a => by fin_cases a <;> rfl

/-- FIRST key tile, running maximum: the reset stores −∞, both loads of the fold read it back, and the fold stores the maximum of −∞ and the tile's row maxima. -/
theorem runFirst_m (c : Dev nD) (i : grid1.Coords) (arg2 : Memref sig .tc .vmem S256x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole) (hc0 : isFirst i) (hc1 : ¬isLast i)
    (x0 : Vec F S256x1024 .f32) (x1 : Vec F S1024x1024 .f32) (x2 : Vec F S1024x1024 .bf16) :
    View.canon (runFirst (F := F) c i arg2 harg2 arg3 harg3 arg4 harg4 arg5 harg5 arg6 harg6 arg7 harg7 arg8 harg8 hc0 hc1 x0 x1 x2).1 = k1_pay2 (k1_pay8 x0 x1 (k1_pay4 (F := F))) := by
  unfold runFirst
  dsimp only
  sl_unfold_words
  rw [View.canon_cons_unit_zero whole_at_zero]
  simp only [View.readAt_eq_ld, Memref.IsWhole.read_unread, View.ld_unit_zero (S := S256x1024) whole_at_zero,
    View.ld_unit_zero (S := S1024x1024) whole_at_zero, View.ld_unit_zero (S := S256x1) whole_at_zero,
    View.readCov_unit_zero (S := S256x1) _ whole_at_zero, View.readCov_unit_zero (S := S256x1024) _ whole_at_zero]

/-- FIRST key tile, running sum: the reset stores 0; the fold reads the reset maximum twice and the reset sum once. -/
theorem runFirst_l (c : Dev nD) (i : grid1.Coords) (arg2 : Memref sig .tc .vmem S256x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole) (hc0 : isFirst i) (hc1 : ¬isLast i)
    (x0 : Vec F S256x1024 .f32) (x1 : Vec F S1024x1024 .f32) (x2 : Vec F S1024x1024 .bf16) :
    View.canon (runFirst (F := F) c i arg2 harg2 arg3 harg3 arg4 harg4 arg5 harg5 arg6 harg6 arg7 harg7 arg8 harg8 hc0 hc1 x0 x1 x2).2.1 = k1_pay11 x0 x1 (k1_pay4 (F := F)) (k1_pay4 (F := F)) (k1_pay5 (F := F)) := by
  unfold runFirst
  dsimp only
  sl_unfold_words
  rw [View.canon_cons_unit_zero whole_at_zero]
  simp only [View.readAt_eq_ld, Memref.IsWhole.read_unread, View.ld_unit_zero (S := S256x1024) whole_at_zero,
    View.ld_unit_zero (S := S1024x1024) whole_at_zero, View.ld_unit_zero (S := S256x1) whole_at_zero,
    View.readCov_unit_zero (S := S256x1) _ whole_at_zero, View.readCov_unit_zero (S := S256x1024) _ whole_at_zero]

/-- FIRST key tile, running weighted sum: the reset stores 0; the fold reads the reset maximum twice and the reset weighted sum once. -/
theorem runFirst_a (c : Dev nD) (i : grid1.Coords) (arg2 : Memref sig .tc .vmem S256x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole) (hc0 : isFirst i) (hc1 : ¬isLast i)
    (x0 : Vec F S256x1024 .f32) (x1 : Vec F S1024x1024 .f32) (x2 : Vec F S1024x1024 .bf16) :
    View.canon (runFirst (F := F) c i arg2 harg2 arg3 harg3 arg4 harg4 arg5 harg5 arg6 harg6 arg7 harg7 arg8 harg8 hc0 hc1 x0 x1 x2).2.2.1 = k1_pay1 (k1_pay12 x0 x1 x2 (k1_pay4 (F := F)) (k1_pay4 (F := F)) (k1_pay6 (F := F))) := by
  unfold runFirst
  dsimp only
  sl_unfold_words
  rw [View.canon_cons_unit_zero whole_at_zero]
  simp only [View.readAt_eq_ld, Memref.IsWhole.read_unread, View.ld_unit_zero (S := S256x1024) whole_at_zero,
    View.ld_unit_zero (S := S1024x1024) whole_at_zero, View.ld_unit_zero (S := S256x1) whole_at_zero,
    View.readCov_unit_zero (S := S256x1) _ whole_at_zero, View.readCov_unit_zero (S := S256x1024) _ whole_at_zero]

/-- MIDDLE key tile, running maximum: the fold's loads read what the point before left. -/
theorem runMid_m (c : Dev nD) (i : grid1.Coords) (arg2 : Memref sig .tc .vmem S256x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole) (hc0 : ¬isFirst i) (hc1 : ¬isLast i)
    (x0 : Vec F S256x1024 .f32) (x1 : Vec F S1024x1024 .f32) (x2 : Vec F S1024x1024 .bf16) (xm xl : Vec F S256x1 .f32) (xa : Vec F S256x1024 .f32) :
    View.canon (runMid (F := F) c i arg2 harg2 arg3 harg3 arg4 harg4 arg5 harg5 arg6 harg6 arg7 harg7 arg8 harg8 hc0 hc1 x0 x1 x2 xm xl xa).1 = k1_pay2 (k1_pay8 x0 x1 xm) := by
  unfold runMid
  dsimp only
  sl_unfold_words
  rw [View.canon_unit_zero whole_at_zero]
  simp only [View.readAt_eq_ld, Memref.IsWhole.read_unread, View.ld_unit_zero (S := S256x1024) whole_at_zero,
    View.ld_unit_zero (S := S1024x1024) whole_at_zero, View.ld_unit_zero (S := S256x1) whole_at_zero,
    View.readCov_unit_zero (S := S256x1) _ whole_at_zero, View.readCov_unit_zero (S := S256x1024) _ whole_at_zero]

/-- MIDDLE key tile, running sum. -/
theorem runMid_l (c : Dev nD) (i : grid1.Coords) (arg2 : Memref sig .tc .vmem S256x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole) (hc0 : ¬isFirst i) (hc1 : ¬isLast i)
    (x0 : Vec F S256x1024 .f32) (x1 : Vec F S1024x1024 .f32) (x2 : Vec F S1024x1024 .bf16) (xm xl : Vec F S256x1 .f32) (xa : Vec F S256x1024 .f32) :
    View.canon (runMid (F := F) c i arg2 harg2 arg3 harg3 arg4 harg4 arg5 harg5 arg6 harg6 arg7 harg7 arg8 harg8 hc0 hc1 x0 x1 x2 xm xl xa).2.1 = k1_pay11 x0 x1 xm xm xl := by
  unfold runMid
  dsimp only
  sl_unfold_words
  rw [View.canon_unit_zero whole_at_zero]
  simp only [View.readAt_eq_ld, Memref.IsWhole.read_unread, View.ld_unit_zero (S := S256x1024) whole_at_zero,
    View.ld_unit_zero (S := S1024x1024) whole_at_zero, View.ld_unit_zero (S := S256x1) whole_at_zero,
    View.readCov_unit_zero (S := S256x1) _ whole_at_zero, View.readCov_unit_zero (S := S256x1024) _ whole_at_zero]

/-- MIDDLE key tile, running weighted sum. -/
theorem runMid_a (c : Dev nD) (i : grid1.Coords) (arg2 : Memref sig .tc .vmem S256x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole) (hc0 : ¬isFirst i) (hc1 : ¬isLast i)
    (x0 : Vec F S256x1024 .f32) (x1 : Vec F S1024x1024 .f32) (x2 : Vec F S1024x1024 .bf16) (xm xl : Vec F S256x1 .f32) (xa : Vec F S256x1024 .f32) :
    View.canon (runMid (F := F) c i arg2 harg2 arg3 harg3 arg4 harg4 arg5 harg5 arg6 harg6 arg7 harg7 arg8 harg8 hc0 hc1 x0 x1 x2 xm xl xa).2.2.1 = k1_pay1 (k1_pay12 x0 x1 x2 xm xm xa) := by
  unfold runMid
  dsimp only
  sl_unfold_words
  rw [View.canon_unit_zero whole_at_zero]
  simp only [View.readAt_eq_ld, Memref.IsWhole.read_unread, View.ld_unit_zero (S := S256x1024) whole_at_zero,
    View.ld_unit_zero (S := S1024x1024) whole_at_zero, View.ld_unit_zero (S := S256x1) whole_at_zero,
    View.readCov_unit_zero (S := S256x1) _ whole_at_zero, View.readCov_unit_zero (S := S256x1024) _ whole_at_zero]

/-- LAST key tile, output block: the quotient's two loads come after the fold's stores, so they read the new weighted sum and the new sum. -/
theorem runLast_o (c : Dev nD) (i : grid1.Coords) (arg2 : Memref sig .tc .vmem S256x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole) (hc0 : ¬isFirst i) (hc1 : isLast i)
    (x0 : Vec F S256x1024 .f32) (x1 : Vec F S1024x1024 .f32) (x2 : Vec F S1024x1024 .bf16) (xm xl : Vec F S256x1 .f32) (xa : Vec F S256x1024 .f32) :
    View.canon (runLast (F := F) c i arg2 harg2 arg3 harg3 arg4 harg4 arg5 harg5 arg6 harg6 arg7 harg7 arg8 harg8 hc0 hc1 x0 x1 x2 xm xl xa).1 = k1_pay3 (k1_pay1 (k1_pay12 x0 x1 x2 xm xm xa)) (k1_pay11 x0 x1 xm xm xl) := by
  unfold runLast
  dsimp only
  sl_unfold_words
  rw [View.canon_unit_zero whole_at_zero]
  simp only [View.readAt_eq_ld, Memref.IsWhole.read_unread, View.ld_unit_zero (S := S256x1024) whole_at_zero,
    View.ld_unit_zero (S := S1024x1024) whole_at_zero, View.ld_unit_zero (S := S256x1) whole_at_zero,
    View.readCov_unit_zero (S := S256x1) _ whole_at_zero, View.readCov_unit_zero (S := S256x1024) _ whole_at_zero]

/-- LAST key tile, running maximum: as at a middle tile. -/
theorem runLast_m (c : Dev nD) (i : grid1.Coords) (arg2 : Memref sig .tc .vmem S256x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole) (hc0 : ¬isFirst i) (hc1 : isLast i)
    (x0 : Vec F S256x1024 .f32) (x1 : Vec F S1024x1024 .f32) (x2 : Vec F S1024x1024 .bf16) (xm xl : Vec F S256x1 .f32) (xa : Vec F S256x1024 .f32) :
    View.canon (runLast (F := F) c i arg2 harg2 arg3 harg3 arg4 harg4 arg5 harg5 arg6 harg6 arg7 harg7 arg8 harg8 hc0 hc1 x0 x1 x2 xm xl xa).2.1 = k1_pay2 (k1_pay8 x0 x1 xm) := by
  unfold runLast
  dsimp only
  sl_unfold_words
  rw [View.canon_unit_zero whole_at_zero]
  simp only [View.readAt_eq_ld, Memref.IsWhole.read_unread, View.ld_unit_zero (S := S256x1024) whole_at_zero,
    View.ld_unit_zero (S := S1024x1024) whole_at_zero, View.ld_unit_zero (S := S256x1) whole_at_zero,
    View.readCov_unit_zero (S := S256x1) _ whole_at_zero, View.readCov_unit_zero (S := S256x1024) _ whole_at_zero]

/-- LAST key tile, running sum: as at a middle tile. -/
theorem runLast_l (c : Dev nD) (i : grid1.Coords) (arg2 : Memref sig .tc .vmem S256x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole) (hc0 : ¬isFirst i) (hc1 : isLast i)
    (x0 : Vec F S256x1024 .f32) (x1 : Vec F S1024x1024 .f32) (x2 : Vec F S1024x1024 .bf16) (xm xl : Vec F S256x1 .f32) (xa : Vec F S256x1024 .f32) :
    View.canon (runLast (F := F) c i arg2 harg2 arg3 harg3 arg4 harg4 arg5 harg5 arg6 harg6 arg7 harg7 arg8 harg8 hc0 hc1 x0 x1 x2 xm xl xa).2.2.1 = k1_pay11 x0 x1 xm xm xl := by
  unfold runLast
  dsimp only
  sl_unfold_words
  rw [View.canon_unit_zero whole_at_zero]
  simp only [View.readAt_eq_ld, Memref.IsWhole.read_unread, View.ld_unit_zero (S := S256x1024) whole_at_zero,
    View.ld_unit_zero (S := S1024x1024) whole_at_zero, View.ld_unit_zero (S := S256x1) whole_at_zero,
    View.readCov_unit_zero (S := S256x1) _ whole_at_zero, View.readCov_unit_zero (S := S256x1024) _ whole_at_zero]

/-- LAST key tile, running weighted sum: as at a middle tile. -/
theorem runLast_a (c : Dev nD) (i : grid1.Coords) (arg2 : Memref sig .tc .vmem S256x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole) (hc0 : ¬isFirst i) (hc1 : isLast i)
    (x0 : Vec F S256x1024 .f32) (x1 : Vec F S1024x1024 .f32) (x2 : Vec F S1024x1024 .bf16) (xm xl : Vec F S256x1 .f32) (xa : Vec F S256x1024 .f32) :
    View.canon (runLast (F := F) c i arg2 harg2 arg3 harg3 arg4 harg4 arg5 harg5 arg6 harg6 arg7 harg7 arg8 harg8 hc0 hc1 x0 x1 x2 xm xl xa).2.2.2.1 = k1_pay1 (k1_pay12 x0 x1 x2 xm xm xa) := by
  unfold runLast
  dsimp only
  sl_unfold_words
  rw [View.canon_unit_zero whole_at_zero]
  simp only [View.readAt_eq_ld, Memref.IsWhole.read_unread, View.ld_unit_zero (S := S256x1024) whole_at_zero,
    View.ld_unit_zero (S := S1024x1024) whole_at_zero, View.ld_unit_zero (S := S256x1) whole_at_zero,
    View.readCov_unit_zero (S := S256x1) _ whole_at_zero, View.readCov_unit_zero (S := S256x1024) _ whole_at_zero]

-- the contents of the core's buffers when the region is entered
variable (V : (c : Dev nD) → (b : Ref sig .tc) → Buf (Elt F) ((c : Thread nD τ).loc b))

/-! ## At a point of the grid

   The same at the point's staging buffers, the three kept buffers and the point's blocks: q the query block, k the
   key tile, v the value tile. -/

/-- After a first key tile the running maximum is the maximum of −∞ and the row maxima of q against k. -/
theorem first_m (c : Dev nD) (t : Fin cfg1.N) (h0 : t.val % 4 = 0) :
    View.canon (rFirst V c t h0).1 = k1_pay2 (k1_pay8 (iblk1 V c 0 t) (iblk1 V c 1 t) (k1_pay4 (F := F))) := by
  unfold rFirst
  exact runFirst_m c (grid1.coords t) (mq t) (hq t) (mk t) (hk t) (mv t) (hv t) (mo t) (ho t) sM (Memref.isWhole_whole _) sL (Memref.isWhole_whole _)
    sA (Memref.isWhole_whole _) ((isFirst_iff t).mpr h0) (notLast_of_first t h0) (iblk1 V c 0 t) (iblk1 V c 1 t) (iblk1 V c 2 t)

/-- After a first key tile the running sum is the fold from the reset values −∞ and 0. -/
theorem first_l (c : Dev nD) (t : Fin cfg1.N) (h0 : t.val % 4 = 0) :
    View.canon (rFirst V c t h0).2.1 = k1_pay11 (iblk1 V c 0 t) (iblk1 V c 1 t) (k1_pay4 (F := F)) (k1_pay4 (F := F)) (k1_pay5 (F := F)) := by
  unfold rFirst
  exact runFirst_l c (grid1.coords t) (mq t) (hq t) (mk t) (hk t) (mv t) (hv t) (mo t) (ho t) sM (Memref.isWhole_whole _) sL (Memref.isWhole_whole _)
    sA (Memref.isWhole_whole _) ((isFirst_iff t).mpr h0) (notLast_of_first t h0) (iblk1 V c 0 t) (iblk1 V c 1 t) (iblk1 V c 2 t)

/-- After a first key tile the running weighted sum is the fold from the reset values −∞ and 0. -/
theorem first_a (c : Dev nD) (t : Fin cfg1.N) (h0 : t.val % 4 = 0) :
    View.canon (rFirst V c t h0).2.2.1 = k1_pay1 (k1_pay12 (iblk1 V c 0 t) (iblk1 V c 1 t) (iblk1 V c 2 t) (k1_pay4 (F := F)) (k1_pay4 (F := F)) (k1_pay6 (F := F))) := by
  unfold rFirst
  exact runFirst_a c (grid1.coords t) (mq t) (hq t) (mk t) (hk t) (mv t) (hv t) (mo t) (ho t) sM (Memref.isWhole_whole _) sL (Memref.isWhole_whole _)
    sA (Memref.isWhole_whole _) ((isFirst_iff t).mpr h0) (notLast_of_first t h0) (iblk1 V c 0 t) (iblk1 V c 1 t) (iblk1 V c 2 t)

/-- After a middle key tile the running maximum is the fold from what the point before left. -/
theorem mid_m (c : Dev nD) (t : Fin cfg1.N) (h0 : ¬t.val % 4 = 0) (h1 : ¬t.val % 4 = 3) (xm xl : Vec F S256x1 .f32) (xa : Vec F S256x1024 .f32) :
    View.canon (rMid V c t h0 h1 xm xl xa).1 = k1_pay2 (k1_pay8 (iblk1 V c 0 t) (iblk1 V c 1 t) xm) := by
  unfold rMid
  exact runMid_m c (grid1.coords t) (mq t) (hq t) (mk t) (hk t) (mv t) (hv t) (mo t) (ho t) sM (Memref.isWhole_whole _) sL (Memref.isWhole_whole _)
    sA (Memref.isWhole_whole _) (fun h => h0 ((isFirst_iff t).mp h)) (fun h => h1 ((isLast_iff t).mp h)) (iblk1 V c 0 t) (iblk1 V c 1 t) (iblk1 V c 2 t) xm xl xa

/-- After a middle key tile, the running sum. -/
theorem mid_l (c : Dev nD) (t : Fin cfg1.N) (h0 : ¬t.val % 4 = 0) (h1 : ¬t.val % 4 = 3) (xm xl : Vec F S256x1 .f32) (xa : Vec F S256x1024 .f32) :
    View.canon (rMid V c t h0 h1 xm xl xa).2.1 = k1_pay11 (iblk1 V c 0 t) (iblk1 V c 1 t) xm xm xl := by
  unfold rMid
  exact runMid_l c (grid1.coords t) (mq t) (hq t) (mk t) (hk t) (mv t) (hv t) (mo t) (ho t) sM (Memref.isWhole_whole _) sL (Memref.isWhole_whole _)
    sA (Memref.isWhole_whole _) (fun h => h0 ((isFirst_iff t).mp h)) (fun h => h1 ((isLast_iff t).mp h)) (iblk1 V c 0 t) (iblk1 V c 1 t) (iblk1 V c 2 t) xm xl xa

/-- After a middle key tile, the running weighted sum. -/
theorem mid_a (c : Dev nD) (t : Fin cfg1.N) (h0 : ¬t.val % 4 = 0) (h1 : ¬t.val % 4 = 3) (xm xl : Vec F S256x1 .f32) (xa : Vec F S256x1024 .f32) :
    View.canon (rMid V c t h0 h1 xm xl xa).2.2.1 = k1_pay1 (k1_pay12 (iblk1 V c 0 t) (iblk1 V c 1 t) (iblk1 V c 2 t) xm xm xa) := by
  unfold rMid
  exact runMid_a c (grid1.coords t) (mq t) (hq t) (mk t) (hk t) (mv t) (hv t) (mo t) (ho t) sM (Memref.isWhole_whole _) sL (Memref.isWhole_whole _)
    sA (Memref.isWhole_whole _) (fun h => h0 ((isFirst_iff t).mp h)) (fun h => h1 ((isLast_iff t).mp h)) (iblk1 V c 0 t) (iblk1 V c 1 t) (iblk1 V c 2 t) xm xl xa

/-- After a last key tile the output block is the new weighted sum divided, row by row, by the new sum. -/
theorem last_o (c : Dev nD) (t : Fin cfg1.N) (h0 : ¬t.val % 4 = 0) (h1 : t.val % 4 = 3) (xm xl : Vec F S256x1 .f32) (xa : Vec F S256x1024 .f32) :
    View.canon (rLast V c t h0 h1 xm xl xa).1 = k1_pay3 (k1_pay1 (k1_pay12 (iblk1 V c 0 t) (iblk1 V c 1 t) (iblk1 V c 2 t) xm xm xa)) (k1_pay11 (iblk1 V c 0 t) (iblk1 V c 1 t) xm xm xl) := by
  unfold rLast
  exact runLast_o c (grid1.coords t) (mq t) (hq t) (mk t) (hk t) (mv t) (hv t) (mo t) (ho t) sM (Memref.isWhole_whole _) sL (Memref.isWhole_whole _)
    sA (Memref.isWhole_whole _) (fun h => h0 ((isFirst_iff t).mp h)) ((isLast_iff t).mpr h1) (iblk1 V c 0 t) (iblk1 V c 1 t) (iblk1 V c 2 t) xm xl xa

/-- After a last key tile, the running maximum. -/
theorem last_m (c : Dev nD) (t : Fin cfg1.N) (h0 : ¬t.val % 4 = 0) (h1 : t.val % 4 = 3) (xm xl : Vec F S256x1 .f32) (xa : Vec F S256x1024 .f32) :
    View.canon (rLast V c t h0 h1 xm xl xa).2.1 = k1_pay2 (k1_pay8 (iblk1 V c 0 t) (iblk1 V c 1 t) xm) := by
  unfold rLast
  exact runLast_m c (grid1.coords t) (mq t) (hq t) (mk t) (hk t) (mv t) (hv t) (mo t) (ho t) sM (Memref.isWhole_whole _) sL (Memref.isWhole_whole _)
    sA (Memref.isWhole_whole _) (fun h => h0 ((isFirst_iff t).mp h)) ((isLast_iff t).mpr h1) (iblk1 V c 0 t) (iblk1 V c 1 t) (iblk1 V c 2 t) xm xl xa

/-- After a last key tile, the running sum. -/
theorem last_l (c : Dev nD) (t : Fin cfg1.N) (h0 : ¬t.val % 4 = 0) (h1 : t.val % 4 = 3) (xm xl : Vec F S256x1 .f32) (xa : Vec F S256x1024 .f32) :
    View.canon (rLast V c t h0 h1 xm xl xa).2.2.1 = k1_pay11 (iblk1 V c 0 t) (iblk1 V c 1 t) xm xm xl := by
  unfold rLast
  exact runLast_l c (grid1.coords t) (mq t) (hq t) (mk t) (hk t) (mv t) (hv t) (mo t) (ho t) sM (Memref.isWhole_whole _) sL (Memref.isWhole_whole _)
    sA (Memref.isWhole_whole _) (fun h => h0 ((isFirst_iff t).mp h)) ((isLast_iff t).mpr h1) (iblk1 V c 0 t) (iblk1 V c 1 t) (iblk1 V c 2 t) xm xl xa

/-- After a last key tile, the running weighted sum. -/
theorem last_a (c : Dev nD) (t : Fin cfg1.N) (h0 : ¬t.val % 4 = 0) (h1 : t.val % 4 = 3) (xm xl : Vec F S256x1 .f32) (xa : Vec F S256x1024 .f32) :
    View.canon (rLast V c t h0 h1 xm xl xa).2.2.2.1 = k1_pay1 (k1_pay12 (iblk1 V c 0 t) (iblk1 V c 1 t) (iblk1 V c 2 t) xm xm xa) := by
  unfold rLast
  exact runLast_a c (grid1.coords t) (mq t) (hq t) (mk t) (hk t) (mv t) (hv t) (mo t) (ho t) sM (Memref.isWhole_whole _) sL (Memref.isWhole_whole _)
    sA (Memref.isWhole_whole _) (fun h => h0 ((isFirst_iff t).mp h)) ((isLast_iff t).mpr h1) (iblk1 V c 0 t) (iblk1 V c 1 t) (iblk1 V c 2 t) xm xl xa

end Cert.KernelIdeal.R1

end
-- ==== Proof.V1Blocks.lean ====
/-
  Where the attention region's blocks sit in their arrays, and what the region leaves in its output array.

  The grid's point t is query block t / 4 and key tile t mod 4.  It is handed rows 256·(t / 4) … 256·(t / 4) + 255 of
  the query array, and rows 1024·(t mod 4) … 1024·(t mod 4) + 1023 of the key array and of the value array; each of
  the three blocks spans all 1024 columns.  At the last key tile of a query block (t mod 4 = 3), and only there, it
  writes back rows 256·(t / 4) … 256·(t / 4) + 255 of the output array.  Row r of the output array lies in the block
  written back at the point 4·(r / 256) + 3, and those 16 blocks cover the 4096 rows; so if at every such point the
  stored block holds, entry by entry, a function G of the entry's place in the array, the array ends holding G.
-/
import proofs.«144214_j65481071395393_2_alg».proof.Proof.R1
import Idealize.ShloMosaic.Lib.Pipeline.Value
import Idealize.ShloMosaic.Lib.ValueIdx

noncomputable section

namespace Cert.KernelIdeal.V1

open Cert.KernelIdeal Cert.KernelIdeal.Gen Cert.KernelIdeal.R1 Idealize.ShloMosaic Idealize.ShloMosaic.TcCoe Idealize.SL.Sem
open Idealize.ShloMosaic.ValueIdx
open Idealize.ShloMosaic.Pipeline (Dat)

variable {F : FTy → Type} [FloatOps F]

-- the contents of the core's buffers when the region is entered
variable (V : (c : Dev nD) → (b : Ref sig .tc) → Buf (Elt F) ((c : Thread nD τ).loc b))

/-! ## Where the blocks sit -/

/-- The printed index maps, decided over the 64 points: the query window and the output window are at row block
    t / 4, the key and value windows at row block t mod 4, all four at column block 0. -/
theorem block_indices : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val % 4 ∧ win1_2.index t (1 : Fin 2) = 0
    ∧ win1_3.index t (0 : Fin 2) = t.val / 4 ∧ win1_3.index t (1 : Fin 2) = 0 :=
  (by decide +kernel : ∀ t : Fin grid1.N, _)

/-- The array row that sits at row p of the query block, and of the output block, of point t. -/
def rowQ (t : Fin cfg1.N) (p : Fin 256) : Fin 4096 :=
  ⟨256 * (t.val / 4) + p.val, by have := t.isLt; have hN : cfg1.N = 64 := N_1; have := p.isLt; omega⟩

/-- The array row that sits at row u of the key tile, and of the value tile, of point t. -/
def rowK (t : Fin cfg1.N) (u : Fin 1024) : Fin 4096 :=
  ⟨1024 * (t.val % 4) + u.val, by have := u.isLt; omega⟩

/-! ## The input blocks, read at an index -/

/-- Entry (p, e) of the query block at point t is the query array at (256·(t / 4) + p, e). -/
theorem q_apply (c : Dev nD) (t : Fin cfg1.N) (p : Fin 256) (e : Fin 1024) :
    (iblk1 V c 0 t : S256x1024.Idx → Elt F .f32) (ix2 p e)
      = (V c main_v0_0 : S4096x1024.Idx → Elt F .f32) (ix2 (rowQ t p) e) := by
  obtain ⟨h00, h01, -⟩ := block_indices t
  show (V c main_v0_0 : S4096x1024.Idx → Elt F .f32) (((cfg1.win 0).blk t).view.emb (ix2 p e)) = _
  refine congrArg _ ?_
  funext a; apply Fin.ext
  match a with
  | ⟨0, _⟩ => show win1_0.index t (0 : Fin 2) * 256 + 1 * p.val = 256 * (t.val / 4) + p.val; omega
  | ⟨1, _⟩ => show win1_0.index t (1 : Fin 2) * 1024 + 1 * e.val = e.val; omega

/-- Entry (u, e) of the key tile at point t is the key array at (1024·(t mod 4) + u, e). -/
theorem k_apply (c : Dev nD) (t : Fin cfg1.N) (u : Fin 1024) (e : Fin 1024) :
    (iblk1 V c 1 t : S1024x1024.Idx → Elt F .f32) (ix2 u e)
      = (V c main_v0_1 : S4096x1024.Idx → Elt F .f32) (ix2 (rowK t u) e) := by
  obtain ⟨-, -, h10, h11, -⟩ := block_indices t
  show (V c main_v0_1 : S4096x1024.Idx → Elt F .f32) (((cfg1.win 1).blk t).view.emb (ix2 u e)) = _
  refine congrArg _ ?_
  funext a; apply Fin.ext
  match a with
  | ⟨0, _⟩ => show win1_1.index t (0 : Fin 2) * 1024 + 1 * u.val = 1024 * (t.val % 4) + u.val; omega
  | ⟨1, _⟩ => show win1_1.index t (1 : Fin 2) * 1024 + 1 * e.val = e.val; omega

/-- Entry (u, d) of the value tile at point t is the value array at (1024·(t mod 4) + u, d). -/
theorem v_apply (c : Dev nD) (t : Fin cfg1.N) (u : Fin 1024) (d : Fin 1024) :
    (iblk1 V c 2 t : S1024x1024.Idx → Elt F .bf16) (ix2 u d)
      = (V c main_v0_2 : S4096x1024.Idx → Elt F .bf16) (ix2 (rowK t u) d) := by
  obtain ⟨-, -, -, -, h20, h21, -⟩ := block_indices t
  show (V c main_v0_2 : S4096x1024.Idx → Elt F .bf16) (((cfg1.win 2).blk t).view.emb (ix2 u d)) = _
  refine congrArg _ ?_
  funext a; apply Fin.ext
  match a with
  | ⟨0, _⟩ => show win1_2.index t (0 : Fin 2) * 1024 + 1 * u.val = 1024 * (t.val % 4) + u.val; omega
  | ⟨1, _⟩ => show win1_2.index t (1 : Fin 2) * 1024 + 1 * d.val = d.val; omega

/-! ## Where an output block's entry sits in its array, and the cover -/

/-- Entry (p, d) of the output block at point t sits at (256·(t / 4) + p, d) of the output array. -/
theorem out_at (t : Fin cfg1.N) (p : Fin 256) (d : Fin 1024) :
    ((cfg1.win 3).blk t).view.emb (ix2 p d) = (ix2 (rowQ t p) d : S4096x1024.Idx) := by
  obtain ⟨-, -, -, -, -, -, h30, h31⟩ := block_indices t
  funext a; apply Fin.ext
  match a with
  | ⟨0, _⟩ => show win1_3.index t (0 : Fin 2) * 256 + 1 * p.val = 256 * (t.val / 4) + p.val; omega
  | ⟨1, _⟩ => show win1_3.index t (1 : Fin 2) * 1024 + 1 * d.val = d.val; omega

/-- An index of the output array is in the block of point t exactly when, on each axis, its coordinate is within
    the block's extent from the block's offset. -/
theorem mem_block (t : Fin cfg1.N) (i : S4096x1024.Idx) :
    i ∈ ((cfg1.win 3).blk t).view.set
      ↔ ∀ a : Fin 2, win1_3.index t a * S256x1024.size a ≤ (i a).val
          ∧ (i a).val < win1_3.index t a * S256x1024.size a + S256x1024.size a := by
  show i ∈ ((View.whole main_v1).slice (win1_3.rect t)).set ↔ _
  rw [View.set_slice_whole, Rect.mem_set_unit]
  exact Iff.rfl

/-- Every index of the output array is in the block written back at the last key tile of the query block its row
    falls in: row r is in the block of the point 4·(r / 256) + 3. -/
theorem rows_covered (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 64 := N_1
  obtain ⟨t, ht⟩ : ∃ t : Fin cfg1.N, t.val = 4 * ((i 0).val / 256) + 3 :=
    ⟨⟨4 * ((i 0).val / 256) + 3, by omega⟩, rfl⟩
  obtain ⟨-, -, -, -, -, -, h30, h31⟩ := block_indices t
  refine ⟨t, (flush1_3 t).mpr (by omega), ?_⟩
  rw [mem_block]
  intro a
  match a with
  | ⟨0, _⟩ =>
    show win1_3.index t (0 : Fin 2) * 256 ≤ (i 0).val ∧ (i 0).val < win1_3.index t (0 : Fin 2) * 256 + 256
    omega
  | ⟨1, _⟩ =>
    show win1_3.index t (1 : Fin 2) * 1024 ≤ (i 1).val ∧ (i 1).val < win1_3.index t (1 : Fin 2) * 1024 + 1024
    omega

/-! ## What a last key tile writes back, and the output array after the region -/

/-- At a last key tile t, if the stored output block holds G at each entry's place in the array, then what the point
    writes back is block t of G. -/
theorem writes_back (c : Dev nD) (G : S4096x1024.Idx → Elt F .f32) (t : Fin cfg1.N)
    (hG : ∀ (p : Fin 256) (d : Fin 1024), (stAt V c t.val t.isLt).1 (ix2 p d) = G (ix2 (rowQ t p) d)) :
    (dat1 V c).flushed 3 t = ((cfg1.win 3).blk t).view.read (Elt F) G := by
  show (cfg1.win 3).cut (grid1.coords t) ((dat1 V c).after 3 t) = _
  rw [after1_3]
  funext j
  obtain ⟨p, d, rfl⟩ : ∃ (p : Fin 256) (d : Fin 1024), j = ix2 p d := ⟨j 0, j 1, eq_ix2 j⟩
  rw [View.read_apply, out_at t p d]
  exact hG p d

/-- If at every last key tile the stored output block holds G at each entry's place in the array, the output array
    ends holding G. -/
theorem arr1_3_of (c : Dev nD) (G : S4096x1024.Idx → Elt F .f32)
    (hG : ∀ (t : Fin cfg1.N), t.val % 4 = 3 → ∀ (p : Fin 256) (d : Fin 1024),
      (stAt V c t.val t.isLt).1 (ix2 p d) = G (ix2 (rowQ t p) d)) :
    (dat1 V c).arrAt 3 cfg1.N = G :=
  (dat1 V c).arrAt_eq_of_cover 3 G (fun t hf => writes_back V c G t (hG t ((flush1_3 t).mp hf))) rows_covered

end Cert.KernelIdeal.V1

end
-- ==== Proof.LibDotT.lean ====
/-
  A matrix product with the transpose of the right factor, read at an index, on the extended reals.

  For a rows × contraction by columns × contraction product — the dimension numbers that contract the left operand's
  second axis with the right operand's SECOND axis, with no batch axis — the entry at (i, j) of the host's
  `dot_general`, and of a `tpu.matmul` accumulated into the zero splat, is the plain sum over the contraction
  coordinate k of l (i, k) · r (j, k): row i of the left operand against row j of the right one. The sum over the
  product's own contraction index is re-indexed through the bijection between a one-axis contraction index and its
  coordinate; the operand indices are computed from the dimension numbers: the left operand reads the result's first
  coordinate on its first axis, the right operand reads the result's second coordinate on its first axis, and both
  read the contraction coordinate on their second axis. Nothing here needs finiteness: only that the sum is re-indexed.
-/
import Idealize.ShloMosaic.Lib.ValueIdx
import Idealize.ShloMosaic.PureOps.Ideal.Laws

noncomputable section

namespace Cert.LibDotT

open Idealize.ShloMosaic Idealize.ShloMosaic.ValueIdx

variable {M K N : Nat}

/-- The contraction of row `y 0` of `l` with row `y 1` of `r`: the sum over the product's contraction index is
    the sum over the one contracted coordinate. -/
theorem sum_transposed (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (y : (⟨2, ![M, N]⟩ : Shape).Idx) :
    ∑ q : d.contr.Idx, l (d.lhsIdx y q) * r (d.rhsIdx y q) = ∑ k : Fin K, l (ix2 (y 0) k) * r (ix2 (y 1) k) := by
  obtain ⟨lc, rc, ln, rn, lb, rb, wf⟩ := d
  dsimp only at hlc hrc hln hrn hlb hrb
  subst hlc hrc hln hrn hlb hrb
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 1) k := funext fun a => Fin.ext (by
    match a with
    | ⟨0, _⟩ =>
      unfold DotDims.rhsIdx
      rw [dif_neg (by simp), dif_pos (by simp)]
      rfl
    | ⟨1, _⟩ => exact (DotDims.rhsIdx_val_of_single _ rfl y _).trans hk)
  rw [el, er]
  rfl

variable {φ₁ φ₂ : FTy}

/-- The host's `dot_general` of those dimension numbers, at an index: the sum over the contracted coordinate. -/
theorem dotGeneral_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule)
    (l : FVec Ideal ⟨2, ![M, K]⟩ φ₁) (r : FVec Ideal ⟨2, ![N, K]⟩ φ₂) (y : (⟨2, ![M, N]⟩ : Shape).Idx) :
    FloatOps.dotGeneral d prec sched l r y = ∑ k : Fin K, l (ix2 (y 0) k) * r (ix2 (y 1) k) := by
  rw [Ideal.dotGeneral_apply]
  exact sum_transposed d hlc hrc hln hrn hlb hrb l r y

/-- A `tpu.matmul` of those dimension numbers into the zero accumulator, at an index: the same sum. -/
theorem matmul_zero_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![M, K]⟩ φ₁) (r : FVec Ideal ⟨2, ![N, K]⟩ φ₂) (y : (⟨2, ![M, N]⟩ : Shape).Idx) :
    FloatOps.matmul d prec l r (constant ⟨2, ![M, N]⟩ .f32 0x00000000#32) y
      = ∑ k : Fin K, l (ix2 (y 0) k) * r (ix2 (y 1) k) := by
  rw [Ideal.matmul_constant_zero_apply]
  exact sum_transposed d hlc hrc hln hrn hlb hrb l r y

end Cert.LibDotT

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.LibRows.lean ====
/-
  Rows of a matrix, read at an index, on the extended reals.

  For an a × b matrix v: the sum along the second axis, read at row p, is the sum over k of v (p, k); the maximum
  along the second axis, read at row p, is the fold of max over k of v (p, k) from the start value the accumulator
  word denotes; and one value per row, re-cast as an a × 1 column and laid across c columns ("keepdims", then a
  broadcast), reads at (p, q) the value of row p.  The index of the matrix that a row index with the coordinate k
  put back on the second axis names is (p, k).  All for any extents; nothing is evaluated.
-/
import proofs.«144214_j65481071395393_2_alg».proof.Proof.LibColumn
import Idealize.ShloMosaic.Lib.ValueIdx
import Idealize.ShloMosaic.Lib.Pipeline.Value
import Idealize.ShloMosaic.PureOps.Ideal.Laws

noncomputable section

namespace Cert.LibRows

open Idealize.ShloMosaic Idealize.ShloMosaic.ValueIdx

variable {a b : ℕ}

/-- The index of a matrix over row p with coordinate k put on the second axis is (p, k). -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A sum along the second axis, read at row p: the sum of the row's entries. -/
theorem rowSum_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A maximum along the second axis, read at row p: the fold of max over the row's entries from the start value. -/
theorem rowMaxf_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (Finset.fold_congr fun k _ => congrArg v (lift_row h p k))

/-- One value per row, re-cast as a column and laid across c columns, read at (p, q): the value of row p. -/
theorem column_apply {α : Type} {c : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ u hc) hb (ix2 p q) = u (ix1 p) :=
  (Cert.LibColumn.broadcastTo_a1_ab_apply (shapeCast ⟨2, ![a, 1]⟩ u hc) hb p q).trans
    (Cert.LibColumn.shapeCast_a_a1_apply u hc p 0)

end Cert.LibRows

end
-- ==== Proof.PayIdx.lean ====
/-
  The attention kernel's stored values, read at an index, on the extended reals.

  One key tile of the attention kernel takes a block of 256 scaled query rows q, a tile of 1024 key rows k and the
  matching 1024 value rows v, and the running state of every query row: its maximum m, its sum of exponentials l and
  its accumulated numerator a.  The score of query row p against key row u of the tile is the sum over the 1024
  coordinates of q (p, e) · k (u, e).  The new maximum is the larger of m and the tile's row maximum; the new sum is
  exp (m − new maximum) · l plus the row's sum of exp (score − new maximum); the new numerator is the same scaling of a
  plus the sum over the tile's rows of exp (score − new maximum) · v (u, d).  At the first tile the state is reset to
  −∞, 0 and 0, and after the last the result is a / l.  Each is read here at an explicit index.
-/
import proofs.«144214_j65481071395393_2_alg».proof.Proof.Gen.KernelIdeal.Skeleton
import proofs.«144214_j65481071395393_2_alg».proof.Proof.LibDotT
import proofs.«144214_j65481071395393_2_alg».proof.Proof.LibDot
import proofs.«144214_j65481071395393_2_alg».proof.Proof.LibRows
import proofs.«144214_j65481071395393_2_alg».proof.Proof.LibColumn
import Idealize.ShloMosaic.Lib.ValueIdx
import Idealize.ShloMosaic.Lib.Pipeline.Value
import Idealize.ShloMosaic.PureOps.Ideal.Laws

noncomputable section

namespace Cert.KernelIdeal.PayIdx

open Cert.KernelIdeal Cert.KernelIdeal.Gen Idealize.ShloMosaic Idealize.ShloMosaic.ValueIdx

/-! ## Small facts: the two float words, the fold of max, the exponential at an index -/

/-- The f32 word of −∞ denotes the bottom element. -/
theorem ofBits_neg_inf : Ideal.ofBits .f32 0xFF800000#32 = (⊥ : EReal) := by
  simp [Ideal.ofBits, Ideal.ieee]

/-- A fold of max from the bottom element is the supremum. -/
theorem fold_max_bot {n : ℕ} (f : Fin n → EReal) :
    (Finset.univ : Finset (Fin n)).fold max ⊥ f = Finset.univ.sup f := rfl

/-- An exponential at an index is the exponential of the element. -/
theorem exp_apply {s : Shape} {φ : FTy} (a : FVec Ideal s φ) (i : s.Idx) : exp a i = Ideal.exp (a i) := rfl

/-! ## The scores of a tile -/

/-- The score of query row p of the block against key row u of the tile. -/
def tileScore (q : Vec Ideal S256x1024 .f32) (k : Vec Ideal S1024x1024 .f32) (p : Fin 256) (u : Fin 1024) : EReal :=
  ∑ e : Fin 1024, q (ix2 p e) * k (ix2 u e)

/-- The product of the query block with the transposed key tile, at (p, u): the score. -/
theorem score_apply (q : Vec Ideal S256x1024 .f32) (k : Vec Ideal S1024x1024 .f32) (p : Fin 256) (u : Fin 1024) :
    k1_pay7 (F := Ideal) q k (ix2 p u) = tileScore q k p u := by
  unfold k1_pay7
  rw [shapeCast_self, shapeCast_self]
  exact Cert.LibDotT.matmul_zero_transposed_apply (φ₁ := .f32) (φ₂ := .f32) dot_S256x1024_S1024x1024_S256x1024_1_1_0_0_n_n
    rfl rfl rfl rfl rfl rfl (some .fp32) q k (ix2 p u)

/-! ## The running maximum, and the two exponentials taken against it -/

/-- The maximum of the old maximum and the tile's row maximum, at row p. -/
theorem pay8_apply (q : Vec Ideal S256x1024 .f32) (k : Vec Ideal S1024x1024 .f32) (m : Vec Ideal S256x1 .f32) (p : Fin 256) :
    k1_pay8 (F := Ideal) q k m (ix2 p 0) = max (m (ix2 p 0)) (Finset.univ.sup (tileScore q k p)) := by
  unfold k1_pay8
  rw [maximumf_apply]
  refine congrArg (max (m (ix2 p 0))) ?_
  refine (Cert.LibColumn.shapeCast_a_a1_apply _ _ p 0).trans ?_
  refine (Cert.LibRows.rowMaxf_apply (k1_pay7 (F := Ideal) q k) 0xFF800000#32 _ (.inl rfl) rfl p).trans ?_
  rw [ofBits_neg_inf]
  exact (Finset.fold_congr fun u _ => score_apply q k p u).trans (fold_max_bot _)

/-- The scaling of the old state: exp (old maximum − new maximum), at row p. -/
theorem pay9_apply (q : Vec Ideal S256x1024 .f32) (k : Vec Ideal S1024x1024 .f32) (m m' : Vec Ideal S256x1 .f32) (p : Fin 256) :
    k1_pay9 (F := Ideal) q k m m' (ix2 p 0)
      = Ideal.exp (m' (ix2 p 0) - max (m (ix2 p 0)) (Finset.univ.sup (tileScore q k p))) := by
  unfold k1_pay9
  rw [exp_apply, subf_apply, pay8_apply]

/-- The tile's weights: exp (score − new maximum), at (p, u). -/
theorem pay10_apply (q : Vec Ideal S256x1024 .f32) (k : Vec Ideal S1024x1024 .f32) (m : Vec Ideal S256x1 .f32)
    (p : Fin 256) (u : Fin 1024) :
    k1_pay10 (F := Ideal) q k m (ix2 p u)
      = Ideal.exp (tileScore q k p u - max (m (ix2 p 0)) (Finset.univ.sup (tileScore q k p))) := by
  unfold k1_pay10
  rw [exp_apply, subf_apply, score_apply, Cert.LibColumn.broadcastTo_a1_ab_apply, pay8_apply]

/-! ## What one tile stores -/

/-- The new maximum, at row p. -/
theorem newMax_apply (q : Vec Ideal S256x1024 .f32) (k : Vec Ideal S1024x1024 .f32) (m : Vec Ideal S256x1 .f32) (p : Fin 256) :
    k1_pay2 (F := Ideal) (k1_pay8 q k m) (ix2 p 0) = max (m (ix2 p 0)) (Finset.univ.sup (tileScore q k p)) := by
  unfold k1_pay2
  rw [shapeCast_self]
  exact pay8_apply q k m p

/-- The new sum of exponentials, at row p. -/
theorem newSum_apply (q : Vec Ideal S256x1024 .f32) (k : Vec Ideal S1024x1024 .f32) (m l : Vec Ideal S256x1 .f32) (p : Fin 256) :
    k1_pay11 (F := Ideal) q k m m l (ix2 p 0)
      = Ideal.exp (m (ix2 p 0) - max (m (ix2 p 0)) (Finset.univ.sup (tileScore q k p))) * l (ix2 p 0)
        + ∑ u : Fin 1024, Ideal.exp (tileScore q k p u - max (m (ix2 p 0)) (Finset.univ.sup (tileScore q k p))) := by
  unfold k1_pay11
  rw [shapeCast_self, addf_apply, mulf_apply, pay9_apply]
  congr 1
  refine (Cert.LibColumn.shapeCast_a_a1_apply _ _ p 0).trans ?_
  refine (Cert.LibRows.rowSum_apply (k1_pay10 (F := Ideal) q k m) 0x00000000#32 _ (.inl rfl) rfl p).trans ?_
  exact Finset.sum_congr rfl fun u _ => pay10_apply q k m p u

/-- The new numerator, at (p, d). -/
theorem newAcc_apply (q : Vec Ideal S256x1024 .f32) (k : Vec Ideal S1024x1024 .f32) (v : Vec Ideal S1024x1024 .bf16)
    (m : Vec Ideal S256x1 .f32) (a : Vec Ideal S256x1024 .f32) (p : Fin 256) (d : Fin 1024) :
    k1_pay1 (F := Ideal) (k1_pay12 q k v m m a) (ix2 p d)
      = Ideal.exp (m (ix2 p 0) - max (m (ix2 p 0)) (Finset.univ.sup (tileScore q k p))) * a (ix2 p d)
        + ∑ u : Fin 1024,
            Ideal.exp (tileScore q k p u - max (m (ix2 p 0)) (Finset.univ.sup (tileScore q k p))) * v (ix2 u d) := by
  unfold k1_pay1
  rw [shapeCast_self]
  unfold k1_pay12
  rw [addf_apply, mulf_apply, Cert.LibColumn.broadcastTo_a1_ab_apply, pay9_apply, shapeCast_self]
  congr 1
  refine (Cert.LibDot.matmul_zero_plain_apply (φ₁ := .bf16) (φ₂ := .bf16) dot_S256x1024_S1024x1024_S256x1024_1_0_0_1_n_n
    rfl rfl rfl rfl rfl rfl none (truncf .bf16 (k1_pay10 (F := Ideal) q k m) _) v (ix2 p d)).trans ?_
  refine Finset.sum_congr rfl fun u _ => ?_
  show k1_pay10 (F := Ideal) q k m (ix2 p u) * v (ix2 u d) = _
  rw [pay10_apply]

/-- The result after the last tile: the numerator over the sum, at (p, d). -/
theorem quot_apply (a : Vec Ideal S256x1024 .f32) (l : Vec Ideal S256x1 .f32) (p : Fin 256) (d : Fin 1024) :
    k1_pay3 (F := Ideal) a l (ix2 p d) = Ideal.div (a (ix2 p d)) (l (ix2 p 0)) := by
  unfold k1_pay3
  rw [divf_apply, Cert.LibColumn.broadcastTo_a1_ab_apply]

/-! ## The state before the first tile -/

/-- The maximum starts at −∞. -/
theorem resetMax_apply (p : Fin 256) : k1_pay4 (F := Ideal) (ix2 p 0) = ⊥ := by
  unfold k1_pay4
  rw [shapeCast_self]
  exact ofBits_neg_inf

/-- The sum starts at 0. -/
theorem resetSum_apply (p : Fin 256) : k1_pay5 (F := Ideal) (ix2 p 0) = 0 := by
  unfold k1_pay5
  rw [shapeCast_self]
  exact Ideal.ofBits_zero_f32

/-- The numerator starts at 0. -/
theorem resetAcc_apply (p : Fin 256) (d : Fin 1024) : k1_pay6 (F := Ideal) (ix2 p d) = 0 := by
  unfold k1_pay6
  rw [shapeCast_self]
  exact Ideal.ofBits_zero_f32

end Cert.KernelIdeal.PayIdx

end
-- ==== Proof.LibOnlineSoftmax.lean ====
/-
  The online softmax: a running maximum, a running denominator and a running numerator, updated tile by tile,
  compute the same quotient as the two-pass softmax.

  Scores and values come in tiles of width B: tile t holds s t u and v t u for the positions u < B. Write
  m_t for the maximum of the scores of tile t, and  M n = max (m_0, …, m_(n-1))  for the maximum of the first n tiles
  (the empty maximum is −∞). The recurrence starts from (m, l, a) = (−∞, 0, 0) and, reading tile n, replaces it by

      m' = max (m, m_n),    l' = exp (m − m') · l + Σ_u exp (s n u − m'),    a' = exp (m − m') · a + Σ_u exp (s n u − m') · v n u.

  When the scores and values of the first n tiles are real numbers, after n tiles

      m = M n,     l = Σ_(t < n) Σ_u exp (s t u − M n),     a = Σ_(t < n) Σ_u exp (s t u − M n) · v t u,

  because exp (m − m') · exp (x − m) = exp (x − m') for real numbers, and because at the first tile the old maximum is −∞,
  exp (−∞ − m') = 0, and the old sums are 0. For n ≥ 1 the maximum M n is a real number, l is a positive real number and a is
  a real number, so the quotient a / l is the sum of the quotients exp (s t u − M n) / l times v t u: the softmax weights
  against the values. Read along one flat index j = u + B · t < T · B this is the two-pass softmax of the whole row.

  All arithmetic is that of the extended reals with exp (−∞) = 0; nothing is distributed or cancelled before the terms
  have been shown to be real numbers.
-/
import Idealize.ShloMosaic.PureOps.Ideal
import Mathlib.Logic.Equiv.Fin.Basic
import Mathlib.Algebra.BigOperators.Fin

noncomputable section

namespace Cert.LibOnlineSoftmax

open Idealize.ShloMosaic
open scoped BigOperators

/-! # The online softmax equals the two-pass softmax

For tiles of scores s t u and values v t u (tile t, position u < B), the recurrence
(m, l, a) ↦ (m', exp (m − m') · l + Σ_u exp (s n u − m'), exp (m − m') · a + Σ_u exp (s n u − m') · v n u) with
m' = max (m, max_u s n u), started at (−∞, 0, 0), reaches after n tiles of real numbers the maximum M n of all scores read,
the sum of exp (s t u − M n) and the sum of exp (s t u − M n) · v t u; for n ≥ 1 their quotient is the sum of the softmax
weights times the values, and along the flat index j = u + B · t it is the two-pass softmax of the whole row. -/

/-! ### Real numbers inside the extended reals -/

/-- The coercion of a finite sum of real numbers is the sum of the coercions. -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The exponential of a difference of two real numbers is the real exponential of the real difference. -/
theorem exp_coe_sub (x c : ℝ) :
    Ideal.exp ((x : EReal) - (c : EReal)) = ((Real.exp (x - c) : ℝ) : EReal) := by
  rw [← EReal.coe_sub]; rfl

/-- A finite nonempty supremum of real numbers is a real number. -/
theorem sup_isReal {ι : Type*} (S : Finset ι) (hS : S.Nonempty) (f : ι → EReal)
    (hf : ∀ i ∈ S, ∃ r : ℝ, f i = (r : EReal)) : ∃ r : ℝ, S.sup f = (r : EReal) := by
  obtain ⟨i, hi, h⟩ := Finset.exists_mem_eq_sup S hS f
  obtain ⟨r, hr⟩ := hf i hi
  exact ⟨r, h.trans hr⟩

/-! ### The recurrence -/

variable {B : ℕ}

/-- The running state of the online softmax: the maximum m seen so far, the denominator l and the numerator a,
    both scaled to that maximum. -/
@[ext] structure Acc where
  /-- the running maximum -/
  m : EReal
  /-- the running denominator, the sum of exp (score − m) -/
  l : EReal
  /-- the running numerator, the sum of exp (score − m) · value -/
  a : EReal

/-- The state after n tiles: start from (−∞, 0, 0); tile n raises the maximum to m' = max (m, maximum of tile n),
    scales both sums by α = exp (m − m') and adds the tile's terms exp (s n u − m') and exp (s n u − m') · v n u. -/
def state (s v : ℕ → Fin B → EReal) : ℕ → Acc
  | 0 => ⟨⊥, 0, 0⟩
  | n + 1 =>
    ⟨max (state s v n).m (Finset.univ.sup (s n)),
     Ideal.exp ((state s v n).m - max (state s v n).m (Finset.univ.sup (s n))) * (state s v n).l
       + ∑ u, Ideal.exp (s n u - max (state s v n).m (Finset.univ.sup (s n))),
     Ideal.exp ((state s v n).m - max (state s v n).m (Finset.univ.sup (s n))) * (state s v n).a
       + ∑ u, Ideal.exp (s n u - max (state s v n).m (Finset.univ.sup (s n))) * v n u⟩

/-- Before any tile the state is (−∞, 0, 0). -/
@[simp] theorem state_zero (s v : ℕ → Fin B → EReal) : state s v 0 = ⟨⊥, 0, 0⟩ := rfl

/-- One step of the recurrence, spelt with its two intermediate quantities m' and α. -/
theorem state_succ (s v : ℕ → Fin B → EReal) (n : ℕ) :
    state s v (n + 1) =
      (let m := (state s v n).m
       let l := (state s v n).l
       let a := (state s v n).a
       let m' := max m (Finset.univ.sup (s n))
       let α := Ideal.exp (m - m')
       ⟨m', α * l + ∑ u, Ideal.exp (s n u - m'), α * a + ∑ u, Ideal.exp (s n u - m') * v n u⟩) := rfl

/-- The new maximum: the larger of the old one and the maximum of the tile. -/
theorem state_succ_m (s v : ℕ → Fin B → EReal) (n : ℕ) :
    (state s v (n + 1)).m = max (state s v n).m (Finset.univ.sup (s n)) := rfl

/-- The new denominator: the old one scaled by exp (m − m'), plus the tile's terms exp (s n u − m'). -/
theorem state_succ_l (s v : ℕ → Fin B → EReal) (n : ℕ) :
    (state s v (n + 1)).l =
      Ideal.exp ((state s v n).m - (state s v (n + 1)).m) * (state s v n).l
        + ∑ u, Ideal.exp (s n u - (state s v (n + 1)).m) := rfl

/-- The new numerator: the old one scaled by exp (m − m'), plus the tile's terms exp (s n u − m') · v n u. -/
theorem state_succ_a (s v : ℕ → Fin B → EReal) (n : ℕ) :
    (state s v (n + 1)).a =
      Ideal.exp ((state s v n).m - (state s v (n + 1)).m) * (state s v n).a
        + ∑ u, Ideal.exp (s n u - (state s v (n + 1)).m) * v n u := rfl

/-! ### The maximum of the first n tiles -/

/-- M n: the maximum of the scores of the tiles before n (−∞ for no tile). -/
def M (s : ℕ → Fin B → EReal) (n : ℕ) : EReal := (Finset.range n).sup fun t => Finset.univ.sup (s t)

/-- M n written out. -/
theorem M_def (s : ℕ → Fin B → EReal) (n : ℕ) :
    M s n = (Finset.range n).sup fun t => Finset.univ.sup (s t) := rfl

/-- The maximum of no tile is −∞. -/
@[simp] theorem M_zero (s : ℕ → Fin B → EReal) : M s 0 = ⊥ := by
  rw [M, Finset.range_zero, Finset.sup_empty]

/-- One more tile: the maximum of the earlier tiles and of the new one. -/
theorem M_succ (s : ℕ → Fin B → EReal) (n : ℕ) :
    M s (n + 1) = max (M s n) (Finset.univ.sup (s n)) := by
  rw [M, Finset.range_add_one, Finset.sup_insert, max_comm]; rfl

/-- With at least one tile, a positive tile width and real scores, the maximum M n is a real number. -/
theorem M_isReal {s : ℕ → Fin B → EReal} {n : ℕ} (hB : 0 < B) (hn : 1 ≤ n)
    (hs : ∀ t < n, ∀ u, ∃ r : ℝ, s t u = (r : EReal)) : ∃ r : ℝ, M s n = (r : EReal) :=
  sup_isReal _ (Finset.nonempty_range_iff.mpr (by omega)) _ fun t ht =>
    sup_isReal _ ⟨⟨0, hB⟩, Finset.mem_univ _⟩ _ fun u _ => hs t (Finset.mem_range.mp ht) u

/-! ### The two sums as real numbers -/

/-- The sum of exp (s t u − c) over the first n tiles, for real scores and a real c, is the coercion of the real sum. -/
theorem den_coe {s : ℕ → Fin B → EReal} {n : ℕ} (hs : ∀ t < n, ∀ u, ∃ r : ℝ, s t u = (r : EReal)) (c : ℝ) :
    ∑ t ∈ Finset.range n, ∑ u, Ideal.exp (s t u - (c : EReal))
      = ((∑ t ∈ Finset.range n, ∑ u, Real.exp ((s t u).toReal - c) : ℝ) : EReal) := by
  rw [coe_finset_sum]
  refine Finset.sum_congr rfl fun t ht => ?_
  rw [coe_finset_sum]
  refine Finset.sum_congr rfl fun u _ => ?_
  obtain ⟨r, hr⟩ := hs t (Finset.mem_range.mp ht) u
  rw [hr, exp_coe_sub, EReal.toReal_coe]

/-- The sum of exp (s t u − c) · v t u over the first n tiles, for real scores and values and a real c, is the coercion of
    the real sum. -/
theorem num_coe {s v : ℕ → Fin B → EReal} {n : ℕ} (hs : ∀ t < n, ∀ u, ∃ r : ℝ, s t u = (r : EReal))
    (hv : ∀ t < n, ∀ u, ∃ r : ℝ, v t u = (r : EReal)) (c : ℝ) :
    ∑ t ∈ Finset.range n, ∑ u, Ideal.exp (s t u - (c : EReal)) * v t u
      = ((∑ t ∈ Finset.range n, ∑ u, Real.exp ((s t u).toReal - c) * (v t u).toReal : ℝ) : EReal) := by
  rw [coe_finset_sum]
  refine Finset.sum_congr rfl fun t ht => ?_
  rw [coe_finset_sum]
  refine Finset.sum_congr rfl fun u _ => ?_
  obtain ⟨r, hr⟩ := hs t (Finset.mem_range.mp ht) u
  obtain ⟨q, hq⟩ := hv t (Finset.mem_range.mp ht) u
  rw [hr, hq, exp_coe_sub, EReal.toReal_coe, EReal.toReal_coe, EReal.coe_mul]

/-- Moving the reference point of the denominator from c to d multiplies it by exp (c − d). -/
theorem rescale_den {s : ℕ → Fin B → EReal} {n : ℕ} (hs : ∀ t < n, ∀ u, ∃ r : ℝ, s t u = (r : EReal)) (c d : ℝ) :
    Ideal.exp ((c : EReal) - (d : EReal)) * ∑ t ∈ Finset.range n, ∑ u, Ideal.exp (s t u - (c : EReal))
      = ∑ t ∈ Finset.range n, ∑ u, Ideal.exp (s t u - (d : EReal)) := by
  rw [den_coe hs c, den_coe hs d, exp_coe_sub, ← EReal.coe_mul, EReal.coe_eq_coe_iff, Finset.mul_sum]
  refine Finset.sum_congr rfl fun t _ => ?_
  rw [Finset.mul_sum]
  refine Finset.sum_congr rfl fun u _ => ?_
  rw [← Real.exp_add]
  congr 1; ring

/-- Moving the reference point of the numerator from c to d multiplies it by exp (c − d). -/
theorem rescale_num {s v : ℕ → Fin B → EReal} {n : ℕ} (hs : ∀ t < n, ∀ u, ∃ r : ℝ, s t u = (r : EReal))
    (hv : ∀ t < n, ∀ u, ∃ r : ℝ, v t u = (r : EReal)) (c d : ℝ) :
    Ideal.exp ((c : EReal) - (d : EReal)) * ∑ t ∈ Finset.range n, ∑ u, Ideal.exp (s t u - (c : EReal)) * v t u
      = ∑ t ∈ Finset.range n, ∑ u, Ideal.exp (s t u - (d : EReal)) * v t u := by
  rw [num_coe hs hv c, num_coe hs hv d, exp_coe_sub, ← EReal.coe_mul, EReal.coe_eq_coe_iff, Finset.mul_sum]
  refine Finset.sum_congr rfl fun t _ => ?_
  rw [Finset.mul_sum]
  refine Finset.sum_congr rfl fun u _ => ?_
  rw [← mul_assoc, ← Real.exp_add]
  congr 2; ring

/-! ### The state after n tiles -/

/-- After n tiles whose scores and values are real numbers, the running maximum is M n and the two running sums are the
    sums over all n tiles taken against M n. (True for n = 0 as well: −∞, 0, 0.) -/
theorem state_eq {s v : ℕ → Fin B → EReal} (hB : 0 < B) :
    ∀ n : ℕ, (∀ t < n, ∀ u, ∃ r : ℝ, s t u = (r : EReal)) → (∀ t < n, ∀ u, ∃ r : ℝ, v t u = (r : EReal)) →
      state s v n = ⟨M s n, ∑ t ∈ Finset.range n, ∑ u, Ideal.exp (s t u - M s n),
                     ∑ t ∈ Finset.range n, ∑ u, Ideal.exp (s t u - M s n) * v t u⟩ := by
  intro n
  induction n with
  | zero => intro _ _; simp
  | succ n ih =>
    intro hs hv
    have hs' : ∀ t < n, ∀ u, ∃ r : ℝ, s t u = (r : EReal) := fun t ht => hs t (by omega)
    have hv' : ∀ t < n, ∀ u, ∃ r : ℝ, v t u = (r : EReal) := fun t ht => hv t (by omega)
    obtain ⟨m', hm'⟩ := M_isReal hB (n := n + 1) (by omega) hs
    have hmax : max (M s n) (Finset.univ.sup (s n)) = (m' : EReal) := by rw [← M_succ, hm']
    have hd : Ideal.exp (M s n - (m' : EReal)) * ∑ t ∈ Finset.range n, ∑ u, Ideal.exp (s t u - M s n)
        = ∑ t ∈ Finset.range n, ∑ u, Ideal.exp (s t u - (m' : EReal)) := by
      rcases Nat.eq_zero_or_pos n with rfl | hn
      · simp
      · obtain ⟨m, hm⟩ := M_isReal hB hn hs'
        rw [hm]; exact rescale_den hs' m m'
    have ha : Ideal.exp (M s n - (m' : EReal)) * ∑ t ∈ Finset.range n, ∑ u, Ideal.exp (s t u - M s n) * v t u
        = ∑ t ∈ Finset.range n, ∑ u, Ideal.exp (s t u - (m' : EReal)) * v t u := by
      rcases Nat.eq_zero_or_pos n with rfl | hn
      · simp
      · obtain ⟨m, hm⟩ := M_isReal hB hn hs'
        rw [hm]; exact rescale_num hs' hv' m m'
    rw [state_succ, ih hs' hv']
    dsimp only
    rw [hmax, hm', Finset.sum_range_succ, Finset.sum_range_succ, hd, ha]

/-- The running maximum after n ≥ 1 tiles is the maximum M n of all their scores, a real number. -/
theorem max_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    (state s v n).m = M s n ∧ ∃ r : ℝ, M s n = (r : EReal) :=
  ⟨by rw [state_eq hB n hs hv], M_isReal hB hn hs⟩

/-- The running denominator after n ≥ 1 tiles is the sum of exp (s t u − M n) over all their positions, a positive
    real number. -/
theorem den_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    (state s v n).l = ∑ t ∈ Finset.range n, ∑ u, Ideal.exp (s t u - M s n)
      ∧ ∃ r : ℝ, 0 < r ∧ (state s v n).l = (r : EReal) := by
  have h : (state s v n).l = ∑ t ∈ Finset.range n, ∑ u, Ideal.exp (s t u - M s n) := by rw [state_eq hB n hs hv]
  refine ⟨h, ?_⟩
  obtain ⟨m, hm⟩ := M_isReal hB hn hs
  refine ⟨_, ?_, by rw [h, hm]; exact den_coe hs m⟩
  exact Finset.sum_pos (fun t _ => Finset.sum_pos (fun u _ => Real.exp_pos _) ⟨⟨0, hB⟩, Finset.mem_univ _⟩)
    (Finset.nonempty_range_iff.mpr (by omega))

/-- The running numerator after n ≥ 1 tiles is the sum of exp (s t u − M n) · v t u over all their positions, a real
    number. -/
theorem num_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    (state s v n).a = ∑ t ∈ Finset.range n, ∑ u, Ideal.exp (s t u - M s n) * v t u
      ∧ ∃ r : ℝ, (state s v n).a = (r : EReal) := by
  have h : (state s v n).a = ∑ t ∈ Finset.range n, ∑ u, Ideal.exp (s t u - M s n) * v t u := by
    rw [state_eq hB n hs hv]
  obtain ⟨m, hm⟩ := M_isReal hB hn hs
  exact ⟨h, _, by rw [h, hm]; exact num_coe hs hv m⟩

/-! ### The quotient of the sums is the sum of the quotients -/

/-- Dividing a finite sum of products of real numbers by a nonzero real number divides the first factor of each term. -/
theorem div_sum {ι : Type*} (S : Finset ι) (a b : ι → EReal) (ha : ∀ i ∈ S, ∃ r : ℝ, a i = (r : EReal))
    (hb : ∀ i ∈ S, ∃ r : ℝ, b i = (r : EReal)) {L : ℝ} (hL : L ≠ 0) :
    Ideal.div (∑ i ∈ S, a i * b i) (L : EReal) = ∑ i ∈ S, Ideal.div (a i) (L : EReal) * b i := by
  simp only [Ideal.div_coe hL]
  have e1 : ∑ i ∈ S, a i * b i = ((∑ i ∈ S, (a i).toReal * (b i).toReal : ℝ) : EReal) := by
    rw [coe_finset_sum]
    refine Finset.sum_congr rfl fun i hi => ?_
    obtain ⟨r, hr⟩ := ha i hi
    obtain ⟨q, hq⟩ := hb i hi
    rw [hr, hq, EReal.toReal_coe, EReal.toReal_coe, EReal.coe_mul]
  have e2 : ∑ i ∈ S, a i * ((1 / L : ℝ) : EReal) * b i
      = ((∑ i ∈ S, (a i).toReal * (1 / L) * (b i).toReal : ℝ) : EReal) := by
    rw [coe_finset_sum]
    refine Finset.sum_congr rfl fun i hi => ?_
    obtain ⟨r, hr⟩ := ha i hi
    obtain ⟨q, hq⟩ := hb i hi
    rw [hr, hq, EReal.toReal_coe, EReal.toReal_coe, EReal.coe_mul, EReal.coe_mul]
  rw [e1, e2, ← EReal.coe_mul, EReal.coe_eq_coe_iff, Finset.sum_mul]
  exact Finset.sum_congr rfl fun i _ => by ring

/-- The same over a whole finite index type: (Σ_j a j · b j) / L = Σ_j (a j / L) · b j for real a, b and a real L ≠ 0. -/
theorem div_sum_univ {ι : Type*} [Fintype ι] (a b : ι → EReal) (ha : ∀ j, ∃ r : ℝ, a j = (r : EReal))
    (hb : ∀ j, ∃ r : ℝ, b j = (r : EReal)) {L : ℝ} (hL : L ≠ 0) :
    Ideal.div (∑ j, a j * b j) (L : EReal) = ∑ j, Ideal.div (a j) (L : EReal) * b j :=
  div_sum Finset.univ a b (fun j _ => ha j) (fun j _ => hb j) hL

/-- After n ≥ 1 tiles the quotient numerator / denominator is the sum, over all positions of the n tiles, of the softmax
    weight exp (s t u − M n) / Σ exp (s t' u' − M n) times the value v t u. -/
theorem quot_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    Ideal.div (state s v n).a (state s v n).l
      = ∑ t ∈ Finset.range n, ∑ u,
          Ideal.div (Ideal.exp (s t u - M s n)) (∑ t' ∈ Finset.range n, ∑ u', Ideal.exp (s t' u' - M s n)) * v t u := by
  obtain ⟨hl, L, hLpos, hL⟩ := den_eq hB hn hs hv
  obtain ⟨m, hm⟩ := M_isReal hB hn hs
  rw [(num_eq hB hn hs hv).1, ← hl, hL, hm, ← Finset.sum_product', ← Finset.sum_product']
  refine div_sum _ (fun p : ℕ × Fin B => Ideal.exp (s p.1 p.2 - (m : EReal))) (fun p : ℕ × Fin B => v p.1 p.2)
    (fun p hp => ?_) (fun p hp => ?_)
    hLpos.ne'
  · obtain ⟨r, hr⟩ := hs p.1 (Finset.mem_range.mp (Finset.mem_product.mp hp).1) p.2
    exact ⟨_, by rw [hr, exp_coe_sub]⟩
  · exact hv p.1 (Finset.mem_range.mp (Finset.mem_product.mp hp).1) p.2

/-! ### One flat index

A row of T · B entries is cut into T tiles of width B: position u of tile t is the entry j = u + B · t. -/

/-- The flat position of entry u of tile t is u + B · t. -/
theorem flat_val {T : ℕ} (t : Fin T) (u : Fin B) : (finProdFinEquiv (t, u) : Fin (T * B)).val = u.val + B * t.val := rfl

/-- The flat position of entry u of tile t, written as a bounded number. -/
theorem flat_mk {T : ℕ} (t : ℕ) (ht : t < T) (u : Fin B) (h : u.val + B * t < T * B) :
    (finProdFinEquiv ((⟨t, ht⟩ : Fin T), u) : Fin (T * B)) = ⟨u.val + B * t, h⟩ := rfl

/-- The tiles of a flat row f: position u of tile t < T is the entry u + B · t; tiles from T on are filled with z. -/
def tiles {T : ℕ} (f : Fin (T * B) → EReal) (z : EReal) (t : ℕ) (u : Fin B) : EReal :=
  if h : t < T then f (finProdFinEquiv (⟨t, h⟩, u)) else z

/-- A tile before T reads the flat row. -/
theorem tiles_of_lt {T : ℕ} (f : Fin (T * B) → EReal) (z : EReal) (t : ℕ) (ht : t < T) (u : Fin B) :
    tiles f z t u = f (finProdFinEquiv (⟨t, ht⟩, u)) := dif_pos ht

/-- Summing over the T tiles and the B positions of each is summing over the flat index. -/
theorem sum_tiles {T : ℕ} (G : ℕ → Fin B → EReal) (H : Fin (T * B) → EReal)
    (h : ∀ (t : ℕ) (ht : t < T) (u : Fin B), G t u = H (finProdFinEquiv (⟨t, ht⟩, u))) :
    ∑ t ∈ Finset.range T, ∑ u, G t u = ∑ j, H j := by
  rw [Finset.sum_range, ← Fintype.sum_prod_type', ← Equiv.sum_comp finProdFinEquiv H]
  exact Fintype.sum_congr _ _ fun p => h p.1 p.1.2 p.2

/-- The maximum over the T tiles is the maximum over the flat index. -/
theorem M_flat {T : ℕ} {s : ℕ → Fin B → EReal} {f : Fin (T * B) → EReal}
    (hs : ∀ (t : ℕ) (ht : t < T) (u : Fin B), s t u = f (finProdFinEquiv (⟨t, ht⟩, u))) :
    M s T = Finset.univ.sup f := by
  apply le_antisymm
  · refine Finset.sup_le fun t ht => Finset.sup_le fun u _ => ?_
    rw [hs t (Finset.mem_range.mp ht) u]
    exact Finset.le_sup (Finset.mem_univ _)
  · refine Finset.sup_le fun j _ => ?_
    obtain ⟨⟨t, u⟩, rfl⟩ := finProdFinEquiv.surjective j
    calc f (finProdFinEquiv (t, u)) = s t.1 u := (hs t.1 t.2 u).symm
      _ ≤ Finset.univ.sup (s t.1) := Finset.le_sup (Finset.mem_univ u)
      _ ≤ M s T := Finset.le_sup (f := fun t => Finset.univ.sup (s t)) (Finset.mem_range.mpr t.2)

/-- The online softmax of a flat row. When the tiles s, v read the real rows f, g (position u of tile t is the entry
    u + B · t), after all T ≥ 1 tiles the quotient numerator / denominator is the two-pass softmax of f against g:
    the sum over j of exp (f j − max f) / Σ_j' exp (f j' − max f) times g j. -/
theorem quot_eq_flat {T : ℕ} {s v : ℕ → Fin B → EReal} {f g : Fin (T * B) → EReal} (hB : 0 < B) (hT : 1 ≤ T)
    (hf : ∀ j, ∃ r : ℝ, f j = (r : EReal)) (hg : ∀ j, ∃ r : ℝ, g j = (r : EReal))
    (hs : ∀ (t : ℕ) (ht : t < T) (u : Fin B), s t u = f (finProdFinEquiv (⟨t, ht⟩, u)))
    (hv : ∀ (t : ℕ) (ht : t < T) (u : Fin B), v t u = g (finProdFinEquiv (⟨t, ht⟩, u))) :
    Ideal.div (state s v T).a (state s v T).l
      = ∑ j, Ideal.div (Ideal.exp (f j - Finset.univ.sup f)) (∑ j', Ideal.exp (f j' - Finset.univ.sup f)) * g j := by
  have hsr : ∀ t < T, ∀ u, ∃ r : ℝ, s t u = (r : EReal) := fun t ht u => by rw [hs t ht u]; exact hf _
  have hvr : ∀ t < T, ∀ u, ∃ r : ℝ, v t u = (r : EReal) := fun t ht u => by rw [hv t ht u]; exact hg _
  have hD : ∑ t' ∈ Finset.range T, ∑ u', Ideal.exp (s t' u' - Finset.univ.sup f)
      = ∑ j', Ideal.exp (f j' - Finset.univ.sup f) :=
    sum_tiles _ _ fun t ht u => by rw [hs t ht u]
  rw [quot_eq hB hT hsr hvr, M_flat hs, hD]
  exact sum_tiles _ _ fun t ht u => by rw [hs t ht u, hv t ht u]

/-- The online softmax of a flat row, for the tiles cut from the flat rows themselves. -/
theorem quot_eq_tiles {T : ℕ} {f g : Fin (T * B) → EReal} (hB : 0 < B) (hT : 1 ≤ T)
    (hf : ∀ j, ∃ r : ℝ, f j = (r : EReal)) (hg : ∀ j, ∃ r : ℝ, g j = (r : EReal)) (z z' : EReal) :
    Ideal.div (state (tiles f z) (tiles g z') T).a (state (tiles f z) (tiles g z') T).l
      = ∑ j, Ideal.div (Ideal.exp (f j - Finset.univ.sup f)) (∑ j', Ideal.exp (f j' - Finset.univ.sup f)) * g j :=
  quot_eq_flat hB hT hf hg (tiles_of_lt f z) (tiles_of_lt g z')

/-- The state after n tiles only reads the tiles before n. -/
theorem state_congr {s s' v v' : ℕ → Fin B → EReal} :
    ∀ n : ℕ, (∀ t < n, s t = s' t) → (∀ t < n, v t = v' t) → state s v n = state s' v' n
  | 0, _, _ => rfl
  | n + 1, hs, hv => by
    have ih := state_congr n (fun t ht => hs t (by omega)) (fun t ht => hv t (by omega))
    rw [state_succ, state_succ, ih, hs n (by omega), hv n (by omega)]

/-- The state after all T tiles of the flat real rows f, g: the maximum of f, the sum of exp (f j − max f) and the sum of
    exp (f j − max f) · g j. -/
theorem state_flat {T : ℕ} {s v : ℕ → Fin B → EReal} {f g : Fin (T * B) → EReal} (hB : 0 < B)
    (hf : ∀ j, ∃ r : ℝ, f j = (r : EReal)) (hg : ∀ j, ∃ r : ℝ, g j = (r : EReal))
    (hs : ∀ (t : ℕ) (ht : t < T) (u : Fin B), s t u = f (finProdFinEquiv (⟨t, ht⟩, u)))
    (hv : ∀ (t : ℕ) (ht : t < T) (u : Fin B), v t u = g (finProdFinEquiv (⟨t, ht⟩, u))) :
    state s v T = ⟨Finset.univ.sup f, ∑ j, Ideal.exp (f j - Finset.univ.sup f),
                   ∑ j, Ideal.exp (f j - Finset.univ.sup f) * g j⟩ := by
  have hsr : ∀ t < T, ∀ u, ∃ r : ℝ, s t u = (r : EReal) := fun t ht u => by rw [hs t ht u]; exact hf _
  have hvr : ∀ t < T, ∀ u, ∃ r : ℝ, v t u = (r : EReal) := fun t ht u => by rw [hv t ht u]; exact hg _
  have hD : ∑ t ∈ Finset.range T, ∑ u, Ideal.exp (s t u - Finset.univ.sup f)
      = ∑ j, Ideal.exp (f j - Finset.univ.sup f) :=
    sum_tiles _ _ fun t ht u => by rw [hs t ht u]
  have hN : ∑ t ∈ Finset.range T, ∑ u, Ideal.exp (s t u - Finset.univ.sup f) * v t u
      = ∑ j, Ideal.exp (f j - Finset.univ.sup f) * g j :=
    sum_tiles _ _ fun t ht u => by rw [hs t ht u, hv t ht u]
  rw [state_eq hB T hsr hvr, M_flat hs, hD, hN]

/-- The maximum of a real row over a nonempty finite index type is a real number. -/
theorem sup_univ_isReal {ι : Type*} [Fintype ι] [Nonempty ι] (f : ι → EReal) (hf : ∀ j, ∃ r : ℝ, f j = (r : EReal)) :
    ∃ r : ℝ, Finset.univ.sup f = (r : EReal) :=
  sup_isReal _ Finset.univ_nonempty f fun j _ => hf j

/-- The denominator of the two-pass softmax of a real row over a nonempty finite index type, the sum of
    exp (f j − max f), is a positive real number. -/
theorem softmax_den_pos {ι : Type*} [Fintype ι] [Nonempty ι] (f : ι → EReal) (hf : ∀ j, ∃ r : ℝ, f j = (r : EReal)) :
    ∃ r : ℝ, 0 < r ∧ ∑ j, Ideal.exp (f j - Finset.univ.sup f) = (r : EReal) := by
  obtain ⟨m, hm⟩ := sup_univ_isReal f hf
  refine ⟨∑ j, Real.exp ((f j).toReal - m), Finset.sum_pos (fun j _ => Real.exp_pos _) Finset.univ_nonempty, ?_⟩
  rw [hm, coe_finset_sum]
  refine Finset.sum_congr rfl fun j _ => ?_
  obtain ⟨r, hr⟩ := hf j
  rw [hr, exp_coe_sub, EReal.toReal_coe]

end Cert.LibOnlineSoftmax

end
-- ==== Proof.LibRealOps.lean ====
/-
  Real numbers inside the extended reals: the facts that carry "every value is a real number" through a program.

  A program read over the extended reals is exact, but its algebra is the reals' only where no infinity occurs:
  distributivity and cancellation fail at an infinite factor. A precondition that every input is finite therefore has
  to be carried through the program: each intermediate is shown to be the coercion of a real, and the law wanted is then
  the reals'. This file has the two element tests a printed precondition is made of (|x| < +infinity says x is a real;
  v >= 0 says what it says), and the closure of the reals under what such programs do to them: a finite sum (this
  Mathlib has no coercion lemma for it), a sum of products (a matrix product's entry) onto a real accumulator, a quotient
  by a non-zero real, a maximum, and a square root of a non-negative real.
-/
import Idealize.ShloMosaic.PureOps.Ideal

noncomputable section

namespace Idealize.ShloMosaic.RealOps

open Idealize.ShloMosaic

/-! ## The element tests of a precondition -/

/-- The f32 pattern of +infinity denotes the top element. -/
theorem ofBits_pos_inf : Ideal.ofBits .f32 0x7F800000#32 = (⊤ : EReal) := by
  simp [Ideal.ofBits, Ideal.ieee]

/-- An extended real is below the top in absolute value exactly when it is a real number. -/
theorem abs_lt_top_iff (x : EReal) : max x (-x) < ⊤ ↔ ∃ r : ℝ, x = (r : EReal) := by
  induction x using EReal.rec with
  | bot => simp
  | coe r =>
    refine ⟨fun _ => ⟨r, rfl⟩, fun _ => ?_⟩
    rw [← EReal.coe_neg, max_lt_iff]
    exact ⟨EReal.coe_lt_top r, EReal.coe_lt_top (-r)⟩
  | top => simp

/-- The finiteness test as a program prints it: the comparison "|x| < +infinity" answers 1 exactly when x is a real. -/
theorem cmp_abs_lt_inf (x : EReal) :
    Ideal.cmp .olt (max x (-x)) (Ideal.ofBits .f32 0x7F800000#32) = 1#1 ↔ ∃ r : ℝ, x = (r : EReal) := by
  rw [ofBits_pos_inf, ← abs_lt_top_iff]
  unfold Ideal.cmp
  by_cases h : max x (-x) < ⊤ <;> simp [h]

/-- The sign test as a program prints it: "v >= 0" answers 1 exactly when 0 <= v. -/
theorem cmp_ge_zero (v : EReal) : Ideal.cmp .oge v 0 = 1#1 ↔ 0 ≤ v := by
  unfold Ideal.cmp
  by_cases h : (0 : EReal) ≤ v <;> simp [h]

/-! ## Closure of the reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, taken on the extended reals, is the real sum of products. -/
theorem sum_mul_coe {ι : Type*} (s : Finset ι) (a b : ι → ℝ) :
    ∑ k ∈ s, (a k : EReal) * (b k : EReal) = ((∑ k ∈ s, a k * b k : ℝ) : EReal) := by
  rw [coe_sum]
  exact Finset.sum_congr rfl fun k _ => (EReal.coe_mul _ _).symm

/-- The same onto a real accumulator: an entry of a matrix product of real matrices is a real. -/
theorem acc_add_sum_mul_coe {ι : Type*} (s : Finset ι) (acc : ℝ) (a b : ι → ℝ) :
    (acc : EReal) + ∑ k ∈ s, (a k : EReal) * (b k : EReal) = ((acc + ∑ k ∈ s, a k * b k : ℝ) : EReal) := by
  rw [sum_mul_coe, EReal.coe_add]

/-- A quotient of reals by a non-zero real, as a program takes it, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A maximum of reals is the real maximum. -/
theorem max_coe (a b : ℝ) : max (a : EReal) (b : EReal) = ((max a b : ℝ) : EReal) :=
  (EReal.coe_strictMono.monotone.map_max).symm

/-- The square root of a non-negative real, as a program takes it, is the real square root. -/
theorem sqrt_coe_of_nonneg {r : ℝ} (hr : 0 ≤ r) : Ideal.sqrt (r : EReal) = ((Real.sqrt r : ℝ) : EReal) := by
  show (if r < 0 then (⊥ : EReal) else (Real.sqrt r : EReal)) = _
  rw [if_neg (not_lt.2 hr)]

end Idealize.ShloMosaic.RealOps

end
-- ==== Proof.V1State.lean ====
/-
  What the attention region leaves in the result array, on the extended reals.

  For query row r, the scores against the 4096 key rows are f j = Σ_e Q (r, e) · K (j, e), and column d of the value
  array is g j = V (j, d).  Cut into 4 tiles of 1024, these are exactly what the kernel folds in, tile after tile:
  after key tile n of query block b, row p of the kept buffers holds the state of the online softmax recurrence after
  n + 1 tiles for the row r = 256 b + p (the weighted sum also for each column d).  At the last key tile the stored
  quotient is therefore, when Q, K, V hold real numbers, the two-pass softmax of the score row against the value column.
-/
import proofs.«144214_j65481071395393_2_alg».proof.Proof.R1Pieces
import proofs.«144214_j65481071395393_2_alg».proof.Proof.V1Blocks
import proofs.«144214_j65481071395393_2_alg».proof.Proof.PayIdx
import proofs.«144214_j65481071395393_2_alg».proof.Proof.LibOnlineSoftmax
import proofs.«144214_j65481071395393_2_alg».proof.Proof.LibRealOps
import proofs.«144214_j65481071395393_2_alg».proof.Proof.Spec

noncomputable section

namespace Cert.KernelIdeal.V1

open Cert.KernelIdeal Cert.KernelIdeal.Gen Cert.KernelIdeal.R1 Cert.KernelIdeal.PayIdx
open Idealize.ShloMosaic Idealize.ShloMosaic.TcCoe Idealize.ShloMosaic.ValueIdx Idealize.SL.Sem
open Cert.LibOnlineSoftmax (state tiles tiles_of_lt quot_eq_tiles)

variable (V : (c : Dev nD) → (b : Ref sig .tc) → Buf (Elt Ideal) ((c : Thread nD τ).loc b))

/-! ## The score rows and value columns, whole and in tiles -/

/-- The score of row r of Q against row j of K. -/
def frowOf (Q K : Cert.Flash.Tok) (r j : Fin 4096) : EReal := ∑ e : Fin 1024, Q (ix2 r e) * K (ix2 j e)
/-- Column d of W. -/
def gcolOf (W : Cert.Flash.Tok) (d : Fin 1024) (j : Fin 4096) : EReal := W (ix2 j d)

/-- The attention of three 4096 × 1024 arrays Q, K, W at (r, d): the softmax weights of the scores of query row r against
    all key rows, against column d of W. -/
def attnQKV (Q K W : Cert.Flash.Tok) (r : Fin 4096) (d : Fin 1024) : EReal :=
  ∑ j : Fin 4096,
    Ideal.div (Ideal.exp (frowOf Q K r j - Finset.univ.sup (frowOf Q K r)))
      (∑ j' : Fin 4096, Ideal.exp (frowOf Q K r j' - Finset.univ.sup (frowOf Q K r))) * gcolOf W d j

/-- The score of query row r against key row j, from the arrays as the region finds them. -/
def frow (c : Dev nD) (r j : Fin 4096) : EReal := frowOf (V c main_v0_0) (V c main_v0_1) r j
/-- Column d of the value array. -/
def gcol (c : Dev nD) (d : Fin 1024) (j : Fin 4096) : EReal := gcolOf (V c main_v0_2) d j

/-- The score row cut into 4 tiles of 1024 (entry u of tile n is key row u + 1024 n). -/
def sT (c : Dev nD) (r : Fin 4096) : ℕ → Fin 1024 → EReal := tiles (T := 4) (B := 1024) (frow V c r) 0
/-- The value column cut the same way. -/
def vT (c : Dev nD) (d : Fin 1024) : ℕ → Fin 1024 → EReal := tiles (T := 4) (B := 1024) (gcol V c d) 0

theorem tile_lt (t : Fin cfg1.N) : t.val % 4 < 4 := Nat.mod_lt _ (by norm_num)

/-- Key row u of tile t mod 4 is the flat position u + 1024 (t mod 4). -/
theorem rowK_flat (t : Fin cfg1.N) (u : Fin 1024) :
    rowK t u = (finProdFinEquiv ((⟨t.val % 4, tile_lt t⟩ : Fin 4), u) : Fin (4 * 1024)) :=
  Fin.ext (by
    show 1024 * (t.val % 4) + u.val = u.val + 1024 * (t.val % 4)
    omega)

/-- The scores the body computes at point t for row p of the query block are tile t mod 4 of the row's scores. -/
theorem score_tile (c : Dev nD) (t : Fin cfg1.N) (p : Fin 256) :
    tileScore (iblk1 V c 0 t) (iblk1 V c 1 t) p = sT V c (rowQ t p) (t.val % 4) := by
  funext u
  unfold tileScore sT
  rw [tiles_of_lt _ _ _ (tile_lt t), ← rowK_flat]
  unfold frow frowOf
  exact Finset.sum_congr rfl fun e _ => by rw [q_apply, k_apply]

/-- The value tile the body reads at point t is tile t mod 4 of the value column. -/
theorem value_tile (c : Dev nD) (t : Fin cfg1.N) (d : Fin 1024) (u : Fin 1024) :
    iblk1 V c 2 t (ix2 u d) = vT V c d (t.val % 4) u := by
  unfold vT
  rw [tiles_of_lt _ _ _ (tile_lt t), ← rowK_flat]
  unfold gcol gcolOf
  exact v_apply V c t u d

/-! ## One key tile is one step of the recurrence -/

/-- If before point t row p of the kept buffers holds the recurrence's state after t mod 4 tiles, the body's three new
    values at row p are the state after one more tile. -/
theorem step_eq (c : Dev nD) (t : Fin cfg1.N) (p : Fin 256) (d : Fin 1024) (xm xl : Vec Ideal S256x1 .f32) (xa : Vec Ideal S256x1024 .f32)
    (hm : xm (ix2 p 0) = (state (sT V c (rowQ t p)) (vT V c d) (t.val % 4)).m)
    (hl : xl (ix2 p 0) = (state (sT V c (rowQ t p)) (vT V c d) (t.val % 4)).l)
    (ha : xa (ix2 p d) = (state (sT V c (rowQ t p)) (vT V c d) (t.val % 4)).a) :
    k1_pay2 (F := Ideal) (k1_pay8 (iblk1 V c 0 t) (iblk1 V c 1 t) xm) (ix2 p 0) = (state (sT V c (rowQ t p)) (vT V c d) (t.val % 4 + 1)).m
    ∧ k1_pay11 (F := Ideal) (iblk1 V c 0 t) (iblk1 V c 1 t) xm xm xl (ix2 p 0) = (state (sT V c (rowQ t p)) (vT V c d) (t.val % 4 + 1)).l
    ∧ k1_pay1 (F := Ideal) (k1_pay12 (iblk1 V c 0 t) (iblk1 V c 1 t) (iblk1 V c 2 t) xm xm xa) (ix2 p d) = (state (sT V c (rowQ t p)) (vT V c d) (t.val % 4 + 1)).a := by
  refine ⟨?_, ?_, ?_⟩
  · rw [newMax_apply, score_tile, hm]; rfl
  · rw [newSum_apply, score_tile, hm, hl]; rfl
  · rw [newAcc_apply, score_tile, hm, ha]
    simp only [value_tile]
    rfl

/-! ## The kept buffers after every point -/

/-- After point t, row p of the kept buffers holds the recurrence's state after t mod 4 + 1 tiles of query row
    256 (t / 4) + p (the weighted sum for column d). -/
def Kept (c : Dev nD) (t : Fin cfg1.N) (p : Fin 256) (d : Fin 1024) : Prop :=
  (stAt V c t.val t.isLt).2.1 (ix2 p 0) = (state (sT V c (rowQ t p)) (vT V c d) (t.val % 4 + 1)).m
  ∧ (stAt V c t.val t.isLt).2.2.1 (ix2 p 0) = (state (sT V c (rowQ t p)) (vT V c d) (t.val % 4 + 1)).l
  ∧ (stAt V c t.val t.isLt).2.2.2 (ix2 p d) = (state (sT V c (rowQ t p)) (vT V c d) (t.val % 4 + 1)).a

/-- A first key tile starts the recurrence: one tile from (−∞, 0, 0). -/
theorem kept_first (c : Dev nD) (t : Fin cfg1.N) (h0 : t.val % 4 = 0) (p : Fin 256) (d : Fin 1024) : Kept V c t p d := by
  unfold Kept
  rw [stAt_first V c t h0]
  unfold afterFirst; dsimp only
  rw [first_m, first_l, first_a]
  refine step_eq V c t p d (k1_pay4 (F := Ideal)) (k1_pay5 (F := Ideal)) (k1_pay6 (F := Ideal)) ?_ ?_ ?_
  · rw [h0]; exact resetMax_apply p
  · rw [h0]; exact resetSum_apply p
  · rw [h0]; exact resetAcc_apply p d

/-- The point before t, when t is not a first key tile. -/
def before (t : Fin cfg1.N) : Fin cfg1.N := ⟨t.val - 1, Nat.lt_of_le_of_lt (Nat.sub_le _ _) t.isLt⟩

theorem before_row (t : Fin cfg1.N) (h0 : ¬t.val % 4 = 0) (p : Fin 256) : rowQ (before t) p = rowQ t p :=
  Fin.ext (by
    show 256 * ((t.val - 1) / 4) + p.val = 256 * (t.val / 4) + p.val
    omega)

theorem before_tile (t : Fin cfg1.N) (h0 : ¬t.val % 4 = 0) : (before t).val % 4 + 1 = t.val % 4 := by
  show (t.val - 1) % 4 + 1 = t.val % 4
  omega

/-- What the point before left, restated at point t's row and tile count. -/
theorem kept_before (c : Dev nD) (t : Fin cfg1.N) (h0 : ¬t.val % 4 = 0) (p : Fin 256) (d : Fin 1024) (h : Kept V c (before t) p d) :
    (stAt V c (t.val - 1) (Nat.lt_of_le_of_lt (Nat.sub_le _ _) t.isLt)).2.1 (ix2 p 0) = (state (sT V c (rowQ t p)) (vT V c d) (t.val % 4)).m
    ∧ (stAt V c (t.val - 1) (Nat.lt_of_le_of_lt (Nat.sub_le _ _) t.isLt)).2.2.1 (ix2 p 0) = (state (sT V c (rowQ t p)) (vT V c d) (t.val % 4)).l
    ∧ (stAt V c (t.val - 1) (Nat.lt_of_le_of_lt (Nat.sub_le _ _) t.isLt)).2.2.2 (ix2 p d) = (state (sT V c (rowQ t p)) (vT V c d) (t.val % 4)).a := by
  unfold Kept at h
  rw [before_row t h0 p, before_tile t h0] at h
  exact h

/-- A middle key tile continues the recurrence. -/
theorem kept_mid (c : Dev nD) (t : Fin cfg1.N) (h0 : ¬t.val % 4 = 0) (h1 : ¬t.val % 4 = 3) (p : Fin 256) (d : Fin 1024)
    (h : Kept V c (before t) p d) : Kept V c t p d := by
  have IH := kept_before V c t h0 p d h
  unfold Kept
  rw [stAt_mid V c t h0 h1]
  unfold afterMid; dsimp only
  generalize stAt V c (t.val - 1) _ = prev at IH ⊢
  obtain ⟨hm, hl, ha⟩ := IH
  rw [mid_m, mid_l, mid_a]
  exact step_eq V c t p d prev.2.1 prev.2.2.1 prev.2.2.2 hm hl ha

/-- A last key tile continues the recurrence. -/
theorem kept_last (c : Dev nD) (t : Fin cfg1.N) (h0 : ¬t.val % 4 = 0) (h1 : t.val % 4 = 3) (p : Fin 256) (d : Fin 1024)
    (h : Kept V c (before t) p d) : Kept V c t p d := by
  have IH := kept_before V c t h0 p d h
  unfold Kept
  rw [stAt_last V c t h0 h1]
  unfold afterLast; dsimp only
  generalize stAt V c (t.val - 1) _ = prev at IH ⊢
  obtain ⟨hm, hl, ha⟩ := IH
  rw [last_m, last_l, last_a]
  exact step_eq V c t p d prev.2.1 prev.2.2.1 prev.2.2.2 hm hl ha

theorem kept (c : Dev nD) : ∀ (n : ℕ) (t : Fin cfg1.N), t.val = n → ∀ (p : Fin 256) (d : Fin 1024), Kept V c t p d := by
  intro n
  induction n using Nat.strong_induction_on with
  | _ n ih =>
    intro t ht p d
    by_cases h0 : t.val % 4 = 0
    · exact kept_first V c t h0 p d
    · have hpos : t.val ≠ 0 := fun h => h0 (by rw [h])
      have IH : Kept V c (before t) p d := ih (t.val - 1) (by omega) (before t) rfl p d
      by_cases h1 : t.val % 4 = 3
      · exact kept_last V c t h0 h1 p d IH
      · exact kept_mid V c t h0 h1 p d IH

/-! ## The stored quotient -/

/-- At a last key tile the output block holds, at (p, d), the attention of the three arrays at (256 (t / 4) + p, d),
    when the arrays hold real numbers. -/
theorem out_eq (c : Dev nD) (hQ : Cert.Flash.IsReal (V c main_v0_0)) (hK : Cert.Flash.IsReal (V c main_v0_1)) (hW : Cert.Flash.IsReal (V c main_v0_2))
    (t : Fin cfg1.N) (h1 : t.val % 4 = 3) (p : Fin 256) (d : Fin 1024) :
    (stAt V c t.val t.isLt).1 (ix2 p d) = attnQKV (V c main_v0_0) (V c main_v0_1) (V c main_v0_2) (rowQ t p) d := by
  have h0 : ¬t.val % 4 = 0 := by omega
  have K := kept V c t.val t rfl p d
  unfold Kept at K
  rw [stAt_last V c t h0 h1] at K ⊢
  unfold afterLast at K ⊢
  dsimp only at K ⊢
  rw [last_l, last_a] at K
  rw [last_o, quot_apply, K.2.2, K.2.1, h1]
  have hf : ∀ j : Fin (4 * 1024), ∃ r : ℝ, frow V c (rowQ t p) j = (r : EReal) := fun j => by
    choose fq hfq using hQ
    choose fk hfk using hK
    refine ⟨∑ e : Fin 1024, fq (ix2 (rowQ t p) e) * fk (ix2 j e), ?_⟩
    unfold frow frowOf
    simp only [hfq, hfk]
    exact Idealize.ShloMosaic.RealOps.sum_mul_coe _ _ _
  have hg : ∀ j : Fin (4 * 1024), ∃ r : ℝ, gcol V c d j = (r : EReal) := fun j => hW _
  exact quot_eq_tiles (T := 4) (B := 1024) (f := frow V c (rowQ t p)) (g := gcol V c d) (by norm_num) (by norm_num) hf hg 0 0

/-- The result array the attention region leaves: the attention of the three arrays it was entered with. -/
theorem arr1_3 (c : Dev nD) (hQ : Cert.Flash.IsReal (V c main_v0_0)) (hK : Cert.Flash.IsReal (V c main_v0_1)) (hW : Cert.Flash.IsReal (V c main_v0_2)) :
    (dat1 (F := Ideal) V c).arrAt 3 cfg1.N = fun y => attnQKV (V c main_v0_0) (V c main_v0_1) (V c main_v0_2) (y 0) (y 1) :=
  arr1_3_of V c _ fun t h1 p d => out_eq V c hQ hK hW t h1 p d

end Cert.KernelIdeal.V1

end
-- ==== Proof.Reals.lean ====
/-
  Every quantity of the attention before the softmax is a real number when the three argument arrays are.

  The scale constant is the real 1/32.  A projection entry is a finite sum of products of reals, a query entry is that
  times the scale, and a score is again a finite sum of products of such reals: each is the coercion of the real
  number computed the same way.
-/
import proofs.«144214_j65481071395393_2_alg».proof.Proof.Spec
import proofs.«144214_j65481071395393_2_alg».proof.Proof.LibRealOps

noncomputable section

namespace Cert.Flash

open Idealize.ShloMosaic Idealize.ShloMosaic.ValueIdx Idealize.ShloMosaic.RealOps

/-- The scale constant is the real number 1/32. -/
theorem c32_eq : c32 = ((1 / 32 : ℝ) : EReal) := by
  unfold c32
  simp [Ideal.ofBits, Ideal.ieee, -EReal.coe_mul]
  norm_num

/-- The scale constant is a positive real. -/
theorem c32_real : ∃ r : ℝ, 0 < r ∧ c32 = (r : EReal) :=
  ⟨1 / 32, by norm_num, c32_eq⟩

/-- A projection entry of real arrays is a real: a finite sum of products of reals. -/
theorem proj_real {x : Tok} {w : Wgt} (hx : IsReal x) (hw : IsReal w) (i : Fin 4096) (d : Fin 1024) :
    ∃ r : ℝ, proj x w i d = (r : EReal) := by
  choose fx hfx using hx
  choose fw hfw using hw
  refine ⟨∑ e : Fin 1024, fx (ix2 i e) * fw (ix2 e d), ?_⟩
  unfold proj
  simp only [hfx, hfw]
  exact sum_mul_coe _ _ _

/-- A query entry of real arrays is a real: a projection entry times the real scale. -/
theorem qry_real {x : Tok} {wq : Wgt} (hx : IsReal x) (hq : IsReal wq) (i : Fin 4096) (d : Fin 1024) :
    ∃ r : ℝ, qry x wq i d = (r : EReal) := by
  obtain ⟨p, hp⟩ := proj_real hx hq i d
  refine ⟨p * (1 / 32), ?_⟩
  unfold qry
  rw [hp, c32_eq, EReal.coe_mul]

/-- A score of real arrays is a real: a finite sum of products of query and key entries. -/
theorem score_real {x : Tok} {wq wk : Wgt} (hx : IsReal x) (hq : IsReal wq) (hk : IsReal wk) (i j : Fin 4096) :
    ∃ r : ℝ, score x wq wk i j = (r : EReal) := by
  choose fq hfq using fun d => qry_real hx hq i d
  choose fk hfk using fun d => proj_real hx hk j d
  refine ⟨∑ d : Fin 1024, fq d * fk d, ?_⟩
  unfold score
  simp only [hfq, hfk]
  exact sum_mul_coe _ _ _

end Cert.Flash

end
-- ==== Proof.KernelValue.lean ====
/-
  The result array of the whole kernel program, on the extended reals.

  The projection leaves the scaled queries, the keys and (a copy of) the tokens in three arrays; the attention, entered
  with these, leaves in the result array the softmax weights of each query row's scores against the tokens' columns.  Put
  together: when the three argument arrays hold real numbers, the result array is the attention of the arguments.
-/
import proofs.«144214_j65481071395393_2_alg».proof.Proof.Run
import proofs.«144214_j65481071395393_2_alg».proof.Proof.V0
import proofs.«144214_j65481071395393_2_alg».proof.Proof.V1State
import proofs.«144214_j65481071395393_2_alg».proof.Proof.Reals

noncomputable section

namespace Cert.KernelIdeal.Value

open Cert.KernelIdeal Cert.KernelIdeal.Gen
open Idealize.ShloMosaic Idealize.ShloMosaic.TcCoe Idealize.ShloMosaic.ValueIdx Idealize.SL.Sem
open Cert.KernelIdeal.Run (V1 V2 W2 W2_arr)

variable (m : (ℓ : Loc nD τ sig) → Buf (Elt Ideal) ℓ)

/-- The attention of (scaled queries, keys, tokens) is the attention of the arguments. -/
theorem attnQKV_args (x : Cert.Flash.Tok) (wq wk : Cert.Flash.Wgt) (r : Fin 4096) (d : Fin 1024) :
    V1.attnQKV (fun y => Cert.Flash.qry x wq (y 0) (y 1)) (fun y => Cert.Flash.proj x wk (y 0) (y 1)) x r d
      = Cert.Flash.attnAt x wq wk r d := rfl

/-- What the attention region is entered with: the projection's three results. -/
theorem entry_q (c : Dev nD) : V2 m c main_v0_0 = fun y => Cert.Flash.qry (V1 m c main_arg0) (V1 m c main_arg1) (y 0) (y 1) :=
  (W2_arr m c 3).trans (V0.arr0_3 (V1 m) c)
theorem entry_k (c : Dev nD) : V2 m c main_v0_1 = fun y => Cert.Flash.proj (V1 m c main_arg0) (V1 m c main_arg2) (y 0) (y 1) :=
  (W2_arr m c 4).trans (V0.arr0_4 (V1 m) c)
theorem entry_v (c : Dev nD) : V2 m c main_v0_2 = V1 m c main_arg0 :=
  (W2_arr m c 5).trans (V0.arr0_5 (V1 m) c)

/-- With real arguments the program's result array is the attention of the arguments. -/
theorem result_eq (c : Dev nD) (h0 : Cert.Flash.IsReal (m ((c.tc : Thread nD τ).loc main_arg0)))
    (h1 : Cert.Flash.IsReal (m ((c.tc : Thread nD τ).loc main_arg1))) (h2 : Cert.Flash.IsReal (m ((c.tc : Thread nD τ).loc main_arg2))) :
    (R1.dat1 (F := Ideal) (V2 m) c).arrAt 3 cfg1.N
      = Cert.Flash.attn (m ((c.tc : Thread nD τ).loc main_arg0)) (m ((c.tc : Thread nD τ).loc main_arg1)) (m ((c.tc : Thread nD τ).loc main_arg2)) := by
  have hQ : Cert.Flash.IsReal (V2 m c main_v0_0) := by
    rw [entry_q]; exact fun y => Cert.Flash.qry_real h0 h1 (y 0) (y 1)
  have hK : Cert.Flash.IsReal (V2 m c main_v0_1) := by
    rw [entry_k]; exact fun y => Cert.Flash.proj_real h0 h2 (y 0) (y 1)
  have hW : Cert.Flash.IsReal (V2 m c main_v0_2) := by
    rw [entry_v]; exact h0
  rw [V1.arr1_3 (V2 m) c hQ hK hW, entry_q, entry_k, entry_v]
  funext y
  exact attnQKV_args _ _ _ (y 0) (y 1)

end Cert.KernelIdeal.Value

end
-- ==== Proof.RefMath.lean ====
/-
  The reference's score, and the start values of its two row reductions, on the extended reals.

  The reference multiplies the whole inner product of a query row and a key row by the scale; the common function
  scales each query entry first and then takes the inner product.  On the extended reals a factor cannot be moved
  through a sum in general (distributivity fails at an infinite factor), but when the three argument arrays are real
  every entry involved is the coercion of a real number, and there the two are one real sum:
  (Σ_e a_e · b_e) · c = Σ_e (a_e · c) · b_e.

  The row maximum starts from the float word of minus infinity, which denotes the bottom element, and a fold of max
  from the bottom over all the coordinates of a row is the supremum of the row.  The row sum starts from the float
  word of zero, which denotes zero.
-/
import proofs.«144214_j65481071395393_2_alg».proof.Proof.Spec
import proofs.«144214_j65481071395393_2_alg».proof.Proof.LibRealOps
import proofs.«144214_j65481071395393_2_alg».proof.Proof.Reals

noncomputable section

namespace Cert.Flash.Ref

open Idealize.ShloMosaic Idealize.ShloMosaic.ValueIdx Idealize.ShloMosaic.RealOps

/-- The inner product of a query row and a key row, scaled afterwards: the score as the reference computes it. -/
def scoreAfter (x : Tok) (wq wk : Wgt) (i j : Fin 4096) : EReal :=
  (∑ e : Fin 1024, proj x wq i e * proj x wk j e) * c32

/-- On real arrays, scaling the inner product is scaling each query entry: both are the real number
    (Σ_e a_e · b_e) / 32 = Σ_e (a_e / 32) · b_e. -/
theorem scoreAfter_eq {x : Tok} {wq wk : Wgt} (hx : IsReal x) (hq : IsReal wq) (hk : IsReal wk) (i j : Fin 4096) :
    scoreAfter x wq wk i j = score x wq wk i j := by
  choose fq hfq using fun e => proj_real hx hq i e
  choose fk hfk using fun e => proj_real hx hk j e
  unfold scoreAfter score qry
  simp only [hfq, hfk, c32_eq]
  rw [sum_mul_coe, ← EReal.coe_mul]
  have hr : ∀ d : Fin 1024, ((fq d : ℝ) : EReal) * ((1 / 32 : ℝ) : EReal) * ((fk d : ℝ) : EReal)
      = ((fq d * (1 / 32) : ℝ) : EReal) * ((fk d : ℝ) : EReal) := fun d => by rw [EReal.coe_mul]
  rw [Finset.sum_congr rfl fun d _ => hr d, sum_mul_coe]
  refine congrArg (fun r : ℝ => (r : EReal)) ?_
  rw [Finset.sum_mul]
  exact Finset.sum_congr rfl fun d _ => by ring

/-- The float word of minus infinity denotes the bottom element. -/
theorem ofBits_neg_inf : Ideal.ofBits .f32 0xFF800000#32 = (⊥ : EReal) := by
  simp [Ideal.ofBits, Ideal.ieee]

/-- A fold of max from the bottom element over a finite set is the supremum over the set. -/
theorem fold_max_bot {ι : Type*} (S : Finset ι) (f : ι → EReal) : S.fold max ⊥ f = S.sup f := by
  classical
  induction S using Finset.induction_on with
  | empty => rw [Finset.fold_empty, Finset.sup_empty]
  | insert a S ha ih => rw [Finset.fold_insert ha, Finset.sup_insert, ih]

end Cert.Flash.Ref

end
-- ==== Proof.RefRead.lean ====
/-
  The reference program, read one stage at a time at an index by coordinates, is the common attention function.

  Each stage's value at (i, j) is written from the values of the stages before it at coordinates: the two
  projections are the sums the common function calls proj; the transposed key projection read at (e, j) is the key
  projection at (j, e); the score array at (i, j) is the inner product of query row i and key row j times the scale;
  the row maximum is the supremum over the row (a fold of max from minus infinity, and the further maximum against
  minus infinity changes nothing); the exponentials, their row sum (started from zero, which adds nothing), the
  quotient and the last product against x follow.  What is left differs from the common function only in where the
  scale multiplies, and on real arrays that is no difference.
-/
import proofs.«144214_j65481071395393_2_alg».proof.Proof.Gen.ReferenceIdeal.Read
import proofs.«144214_j65481071395393_2_alg».proof.Proof.Spec
import proofs.«144214_j65481071395393_2_alg».proof.Proof.RefMath

noncomputable section

namespace Cert.Flash.Ref

open Idealize.ShloMosaic Idealize.ShloMosaic.ValueIdx
open Cert.ReferenceIdeal Cert.ReferenceIdeal.Gen Cert.ReferenceIdeal.Read

/-! ## A maximum along the last axis of a rank-two array, read at an index -/

section HostMax
variable {a b : ℕ}

/-- Over the row p, the coordinate k put on the last axis: the index (p, k). -/
theorem lift_last2 (h : (⟨2, ![a, b]⟩ : Shape).Reduces [1] ⟨1, ![a]⟩) (p : Fin a) (k : Fin b) :
    h.lift (ix1 p) k = ix2 p k := by
  funext d
  match d with
  | ⟨0, _⟩ => exact Fin.ext rfl
  | ⟨1, _⟩ => exact Fin.ext rfl

/-- The maximum along the last axis, read at p: the fold of max over the entries x (p, k) from the start value. -/
theorem hostMax_last2 (x : (⟨2, ![a, b]⟩ : Shape).Idx → EReal) (init : (⟨0, ![]⟩ : Shape).Idx → EReal)
    (h' : (⟨2, ![a, b]⟩ : Shape).ReducesTo [1] ⟨1, ![a]⟩) (hu : 0 < (⟨0, ![]⟩ : Shape).numel) (p : Fin a) :
    Host.reduce (FloatOps.maximumf (F := Ideal) (φ := .f32)) x init h' hu (ix1 p)
      = (Finset.univ : Finset (Fin b)).fold max (init ix0) (fun k => x (ix2 p k)) := by
  have h : (⟨2, ![a, b]⟩ : Shape).Reduces [1] ⟨1, ![a]⟩ := ⟨h'.1, Nat.one_pos, h'.2⟩
  refine (Host.reduce_eq_fold_single _ x init h' h hu (ix1 p)).trans ?_
  rw [eq_ix0 (Shape.Idx.first hu)]
  exact Finset.fold_congr fun k _ => congrArg x (lift_last2 h p k)

end HostMax

/-! ## The stages at coordinates -/

section Stages
variable (x0 : (⟨S4096x1024, .f32⟩ : BufTy).Contents (Elt Ideal))
variable (x1 x2 : (⟨S1024x1024, .f32⟩ : BufTy).Contents (Elt Ideal))

/-- The query projection at (i, d). -/
theorem v0_ix2 (i : Fin 4096) (d : Fin 1024) : val_main_v0 (F := Ideal) x0 x1 (ix2 i d) = proj x0 x1 i d := by
  rw [val_main_v0_apply]
  refine Finset.sum_congr rfl fun k _ => ?_
  have el : lidx_main_v0 (ix2 i d) k = ix2 i k := funext fun c => by
    match c with
    | ⟨0, _⟩ => rfl
    | ⟨1, _⟩ => rfl
  have er : ridx_main_v0 (ix2 i d) k = ix2 k d := funext fun c => by
    match c with
    | ⟨0, _⟩ => rfl
    | ⟨1, _⟩ => rfl
  rw [el, er]

/-- The key projection at (j, d). -/
theorem v1_ix2 (j : Fin 4096) (d : Fin 1024) : val_main_v1 (F := Ideal) x0 x2 (ix2 j d) = proj x0 x2 j d := by
  rw [val_main_v1_apply]
  refine Finset.sum_congr rfl fun k _ => ?_
  have el : lidx_main_v1 (ix2 j d) k = ix2 j k := funext fun c => by
    match c with
    | ⟨0, _⟩ => rfl
    | ⟨1, _⟩ => rfl
  have er : ridx_main_v1 (ix2 j d) k = ix2 k d := funext fun c => by
    match c with
    | ⟨0, _⟩ => rfl
    | ⟨1, _⟩ => rfl
  rw [el, er]

/-- The transposed key projection at (e, j) is the key projection at (j, e). -/
theorem v2_ix2 (e : Fin 1024) (j : Fin 4096) : val_main_v2 (F := Ideal) x0 x2 (ix2 e j) = proj x0 x2 j e := by
  rw [val_main_v2_apply]
  have ei : idx_main_v2 (ix2 e j) = ix2 j e := funext fun c => by
    match c with
    | ⟨0, _⟩ => rfl
    | ⟨1, _⟩ => rfl
  rw [ei, v1_ix2]

/-- The unscaled score at (i, j): the inner product of query row i and key row j. -/
theorem v3_ix2 (i j : Fin 4096) :
    val_main_v3 (F := Ideal) x0 x1 x2 (ix2 i j) = ∑ e : Fin 1024, proj x0 x1 i e * proj x0 x2 j e := by
  rw [val_main_v3_apply]
  refine Finset.sum_congr rfl fun k _ => ?_
  have el : lidx_main_v3 (ix2 i j) k = ix2 i k := funext fun c => by
    match c with
    | ⟨0, _⟩ => rfl
    | ⟨1, _⟩ => rfl
  have er : ridx_main_v3 (ix2 i j) k = ix2 k j := funext fun c => by
    match c with
    | ⟨0, _⟩ => rfl
    | ⟨1, _⟩ => rfl
  rw [el, er, v0_ix2, v2_ix2]

/-- The broadcast scale is the scale constant everywhere. -/
theorem v4_apply (y : S4096x4096.Idx) : val_main_v4 (F := Ideal) y = c32 := by
  rw [val_main_v4_apply, val_main_cst_apply]
  rfl

/-- The score at (i, j): the inner product, then the scale. -/
theorem v5_ix2 (i j : Fin 4096) : val_main_v5 (F := Ideal) x0 x1 x2 (ix2 i j) = scoreAfter x0 x1 x2 i j := by
  rw [val_main_v5_apply, v3_ix2, v4_apply]
  rfl

/-- The row maximum at i: the supremum of row i of the scores. -/
theorem v6_ix1 (i : Fin 4096) :
    val_main_v6 (F := Ideal) x0 x1 x2 (ix1 i) = Finset.univ.sup fun k : Fin 4096 => scoreAfter x0 x1 x2 i k := by
  unfold val_main_v6
  refine (hostMax_last2 (val_main_v5 (F := Ideal) x0 x1 x2) (val_main_cst_0 (F := Ideal))
    reducesTo_S4096x4096_S4096_d1 h_S_ i).trans ?_
  rw [val_main_cst_0_apply, Ideal.ofBits_def, ofBits_neg_inf, fold_max_bot]
  exact congrArg (Finset.univ.sup) (funext fun k => v5_ix2 x0 x1 x2 i k)

/-- The maximum of the row maximum against minus infinity is the row maximum. -/
theorem v8_ix1 (i : Fin 4096) :
    val_main_v8 (F := Ideal) x0 x1 x2 (ix1 i) = Finset.univ.sup fun k : Fin 4096 => scoreAfter x0 x1 x2 i k := by
  rw [val_main_v8_apply, val_main_v7_apply, val_main_cst_1_apply, Ideal.ofBits_def, ofBits_neg_inf, v6_ix1,
    Ideal.maximumf_def]
  exact max_eq_right bot_le

/-- The row maximum broadcast across the row. -/
theorem v10_ix2 (i j : Fin 4096) :
    val_main_v10 (F := Ideal) x0 x1 x2 (ix2 i j) = Finset.univ.sup fun k : Fin 4096 => scoreAfter x0 x1 x2 i k := by
  rw [val_main_v10_apply, val_main_v9_apply]
  have ei : idx_main_v9 (idx_main_v10 (ix2 i j)) = ix1 i := funext fun c => by
    match c with
    | ⟨0, _⟩ => rfl
  rw [ei, v8_ix1]

/-- The exponential of the score less the row maximum. -/
theorem v12_ix2 (i j : Fin 4096) :
    val_main_v12 (F := Ideal) x0 x1 x2 (ix2 i j)
      = Ideal.exp (scoreAfter x0 x1 x2 i j - Finset.univ.sup fun k : Fin 4096 => scoreAfter x0 x1 x2 i k) := by
  rw [val_main_v12_apply, val_main_v11_apply, v5_ix2, v10_ix2]
  rfl

/-- The row sum of the exponentials (the start value zero adds nothing). -/
theorem v13_ix1 (i : Fin 4096) :
    val_main_v13 (F := Ideal) x0 x1 x2 (ix1 i)
      = ∑ j : Fin 4096,
          Ideal.exp (scoreAfter x0 x1 x2 i j - Finset.univ.sup fun k : Fin 4096 => scoreAfter x0 x1 x2 i k) := by
  rw [val_main_v13_apply, val_main_cst_2_apply, Ideal.ofBits_def, Ideal.ofBits_zero_f32, zero_add]
  refine Finset.sum_congr rfl fun k _ => ?_
  have ei : idx_main_v13 (ix1 i) k = ix2 i k := funext fun c => by
    match c with
    | ⟨0, _⟩ => rfl
    | ⟨1, _⟩ => rfl
  rw [ei, v12_ix2]

/-- The row sum broadcast across the row. -/
theorem v15_ix2 (i j : Fin 4096) :
    val_main_v15 (F := Ideal) x0 x1 x2 (ix2 i j)
      = ∑ j' : Fin 4096,
          Ideal.exp (scoreAfter x0 x1 x2 i j' - Finset.univ.sup fun k : Fin 4096 => scoreAfter x0 x1 x2 i k) := by
  rw [val_main_v15_apply, val_main_v14_apply]
  have ei : idx_main_v14 (idx_main_v15 (ix2 i j)) = ix1 i := funext fun c => by
    match c with
    | ⟨0, _⟩ => rfl
  rw [ei, v13_ix1]

/-- The softmax weight at (i, j). -/
theorem v16_ix2 (i j : Fin 4096) :
    val_main_v16 (F := Ideal) x0 x1 x2 (ix2 i j)
      = Ideal.div
          (Ideal.exp (scoreAfter x0 x1 x2 i j - Finset.univ.sup fun k : Fin 4096 => scoreAfter x0 x1 x2 i k))
          (∑ j' : Fin 4096,
            Ideal.exp (scoreAfter x0 x1 x2 i j' - Finset.univ.sup fun k : Fin 4096 => scoreAfter x0 x1 x2 i k)) := by
  rw [val_main_v16_apply, v12_ix2, v15_ix2]
  rfl

/-- The result at (i, d): the softmax weights of row i against column d of x. -/
theorem v17_ix2 (i : Fin 4096) (d : Fin 1024) :
    val_main_v17 (F := Ideal) x0 x1 x2 (ix2 i d)
      = ∑ j : Fin 4096,
          Ideal.div
            (Ideal.exp (scoreAfter x0 x1 x2 i j - Finset.univ.sup fun k : Fin 4096 => scoreAfter x0 x1 x2 i k))
            (∑ j' : Fin 4096,
              Ideal.exp (scoreAfter x0 x1 x2 i j' - Finset.univ.sup fun k : Fin 4096 => scoreAfter x0 x1 x2 i k))
          * x0 (ix2 j d) := by
  rw [val_main_v17_apply]
  refine Finset.sum_congr rfl fun k _ => ?_
  have el : lidx_main_v17 (ix2 i d) k = ix2 i k := funext fun c => by
    match c with
    | ⟨0, _⟩ => rfl
    | ⟨1, _⟩ => rfl
  have er : ridx_main_v17 (ix2 i d) k = ix2 k d := funext fun c => by
    match c with
    | ⟨0, _⟩ => rfl
    | ⟨1, _⟩ => rfl
  rw [el, er, v16_ix2]

end Stages

/-! ## The reference is the common function -/

/-- On real arrays the reference's result is the attention. -/
theorem ref_eq
    (x0 : (⟨Cert.ReferenceIdeal.S4096x1024, .f32⟩ : BufTy).Contents (Elt Ideal))
    (x1 x2 : (⟨Cert.ReferenceIdeal.S1024x1024, .f32⟩ : BufTy).Contents (Elt Ideal))
    (h0 : Cert.Flash.IsReal x0) (h1 : Cert.Flash.IsReal x1) (h2 : Cert.Flash.IsReal x2) :
    Cert.ReferenceIdeal.Read.val_main_v17 (F := Ideal) x0 x1 x2 = Cert.Flash.attn x0 x1 x2 := by
  funext y
  obtain ⟨i, d, rfl⟩ : ∃ i d, y = ix2 i d := ⟨y 0, y 1, eq_ix2 y⟩
  rw [attn_ix2, v17_ix2]
  have hs : (fun k : Fin 4096 => scoreAfter x0 x1 x2 i k) = score x0 x1 x2 i :=
    funext fun k => scoreAfter_eq h0 h1 h2 i k
  simp only [hs, scoreAfter_eq h0 h1 h2]
  rfl

end Cert.Flash.Ref

end
-- ==== Proof.PreReal.lean ====
/-
  The precondition read back: each of the three argument arrays has only real entries.

  The precondition is the conjunction, over the three arrays, of "every entry x has |x| < +infinity", each printed as
  the reduction by "and" over all indices of the elementwise comparison of |x| with the float word of +infinity.  The
  conjunction being 1 makes each reduction 1; a reduction by "and" into a single result that is 1 met a 1 at every
  index; and the comparison |x| < +infinity answers 1 exactly when x is a real number.
-/
import proofs.«144214_j65481071395393_2_alg».proof.Defs
import proofs.«144214_j65481071395393_2_alg».proof.Proof.Gen.Pre_finite_inputs
import proofs.«144214_j65481071395393_2_alg».proof.Proof.Spec
import proofs.«144214_j65481071395393_2_alg».proof.Proof.LibRealOps
import Idealize.ShloMosaic.Lib.ReduceAll

noncomputable section

namespace Cert.Flash.Pre

open Idealize.ShloMosaic Idealize.ShloMosaic.ValueIdx Idealize.ShloMosaic.RealOps

/-- The shape of rank 0 has a single index. -/
instance : Subsingleton Cert.Pre_finite_inputs.S_.Idx := ⟨fun a b => funext fun d => d.elim0⟩

/-- One array: if the reduction by "and", over all indices, of the test |x| < +infinity is 1, every entry is a real. -/
theorem all_real (s : Shape) {axes : List (Fin s.rank)} (x : s.Idx → EReal)
    (bc : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf (F := Ideal) (φ := .f32) .olt (Host.absf x)
            (broadcastInDim s ![] bc (constant Cert.Pre_finite_inputs.S_ .f32 0x7F800000#32)))
          init hr hu ix0 = 1#1) : IsReal x := by
  intro y
  have hy := Host.reduce_andi_all _ init hr hu ix0 e y
  exact (cmp_abs_lt_inf (x y)).1 hy

/-- The precondition makes all three argument arrays real. -/
theorem pre_real [hP : Cert.Pre_finite_inputs.Facts]
    (x0 : (⟨Cert.Pre_finite_inputs.S4096x1024, .f32⟩ : BufTy).Contents (Elt Ideal))
    (x1 x2 : (⟨Cert.Pre_finite_inputs.S1024x1024, .f32⟩ : BufTy).Contents (Elt Ideal))
    (h : Cert.Pre_finite_inputs.fn (F := Ideal) x0 x1 x2 = fun _ => 1#1) :
    IsReal x0 ∧ IsReal x1 ∧ IsReal x2 := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨all_real Cert.Pre_finite_inputs.S4096x1024 x0 _ _ _ _ h0',
    all_real Cert.Pre_finite_inputs.S1024x1024 x1 _ _ _ _ h1,
    all_real Cert.Pre_finite_inputs.S1024x1024 x2 _ _ _ _ h2⟩

end Cert.Flash.Pre

end
-- ==== Proof.lean ====
/-
  The certificate: a flash-attention kernel against softmax((x·wq)·(x·wk)ᵀ / 32)·x.

  The kernel program is two regions.  The projection computes, per block of 256 token rows, the queries (x·wq) scaled
  by 1/32, the keys x·wk, and a copy of the tokens.  The attention then walks, for each block of 256 query rows, over the
  four tiles of 1024 key rows, keeping per query row the running maximum of the scores, the running sum of the
  exponentials and the running weighted sum of the value rows, and stores their quotient at the last tile.  Tile by
  tile this is the online softmax recurrence, which for real scores and values equals the two-pass softmax; the scale
  sits on the queries in the kernel and on the scores in the reference, the same number for reals.  So with real inputs
  both programs end with the same array, index by index, on the extended reals.

  The three frames: the kernel program's run (both regions entered and left at named buffer contents, for any float
  instance) gives its frame at the word-level and at the ideal instance; the reference's frame is its run with the result
  dropped.  The idealization rewrote nothing, so there is nothing to preserve.
-/
import proofs.«144214_j65481071395393_2_alg».proof.Defs
import proofs.«144214_j65481071395393_2_alg».proof.Proof.Gen.Kernel
import proofs.«144214_j65481071395393_2_alg».proof.Proof.Gen.KernelIdeal
import proofs.«144214_j65481071395393_2_alg».proof.Proof.Gen.ReferenceIdeal
import proofs.«144214_j65481071395393_2_alg».proof.Proof.Gen.Pre_finite_inputs
import proofs.«144214_j65481071395393_2_alg».proof.Proof.Gen.ReferenceIdeal.Run
import proofs.«144214_j65481071395393_2_alg».proof.Proof.Gen.ReferenceIdeal.Read
import proofs.«144214_j65481071395393_2_alg».proof.Proof.WordRun
import proofs.«144214_j65481071395393_2_alg».proof.Proof.Run
import proofs.«144214_j65481071395393_2_alg».proof.Proof.KernelValue
import proofs.«144214_j65481071395393_2_alg».proof.Proof.RefRead
import proofs.«144214_j65481071395393_2_alg».proof.Proof.PreReal
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The program as printed runs to the end and leaves its three arguments as launched. -/
theorem frame_word : Cert.frame_Kernel := fun m ρ _ =>
  (θ_run (Cert.Kernel.defs (F := Bits)) _ _).mono (fun _ h c => ⟨(h c).2.1, (h c).2.2.1, (h c).2.2.2⟩)
    (Cert.Kernel.Run.run_named (F := Bits) m ρ)

/-- So does its idealization. -/
theorem frame_ideal : Cert.frame_KernelIdeal := fun m ρ _ =>
  (θ_run (Cert.KernelIdeal.defs (F := Ideal)) _ _).mono (fun _ h c => ⟨(h c).2.1, (h c).2.2.1, (h c).2.2.2⟩)
    (Cert.KernelIdeal.Run.run_named (F := Ideal) m ρ)

/-- The reference's frame is its run with the result dropped. -/
theorem frame_ref : Cert.frame_ReferenceIdeal := fun m ρ _ =>
  (θ_run (Cert.ReferenceIdeal.defs (F := Ideal)) _ _).mono (fun _ h c => (h c).2) (Cert.ReferenceIdeal.Value.run (F := Ideal) m ρ)

/-- The idealization rewrote no operation. -/
theorem preserves : Cert.preserves_Kernel_KernelIdeal := trivial

/-- With real inputs both idealized programs end with the attention of the arguments in their result arrays. -/
theorem algebraic : Cert.algebraic_KernelIdeal_ReferenceIdeal := by
  intro m ρ m' ρ' hpre hagree
  refine ⟨fun c => Cert.Flash.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run (Cert.KernelIdeal.defs (F := Ideal)) _ _).mono (fun _ h c => ⟨(h c).1.trans ?_, (h c).2⟩)
      (Cert.KernelIdeal.Run.run_named (F := Ideal) m ρ)
    obtain ⟨h0, h1, h2⟩ := Cert.Flash.Pre.pre_real _ _ _ (hpre c)
    exact Cert.KernelIdeal.Value.result_eq m c h0 h1 h2
  · refine (θ_run (Cert.ReferenceIdeal.defs (F := Ideal)) _ _).mono (fun _ h c => ⟨(h c).1.trans ?_, (h c).2⟩)
      (Cert.ReferenceIdeal.Value.run (F := Ideal) m' ρ')
    obtain ⟨h0, h1, h2⟩ := Cert.Flash.Pre.pre_real _ _ _ (hpre c)
    rw [(hagree c).1, (hagree c).2.1, (hagree c).2.2, Cert.ReferenceIdeal.Read.val_main_v17_eq]
    exact Cert.Flash.Ref.ref_eq _ _ _ h0 h1 h2

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
